-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x3 : Shape := ⟨3, ![2, 4096, 3]⟩
abbrev S2x4096x1 : Shape := ⟨3, ![2, 4096, 1]⟩
abbrev S_ : Shape := ⟨0, ![]⟩

class Facts : Prop where
  bcast_S_S2x4096x3 : S_.BroadcastsInDim S2x4096x3 (![] : Fin 0 → Fin S2x4096x3.rank)
  reducesTo_S2x4096x3_S_d0_1_2 : S2x4096x3.ReducesTo [0, 1, 2] S_
  h_S_ : 0 < S_.numel
  bcast_S_S2x4096x1 : S_.BroadcastsInDim S2x4096x1 (![] : Fin 0 → Fin S2x4096x1.rank)
  reducesTo_S2x4096x1_S_d0_1_2 : S2x4096x1.ReducesTo [0, 1, 2] S_
  reducesTo_S_S_d : S_.ReducesTo [] S_

variable [Facts]

def fn_part1 {F : FTy → Type} [FloatOps F] (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  main_v17

def fn {F : FTy → Type} [FloatOps F] (main_arg0 : FVec F S2x4096x3 .f32) (main_arg1 : FVec F S2x4096x3 .f32) (main_arg2 : FVec F S2x4096x1 .f32) (main_arg3 : FVec F S_ .f32) : IVec S_ 1 :=
  let main_v0 : FVec F S2x4096x3 .f32 := Host.absf main_arg0
  let main_cst : FVec F S_ .f32 := constant S_ .f32 0x7F800000#32
  let main_v1 : FVec F S2x4096x3 .f32 := broadcastInDim S2x4096x3 ![] bcast_S_S2x4096x3 main_cst
  let main_v2 : IVec S2x4096x3 1 := cmpf .olt main_v0 main_v1
  let main_c : IVec S_ 1 := constantI S_ 1 1#1
  let main_v3 : IVec S_ 1 := (fun x v => Host.reduce IntOp.andi x v reducesTo_S2x4096x3_S_d0_1_2 h_S_) main_v2 main_c
  let main_v4 : FVec F S2x4096x3 .f32 := Host.absf main_arg1
  let main_cst_0 : FVec F S_ .f32 := constant S_ .f32 0x7F800000#32
  let main_v5 : FVec F S2x4096x3 .f32 := broadcastInDim S2x4096x3 ![] bcast_S_S2x4096x3 main_cst_0
  let main_v6 : IVec S2x4096x3 1 := cmpf .olt main_v4 main_v5
  let main_c_1 : IVec S_ 1 := constantI S_ 1 1#1
  let main_v7 : IVec S_ 1 := (fun x v => Host.reduce IntOp.andi x v reducesTo_S2x4096x3_S_d0_1_2 h_S_) main_v6 main_c_1
  let main_v8 : IVec S_ 1 := andi main_v3 main_v7
  let main_v9 : FVec F S2x4096x1 .f32 := Host.absf main_arg2
  let main_cst_2 : FVec F S_ .f32 := constant S_ .f32 0x7F800000#32
  let main_v10 : FVec F S2x4096x1 .f32 := broadcastInDim S2x4096x1 ![] bcast_S_S2x4096x1 main_cst_2
  let main_v11 : IVec S2x4096x1 1 := cmpf .olt main_v9 main_v10
  let main_c_3 : IVec S_ 1 := constantI S_ 1 1#1
  let main_v12 : IVec S_ 1 := (fun x v => Host.reduce IntOp.andi x v reducesTo_S2x4096x1_S_d0_1_2 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_c_5 : IVec S_ 1 := constantI S_ 1 1#1
  fn_part1 (F := F) main_v13 main_v15 main_c_5
-- ==== Kernel.lean ====
abbrev S2x4096x3 : Shape := ⟨3, ![2, 4096, 3]⟩
abbrev S2x4096x1 : Shape := ⟨3, ![2, 4096, 1]⟩
abbrev S_ : Shape := ⟨0, ![]⟩
abbrev S36 : Shape := ⟨1, ![36]⟩
abbrev S2x3x4096 : Shape := ⟨3, ![2, 3, 4096]⟩
abbrev S1x512x3 : Shape := ⟨3, ![1, 512, 3]⟩
abbrev S1 : Shape := ⟨1, ![1]⟩
abbrev S1x3x512 : Shape := ⟨3, ![1, 3, 512]⟩
abbrev S1x4096x3 : Shape := ⟨3, ![1, 4096, 3]⟩
abbrev S4096x3 : Shape := ⟨2, ![4096, 3]⟩
abbrev S512x3 : Shape := ⟨2, ![512, 3]⟩
abbrev S3x512 : Shape := ⟨2, ![3, 512]⟩
abbrev S512x1 : Shape := ⟨2, ![512, 1]⟩
abbrev S1x512 : Shape := ⟨2, ![1, 512]⟩
abbrev S512x512 : Shape := ⟨2, ![512, 512]⟩
abbrev S512 : Shape := ⟨1, ![512]⟩

abbrev nBuf : Space → Nat
  | .hbm => 8
  | .vmem => 7
  | .smem => 2
  | _ => 0

abbrev bufTy : (tb : Table) → Fin (tcTables nBuf tb) → BufTy
  | .hbm, ⟨0, _⟩ => ⟨S2x4096x3, .f32⟩
  | .hbm, ⟨1, _⟩ => ⟨S2x4096x3, .f32⟩
  | .hbm, ⟨2, _⟩ => ⟨S2x4096x1, .f32⟩
  | .hbm, ⟨3, _⟩ => ⟨S_, .f32⟩
  | .hbm, ⟨4, _⟩ => ⟨S2x4096x3, .f32⟩
  | .hbm, ⟨5, _⟩ => ⟨S2x4096x3, .f32⟩
  | .hbm, ⟨6, _⟩ => ⟨S2x3x4096, .f32⟩
  | .hbm, ⟨7, _⟩ => ⟨S2x4096x3, .f32⟩
  | .local _ .vmem, ⟨0, _⟩ => ⟨S1x512x3, .f32⟩
  | .local _ .vmem, ⟨1, _⟩ => ⟨S1x512x3, .f32⟩
  | .local _ .vmem, ⟨2, _⟩ => ⟨S1x3x512, .f32⟩
  | .local _ .vmem, ⟨3, _⟩ => ⟨S1x3x512, .f32⟩
  | .local _ .vmem, ⟨4, _⟩ => ⟨S1x4096x3, .f32⟩
  | .local _ .vmem, ⟨5, _⟩ => ⟨S1x4096x3, .f32⟩
  | .local _ .vmem, ⟨6, _⟩ => ⟨S4096x3, .f32⟩
  | .local _ .smem, ⟨0, _⟩ => ⟨S36, .i32⟩
  | .local _ .smem, ⟨1, _⟩ => ⟨S36, .i32⟩
  | _, _ => ⟨S2x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c512_i32 : BitVec 32 := 512#32
  let v58 : BitVec 32 := Scalar.muli v1 c512_i32
  v58

def k0_off2 (v1 : BitVec 32) : Fin 2 → Nat :=
  let c512_i32 : BitVec 32 := 512#32
  let v58 : BitVec 32 := Scalar.muli v1 c512_i32
  let v59 : BitVec 32 := v58
  let v60 : Index := Scalar.indexCast v59
  let c0_14 : Index := 0#32
  ![v60.toNat, 0]

def k0_chk1 (v1 : BitVec 32) : Prop :=
  (512 ∣ (k0_mult1 v1).toNat) ∧
  (∀ a, (k0_off2 v1) a + S512x3.size a ≤ S4096x3.size a)
instance k0_chk1.dec : ∀ (v1 : BitVec 32), Decidable (k0_chk1 v1) := fun v1 => decidable_of_iff' _ (Iff.of_eq (k0_chk1.eq_1 v1))
theorem k0_mult1_dvd : ∀ (v1 : BitVec 32) (k0_hw1 : k0_chk1 v1), 512 ∣ (k0_mult1 v1).toNat := fun v1 k0_hw1 => k0_hw1.1
theorem k0_off2_inb : ∀ (v1 : BitVec 32) (k0_hw1 : k0_chk1 v1), ∀ a, (k0_off2 v1) a + S512x3.size a ≤ S4096x3.size a := fun v1 k0_hw1 => k0_hw1.2

def k0_mult2 (v3 : BitVec 32) : BitVec 32 :=
  let c512_i32_24 : BitVec 32 := 512#32
  let v89 : BitVec 32 := Scalar.muli v3 c512_i32_24
  v89
def k0_cond2 (v1 : BitVec 32) (v3 : BitVec 32) : BitVec 1 :=
  let v4 : BitVec 1 := Scalar.cmpi .eq v1 v3
  let v_true : BitVec 1 := 1#1
  let v67 : BitVec 1 := Scalar.xori v4 v_true
  let v68 : BitVec 32 := Scalar.extui v67
  let c0_i32_16 : BitVec 32 := 0#32
  let v69 : BitVec 1 := Scalar.cmpi .ne v68 c0_i32_16
  v69

def k0_off3 (v3 : BitVec 32) : Fin 2 → Nat :=
  let c512_i32_24 : BitVec 32 := 512#32
  let v89 : BitVec 32 := Scalar.muli v3 c512_i32_24
  let v90 : BitVec 32 := v89
  let v91 : Index := Scalar.indexCast v90
  let c0_25 : Index := 0#32
  ![v91.toNat, 0]

def k0_chk2 (v1 : BitVec 32) (v3 : BitVec 32) : Prop :=
  (∀ (k0_h2 : k0_cond2 v1 v3 = 1#1), 512 ∣ (k0_mult2 v3).toNat) ∧
  (∀ (k0_h2 : k0_cond2 v1 v3 = 1#1), ∀ a, (k0_off3 v3) a + S512x3.size a ≤ S4096x3.size a)
instance k0_chk2.dec : ∀ (v1 : BitVec 32) (v3 : BitVec 32), Decidable (k0_chk2 v1 v3) := fun v1 v3 => decidable_of_iff' _ (Iff.of_eq (k0_chk2.eq_1 v1 v3))
theorem k0_mult2_dvd : ∀ (v1 : BitVec 32) (v3 : BitVec 32) (k0_hw2 : k0_chk2 v1 v3), ∀ (k0_h2 : k0_cond2 v1 v3 = 1#1), 512 ∣ (k0_mult2 v3).toNat := fun v1 v3 k0_hw2 k0_h2 => k0_hw2.1 k0_h2
theorem k0_off3_inb : ∀ (v1 : BitVec 32) (v3 : BitVec 32) (k0_hw2 : k0_chk2 v1 v3), ∀ (k0_h2 : k0_cond2 v1 v3 = 1#1), ∀ a, (k0_off3 v3) a + S512x3.size a ≤ S4096x3.size a := fun v1 v3 k0_hw2 k0_h2 => k0_hw2.2 k0_h2

def k0_cond3 (i : grid0.Coords) : BitVec 1 :=
  let arg1 : BitVec 32 := BitVec.ofNat 32 (i 1).val
  let c35_i32 : BitVec 32 := 35#32
  let v70 : BitVec 1 := Scalar.cmpi .eq arg1 c35_i32
  let v71 : BitVec 32 := Scalar.extui v70
  let c0_i32_17 : BitVec 32 := 0#32
  let v72 : BitVec 1 := Scalar.cmpi .ne v71 c0_i32_17
  v72

def cc0_transform_0 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_1 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![arg0.toNat, c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S2x4096x1_S2x4096x3_0_1_2 : S2x4096x1.BroadcastsInDim S2x4096x3 (![0, 1, 2] : Fin 3 → Fin S2x4096x3.rank)
  transposes_S2x4096x3_S2x3x4096_0_2_1 : S2x4096x3.Transposes [0, 2, 1] S2x3x4096
  numel1_S1 : S1.numel = 1
  inb_S4096x3_S4096x3_0_0 : ∀ a, (![0, 0] : Fin 2 → Nat) a + S4096x3.size a ≤ S4096x3.size a
  h_S4096x3 : 0 < S4096x3.numel
  shapeCasts_S4096x3_S4096x3 : S4096x3.ShapeCasts S4096x3
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  inb_S1x3x512_S1x3x512_0_0_0 : ∀ a, (![0, 0, 0] : Fin 3 → Nat) a + S1x3x512.size a ≤ S1x3x512.size a
  h_S1x3x512 : 0 < S1x3x512.numel
  shapeCasts_S1x3x512_S3x512 : S1x3x512.ShapeCasts S3x512
  slices_S512x3_o0_0_S512x1 : S512x3.Slices ![0, 0] S512x1
  slices_S512x3_o0_1_S512x1 : S512x3.Slices ![0, 1] S512x1
  slices_S512x3_o0_2_S512x1 : S512x3.Slices ![0, 2] S512x1
  slices_S3x512_o0_0_S1x512 : S3x512.Slices ![0, 0] S1x512
  slices_S3x512_o1_0_S1x512 : S3x512.Slices ![1, 0] S1x512
  slices_S3x512_o2_0_S1x512 : S3x512.Slices ![2, 0] S1x512
  broadcasts_S512x1_S512x512 : S512x1.Broadcasts S512x512
  broadcasts_S1x512_S512x512 : S1x512.Broadcasts S512x512
  reduces_S512x512_S512 : S512x512.Reduces [1] S512
  shapeCasts_S512_S512x1 : S512.ShapeCasts S512x1
  concatenates_S512x1_S512x1_S512x1_S512x3_d1 : Shape.Concatenates [S512x1, S512x1, S512x1] S512x3 1
  h_S512x3 : 0 < S512x3.numel
  shapeCasts_S512x3_S512x3 : S512x3.ShapeCasts S512x3
  reduces_S512x512_S512_2 : S512x512.Reduces [0] S512
  shapeCasts_S512_S1x512 : S512.ShapeCasts S1x512
  transposes_S1x512_p1_0_S512x1 : S1x512.Transposes [1, 0] S512x1
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  shapeCasts_S4096x3_S1x4096x3 : S4096x3.ShapeCasts S1x4096x3
  hrank0 : 0 < grid0.rank
  k0_off1_inb : ∀ i : grid0.Coords, ∀ a, (k0_off1 i) a + S1.size a ≤ S36.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x3.size a ≤ S2x4096x3.size a
  hwx0_2 : ∀ i : grid0.Coords, EltTy.bits .f32 = 32 ∨ (Rect.block (s := S2x4096x3) S1x4096x3.size (cc0_transform_2 i) (hinb0_2 i)).WholeWords (EltTy.packing .f32)

variable [Facts₀]

abbrev spec0_0 : Pipeline.WinSpec sig grid0.rank :=
  Pipeline.WinSpec.ofSpec (Memref.whole main_arg0) S1x512x3.size reads0_0 false false 2 stage0_0 sem0_0 nbuf0_0 hstage0_0

abbrev spec0_1 : Pipeline.WinSpec sig grid0.rank :=
  Pipeline.WinSpec.ofSpec (Memref.whole main_v2) S1x3x512.size reads0_1 false false 2 stage0_1 sem0_1 nbuf0_1 hstage0_1

abbrev spec0_2 : Pipeline.WinSpec sig grid0.rank :=
  Pipeline.WinSpec.ofSpec (Memref.whole main_v3) S1x4096x3.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 k0_off1_inb numel1_S1 pf | 1 => cc0_transform_1 k0_off1_inb numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x512x3.size a ≤ S2x4096x3.size a), EltTy.bits .f32 = 32 ∨ (Rect.block (s := S2x4096x3) S1x512x3.size (cc0_transform_0 k0_off1_inb numel1_S1 pf i) h).WholeWords (EltTy.packing .f32)) ∧
  (∀ i : grid0.Coords, ∃ h : (∀ a, (cc0_transform_1 k0_off1_inb numel1_S1 pf i a + 1) * S1x3x512.size a ≤ S2x3x4096.size a), EltTy.bits .f32 = 32 ∨ (Rect.block (s := S2x3x4096) S1x3x512.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2 i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2 i).elim fun _ h => h | 2 => hwx0_2 | ⟨_ + 3, h⟩ => absurd h (Nat.not_lt.2 (Nat.le_add_left _ _))
abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S2x4096x3 : Shape := ⟨3, ![2, 4096, 3]⟩
abbrev S2x4096x1 : Shape := ⟨3, ![2, 4096, 1]⟩
abbrev S_ : Shape := ⟨0, ![]⟩
abbrev S2x4096x1x3 : Shape := ⟨4, ![2, 4096, 1, 3]⟩
abbrev S2x1x4096x3 : Shape := ⟨4, ![2, 1, 4096, 3]⟩
abbrev S2x4096x4096x3 : Shape := ⟨4, ![2, 4096, 4096, 3]⟩
abbrev S2x4096x4096 : Shape := ⟨3, ![2, 4096, 4096]⟩
abbrev S2x4096x4096x1 : Shape := ⟨4, ![2, 4096, 4096, 1]⟩

abbrev nBuf : Space → Nat
  | .hbm => 49
  | .vmem => 0
  | .smem => 0
  | _ => 0

abbrev bufTy : (tb : Table) → Fin (tcTables nBuf tb) → BufTy
  | .hbm, ⟨0, _⟩ => ⟨S2x4096x3, .f32⟩
  | .hbm, ⟨1, _⟩ => ⟨S2x4096x3, .f32⟩
  | .hbm, ⟨2, _⟩ => ⟨S2x4096x1, .f32⟩
  | .hbm, ⟨3, _⟩ => ⟨S_, .f32⟩
  | .hbm, ⟨4, _⟩ => ⟨S2x4096x3, .f32⟩
  | .hbm, ⟨5, _⟩ => ⟨S2x4096x3, .f32⟩
  | .hbm, ⟨6, _⟩ => ⟨S2x4096x1x3, .f32⟩
  | .hbm, ⟨7, _⟩ => ⟨S2x1x4096x3, .f32⟩
  | .hbm, ⟨8, _⟩ => ⟨S2x4096x4096x3, .f32⟩
  | .hbm, ⟨9, _⟩ => ⟨S2x4096x4096x3, .f32⟩
  | .hbm, ⟨10, _⟩ => ⟨S2x4096x4096x3, .f32⟩
  | .hbm, ⟨11, _⟩ => ⟨S2x4096x4096x3, .f32⟩
  | .hbm, ⟨12, _⟩ => ⟨S_, .f32⟩
  | .hbm, ⟨13, _⟩ => ⟨S2x4096x4096, .f32⟩
  | .hbm, ⟨14, _⟩ => ⟨S_, .f32⟩
  | .hbm, ⟨15, _⟩ => ⟨S2x4096x4096, .f32⟩
  | .hbm, ⟨16, _⟩ => ⟨S2x4096x4096, .i1⟩
  | .hbm, ⟨17, _⟩ => ⟨S_, .f32⟩
  | .hbm, ⟨18, _⟩ => ⟨S_, .f32⟩
  | .hbm, ⟨19, _⟩ => ⟨S2x4096x4096, .f32⟩
  | .hbm, ⟨20, _⟩ => ⟨S2x4096x4096, .f32⟩
  | .hbm, ⟨21, _⟩ => ⟨S_, .f32⟩
  | .hbm, ⟨22, _⟩ => ⟨S2x4096x4096, .f32⟩
  | .hbm, ⟨23, _⟩ => ⟨S2x4096x4096, .f32⟩
  | .hbm, ⟨24, _⟩ => ⟨S_, .f32⟩
  | .hbm, ⟨25, _⟩ => ⟨S_, .f32⟩
  | .hbm, ⟨26, _⟩ => ⟨S2x4096x4096, .f32⟩
  | .hbm, ⟨27, _⟩ => ⟨S2x4096x4096, .f32⟩
  | .hbm, ⟨28, _⟩ => ⟨S_, .f32⟩
  | .hbm, ⟨29, _⟩ => ⟨S2x4096x4096, .f32⟩
  | .hbm, ⟨30, _⟩ => ⟨S2x4096x4096, .f32⟩
  | .hbm, ⟨31, _⟩ => ⟨S2x4096x4096, .f32⟩
  | .hbm, ⟨32, _⟩ => ⟨S2x4096x4096, .f32⟩
  | .hbm, ⟨33, _⟩ => ⟨S_, .f32⟩
  | .hbm, ⟨34, _⟩ => ⟨S2x4096x4096, .f32⟩
  | .hbm, ⟨35, _⟩ => ⟨S2x4096x4096, .f32⟩
  | .hbm, ⟨36, _⟩ => ⟨S2x4096x4096, .f32⟩
  | .hbm, ⟨37, _⟩ => ⟨S_, .f32⟩
  | .hbm, ⟨38, _⟩ => ⟨S2x4096x4096, .f32⟩
  | .hbm, ⟨39, _⟩ => ⟨S2x4096x4096, .f32⟩
  | .hbm, ⟨40, _⟩ => ⟨S_, .f32⟩
  | .hbm, ⟨41, _⟩ => ⟨S2x4096x4096, .f32⟩
  | .hbm, ⟨42, _⟩ => ⟨S2x4096x4096, .f32⟩
  | .hbm, ⟨43, _⟩ => ⟨S2x4096x4096, .f32⟩
  | .hbm, ⟨44, _⟩ => ⟨S2x4096x4096x1, .f32⟩
  | .hbm, ⟨45, _⟩ => ⟨S2x4096x4096x3, .f32⟩
  | .hbm, ⟨46, _⟩ => ⟨S2x4096x4096x3, .f32⟩
  | .hbm, ⟨47, _⟩ => ⟨S_, .f32⟩
  | .hbm, ⟨48, _⟩ => ⟨S2x4096x3, .f32⟩
  | _, _ => ⟨S2x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩

abbrev nD : Nat := 1
abbrev τ : Topo := Topo.v7x

variable {F : FTy → Type} [FloatOps F]

class Facts₀ : Prop where
  bcast_S2x4096x1_S2x4096x3_0_1_2 : S2x4096x1.BroadcastsInDim S2x4096x3 (![0, 1, 2] : Fin 3 → Fin S2x4096x3.rank)
  bcast_S2x4096x3_S2x4096x1x3_0_1_3 : S2x4096x3.BroadcastsInDim S2x4096x1x3 (![0, 1, 3] : Fin 3 → Fin S2x4096x1x3.rank)
  bcast_S2x4096x3_S2x1x4096x3_0_2_3 : S2x4096x3.BroadcastsInDim S2x1x4096x3 (![0, 2, 3] : Fin 3 → Fin S2x1x4096x3.rank)
  bcast_S2x4096x1x3_S2x4096x4096x3_0_1_2_3 : S2x4096x1x3.BroadcastsInDim S2x4096x4096x3 (![0, 1, 2, 3] : Fin 4 → Fin S2x4096x4096x3.rank)
  bcast_S2x1x4096x3_S2x4096x4096x3_0_1_2_3 : S2x1x4096x3.BroadcastsInDim S2x4096x4096x3 (![0, 1, 2, 3] : Fin 4 → Fin S2x4096x4096x3.rank)
  reducesTo_S2x4096x4096x3_S2x4096x4096_d3 : S2x4096x4096x3.ReducesTo [3] S2x4096x4096
  h_S_ : 0 < S_.numel
  bcast_S_S2x4096x4096 : S_.BroadcastsInDim S2x4096x4096 (![] : Fin 0 → Fin S2x4096x4096.rank)
  bcast_S2x4096x4096_S2x4096x4096x1_0_1_2 : S2x4096x4096.BroadcastsInDim S2x4096x4096x1 (![0, 1, 2] : Fin 3 → Fin S2x4096x4096x1.rank)
  bcast_S2x4096x4096x1_S2x4096x4096x3_0_1_2_3 : S2x4096x4096x1.BroadcastsInDim S2x4096x4096x3 (![0, 1, 2, 3] : Fin 4 → Fin S2x4096x4096x3.rank)
  reducesTo_S2x4096x4096x3_S2x4096x3_d2 : S2x4096x4096x3.ReducesTo [2] S2x4096x3

variable [Facts₀]

class Facts : Prop extends Facts₀ where

variable [Facts]
-- ==== Proof.Bits.FrameBase.lean ====
/-
  The launch side of the pair-force kernel's run: the host operations before the region, the two tile tables the
  region prefetches (the triangular enumeration of the 36 unordered tile pairs, constants of the program), and the
  pipeline at those tables.
-/
import proofs.«138107_j13151189860959_2_alg».proof.Proof.Gen.Kernel.Launch
import proofs.«138107_j13151189860959_2_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The buffers' contents when the region is entered: after the five host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-! ## The tile tables -/

/-- The two tables' contents: first and second member of each of the 36 tile pairs. -/
def tbl : pre0.Contents (Elt F) := fun
  | 0 => fun i => lit0 (S36.rowMajor i)
  | 1 => fun i => lit1 (S36.rowMajor i)
  | ⟨_ + 2, h⟩ => absurd h (Nat.not_lt.2 (Nat.le_add_left _ _))

theorem V_pre (c : Dev nD) (j : Fin 2) : V m c (pre0.ref j) = tbl (F := F) j := by
  match j with
  | 0 => show StableHlo.after hostOps0 (fun b => m (c, b)) (Proc.devRef .tc main_c) = _; after_results; rfl
  | 1 => show StableHlo.after hostOps0 (fun b => m (c, b)) (Proc.devRef .tc main_c_0) = _; after_results; rfl

end Cert.Kernel.Hand

end
-- ==== Proof.Bits.TableFacts.lean ====
/-
  Facts about the two literal tile tables the kernel prefetches — the triangular enumeration of the 36 unordered
  pairs (i, j), i ≤ j, of the 8 row tiles: table 0 holds i, table 1 holds j — at every one of the 72 grid points
  (batch β < 2, pair p < 36): the word the body loads at point (β, p) is the p-th entry; every entry is below 8, so
  512 · entry is a multiple of 512 naming 512 rows inside the 4096; the off-diagonal branch is taken exactly when
  the two words differ; and every table-indexed block lies inside its array.
-/
import proofs.«138107_j13151189860959_2_alg».proof.Proof.Bits.FrameBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The table entries -/

/-- The entries of table 0 are below 8. -/
theorem lit0_lt : ∀ x : Fin 36, (lit0 x).toNat < 8 := by decide

/-- The entries of table 1 are below 8. -/
theorem lit1_lt : ∀ x : Fin 36, (lit1 x).toNat < 8 := by decide

/-! ## The integer chains at a word below 8 -/

/-- 512 times a word below 8 does not wrap. -/
theorem muli512_toNat (v : BitVec 32) (hv : v.toNat < 8) : (Scalar.muli v 512#32).toNat = 512 * v.toNat := by
  show (v * 512#32).toNat = _
  rw [BitVec.toNat_mul]
  have h512 : (512#32 : BitVec 32).toNat = 512 := rfl
  rw [h512, Nat.mod_eq_of_lt (by omega)]; omega

/-- The row offsets the body stores through: 512 · tile index, column 0. -/
theorem off2_word (v : BitVec 32) (hv : v.toNat < 8) : k0_off2 v = ![512 * v.toNat, 0] := by
  show ![(Scalar.muli v 512#32).toNat, 0] = _
  rw [muli512_toNat v hv]

theorem off3_word (v : BitVec 32) (hv : v.toNat < 8) : k0_off3 v = ![512 * v.toNat, 0] := by
  show ![(Scalar.muli v 512#32).toNat, 0] = _
  rw [muli512_toNat v hv]

/-- 512 rows from row 512 · v, v < 8, lie inside the 4096. -/
theorem rows_inb (v : BitVec 32) (hv : v.toNat < 8) :
    ∀ a, (![512 * v.toNat, 0] : Fin 2 → Nat) a + S512x3.size a ≤ S4096x3.size a := by
  intro a
  fin_cases a <;> simp [S512x3, S4096x3] <;> omega

theorem chk1_of_lt (v : BitVec 32) (hv : v.toNat < 8) : k0_chk1 v := by
  refine ⟨?_, ?_⟩
  · show 512 ∣ (Scalar.muli v 512#32).toNat
    rw [muli512_toNat v hv]; exact Dvd.intro _ rfl
  · rw [off2_word v hv]; exact rows_inb v hv

theorem chk2_of_lt (v1 v3 : BitVec 32) (h1 : v1.toNat < 8) (h3 : v3.toNat < 8) : k0_chk2 v1 v3 := by
  refine ⟨fun _ => ?_, fun _ => ?_⟩
  · show 512 ∣ (Scalar.muli v3 512#32).toNat
    rw [muli512_toNat v3 h3]; exact Dvd.intro _ rfl
  · rw [off3_word v3 h3]; exact rows_inb v3 h3

/-- The off-diagonal branch is taken exactly when the two words differ. -/
theorem cond2_iff (v1 v3 : BitVec 32) : k0_cond2 v1 v3 = 1#1 ↔ v1 ≠ v3 := by
  have key : ∀ b : Bool,
      IntOp.cmpi .ne (Scalar.extui (IntOp.xori (BitVec.ofBool b) 1#1)) 0#32 = 1#1 ↔ b = false := by decide
  show IntOp.cmpi .ne (Scalar.extui (IntOp.xori (BitVec.ofBool (v1 == v3)) 1#1)) 0#32 = 1#1 ↔ _
  rw [key]; simp

/-! ## The words the body loads -/

/-- The word of table 0 the body loads at grid coordinates `i`: a load through the unit rectangle at the pair
    coordinate of the held table. -/
abbrev word0 (i : grid0.Coords) : Elt F .i32 :=
  (Memref.whole main_c : Memref sig .tc .smem S36 .i32).view.readAt (Elt F) (Rect.unit (s := S36) (k0_off1 i) S1.size (k0_off1_inb i)).toLoadRect (tbl (F := F) 0) (Shape.Idx.first (numel1_S1.symm ▸ Nat.one_pos))

/-- The word of table 1 the body loads at grid coordinates `i`. -/
abbrev word1 (i : grid0.Coords) : Elt F .i32 :=
  (Memref.whole main_c_0 : Memref sig .tc .smem S36 .i32).view.readAt (Elt F) (Rect.unit (s := S36) (k0_off1 i) S1.size (k0_off1_inb i)).toLoadRect (tbl (F := F) 1) (Shape.Idx.first (numel1_S1.symm ▸ Nat.one_pos))

/-- The pair coordinate, as the 32-bit word the body casts to an index, is the coordinate. -/
theorem off1_val (i : grid0.Coords) : k0_off1 i 0 = (i 1).val := by
  show (BitVec.ofNat 32 (i 1).val).toNat = (i 1).val
  have h36 : (i 1).val < 36 := (i 1).isLt
  rw [BitVec.toNat_ofNat, Nat.mod_eq_of_lt (by omega)]

/-- The unit rectangle at the pair coordinate names entry `i 1` of the 36. -/
theorem pair_idx (i : grid0.Coords) (h : 0 < S1.numel) :
    (S36.rowMajor ((Rect.unit (s := S36) (k0_off1 i) S1.size (k0_off1_inb i)).idx (Shape.Idx.first h))).val
      = (i 1).val := by
  rw [Shape.rowMajor_val_one]
  show k0_off1 i 0 + 1 * 0 = (i 1).val
  rw [off1_val]; omega

/-- The loaded words at grid coordinates `i`: the tables' entries at the pair coordinate `i 1`. -/
theorem word0_at (i : grid0.Coords) : word0 (F := F) i = lit0 ⟨(i 1).val, (i 1).isLt⟩ :=
  congrArg lit0 (Fin.ext (pair_idx i _))

theorem word1_at (i : grid0.Coords) : word1 (F := F) i = lit1 ⟨(i 1).val, (i 1).isLt⟩ :=
  congrArg lit1 (Fin.ext (pair_idx i _))

/-- In row-major order over (2, 36), point `t` has pair coordinate `t % 36`. -/
theorem coords_pair (t : Fin grid0.N) : (grid0.coords t 1).val = t.val % 36 := by
  show t.val / grid0.stride 1 % 36 = t.val % 36
  have h1 : grid0.stride 1 = 1 := by decide
  rw [h1, Nat.div_one]

/-- The loaded words are the literal tables' entries at the pair coordinate. -/
theorem word0_eq (t : Fin grid0.N) :
    word0 (F := F) (grid0.coords t) = lit0 ⟨t.val % 36, Nat.mod_lt _ (by decide)⟩ :=
  (word0_at (grid0.coords t)).trans (congrArg lit0 (Fin.ext (coords_pair t)))

theorem word1_eq (t : Fin grid0.N) :
    word1 (F := F) (grid0.coords t) = lit1 ⟨t.val % 36, Nat.mod_lt _ (by decide)⟩ :=
  (word1_at (grid0.coords t)).trans (congrArg lit1 (Fin.ext (coords_pair t)))

/-- The loaded words are below 8, at any grid coordinates. -/
theorem word0_lt (i : grid0.Coords) : (word0 (F := F) i : BitVec 32).toNat < 8 := by
  rw [word0_at]; exact lit0_lt _

theorem word1_lt (i : grid0.Coords) : (word1 (F := F) i : BitVec 32).toNat < 8 := by
  rw [word1_at]; exact lit1_lt _

/-! ## The side conditions the body assumes hold at every point -/

theorem chk1_at (t : Fin grid0.N) : k0_chk1 (word0 (F := F) (grid0.coords t)) :=
  chk1_of_lt _ (word0_lt _)

theorem chk2_at (t : Fin grid0.N) :
    k0_chk2 (word0 (F := F) (grid0.coords t)) (word1 (F := F) (grid0.coords t)) :=
  chk2_of_lt _ _ (word0_lt _) (word1_lt _)

/-! ## Every table-indexed block lies inside its array -/

/-- The batch coordinate, as a 32-bit word, is below 2. -/
theorem arg0_lt (i : grid0.Coords) : (BitVec.ofNat 32 (i 0).val).toNat < 2 := by
  have h2 : (i 0).val < 2 := (i 0).isLt
  rw [BitVec.toNat_ofNat, Nat.mod_eq_of_lt (by omega)]; exact h2

theorem ok_tbl : ok0 (F := F) (tbl (F := F)) := by
  refine ⟨fun i => ⟨fun a => ?_, .inl rfl⟩, fun i => ⟨fun a => ?_, .inl rfl⟩⟩
  · -- window 0: block (β, table-0 word, 0) of size (1, 512, 3) inside (2, 4096, 3)
    obtain ⟨w, hw, e⟩ : ∃ w : BitVec 32, w.toNat < 8 ∧
        cc0_transform_0 k0_off1_inb numel1_S1 (tbl (F := F)) i = ![(BitVec.ofNat 32 (i 0).val).toNat, w.toNat, 0] :=
      ⟨_, word0_lt (F := F) i, rfl⟩
    rw [e]
    have h0 := arg0_lt i
    fin_cases a <;> simp [S1x512x3, S2x4096x3] <;> omega
  · -- window 1: block (β, 0, table-1 word) of size (1, 3, 512) inside (2, 3, 4096)
    obtain ⟨w, hw, e⟩ : ∃ w : BitVec 32, w.toNat < 8 ∧
        cc0_transform_1 k0_off1_inb numel1_S1 (tbl (F := F)) i = ![(BitVec.ofNat 32 (i 0).val).toNat, 0, w.toNat] :=
      ⟨_, word1_lt (F := F) i, rfl⟩
    rw [e]
    have h0 := arg0_lt i
    fin_cases a <;> simp [S1x3x512, S2x3x4096] <;> omega

end Cert.Kernel.Hand

end
-- ==== Proof.Bits.BodyNames.lean ====
/-
  Names shared by the runs of the kernel body: the two tile tables and the accumulator as memrefs, the word of each
  table the body loads at a grid point, and the first-pair condition.
-/
import proofs.«138107_j13151189860959_2_alg».proof.Proof.Bits.FrameBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each table as the body is handed it: its whole buffer as a memref. -/
abbrev tbM0 : Memref sig .tc .smem S36 .i32 := Memref.whole main_c
abbrev htbM0 : tbM0.IsWhole := Memref.isWhole_whole _
abbrev tbM1 : Memref sig .tc .smem S36 .i32 := Memref.whole main_c_0
abbrev htbM1 : tbM1.IsWhole := Memref.isWhole_whole _
/-- The accumulator: the kernel's scratch buffer. -/
abbrev scM : Memref sig .tc .vmem S4096x3 .f32 := Memref.whole cc0_scratch0
abbrev hscM : scM.IsWhole := Memref.isWhole_whole _

abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The word of each table the body loads at grid coordinates `i`. -/
abbrev wd0 (c : Dev nD) (i : grid0.Coords) (xt0 : TbBuf (F := F) c tbM0) : Elt F .i32 :=
  tbM0.view.readAt (Elt F) (Rect.unit (s := S36) (k0_off1 i) S1.size (k0_off1_inb i)).toLoadRect xt0 (Shape.Idx.first (numel1_S1.symm ▸ Nat.one_pos))
abbrev wd1 (c : Dev nD) (i : grid0.Coords) (xt1 : TbBuf (F := F) c tbM1) : Elt F .i32 :=
  tbM1.view.readAt (Elt F) (Rect.unit (s := S36) (k0_off1 i) S1.size (k0_off1_inb i)).toLoadRect xt1 (Shape.Idx.first (numel1_S1.symm ▸ Nat.one_pos))

/-- The first-pair condition, from the grid coordinates. -/
abbrev cond1 (i : grid0.Coords) : Prop := (Scalar.cmpi .ne (Scalar.extui (Scalar.cmpi .eq (BitVec.ofNat 32 (i 1).val) 0#32)) 0#32) = 1#1

end Cert.Kernel.Hand

end
-- ==== Proof.Bits.FrameCfg.lean ====
/-
  The pipeline at the literal tile tables, the blocks its windows stage at each grid point, and the invariant's parts.
-/
import proofs.«138107_j13151189860959_2_alg».proof.Proof.Bits.TableFacts
import proofs.«138107_j13151189860959_2_alg».proof.Proof.Bits.BodyNames

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tables as admissible contents, and the pipeline at them. -/
abbrev adm : (pcfg0 (F := F)).Adm := ⟨tbl (F := F), ok_tbl⟩
abbrev cfgM : Pipeline.Cfg sig Λ₀ := cfg0 (adm (F := F))

/-- The halves of the two tables the region hands the body. -/
theorem PhiT_eq (c : Dev nD) : (Pipeline.ΦT pre0 (tbl (F := F)) c : sProp 𝕄) = iprop(tbPt c tbM0 (tbl (F := F) 0) ∗ tbPt c tbM1 (tbl (F := F) 1)) := by
  unfold Pipeline.ΦT Pipeline.prefHeld
  rw [show (Finset.univ : Finset (Fin 2)) = insert (0 : Fin 2) {(1 : Fin 2)} from by decide,
    bigSep_insert (by decide), bigSep_singleton]
  rfl

/-- The class invariant with the accumulator as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The windows' blocks -/

/-- Window `w`'s block at point `t`, read off its array as the region finds it. -/
def iblk (c : Dev nD) (w : Fin (cfgM (F := F)).W) (t : Fin (cfgM (F := F)).N) : (((cfgM (F := F)).win w).xblock ((cfgM (F := F)).grid.coords t)).Idx → Elt F ((cfgM (F := F)).win w).elt :=
  (((cfgM (F := F)).win w).blk t).view.read (Elt F) (V m c (Pipeline.arrRef spec0 w))

/-- An input window's staging buffer holds its block at every point, fetched there or not. -/
theorem before0_0_of {c : Dev nD} (dat : Dat τ (Elt F) Unit ℕ (UR sig nD τ) ℕ (cfgM (F := F)) c) (hA : dat.A 0 = V m c (Pipeline.arrRef spec0 0))
    (hafter : ∀ t, dat.after 0 t = iblk m c 0 t) (t : Fin (cfgM (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ (cfgM (F := F)) c) (hA : dat.A 1 = V m c (Pipeline.arrRef spec0 1))
    (hafter : ∀ t, dat.after 1 t = iblk m c 1 t) (t : Fin (cfgM (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point `t`. -/
abbrev ms0 (t : Fin (cfgM (F := F)).N) : Memref sig .tc .vmem S1x512x3 .f32 := spec0_0.stage ((cfgM (F := F)).slots t 0)
abbrev hs0 (t : Fin (cfgM (F := F)).N) : (ms0 (F := F) t).IsWhole := hstage0_0 (((cfgM (F := F)).slots t 0).cast nbuf0_0)
abbrev ms1 (t : Fin (cfgM (F := F)).N) : Memref sig .tc .vmem S1x3x512 .f32 := spec0_1.stage ((cfgM (F := F)).slots t 1)
abbrev hs1 (t : Fin (cfgM (F := F)).N) : (ms1 (F := F) t).IsWhole := hstage0_1 (((cfgM (F := F)).slots t 1).cast nbuf0_1)
abbrev ms2 (t : Fin (cfgM (F := F)).N) : Memref sig .tc .vmem S1x4096x3 .f32 := spec0_2.stage ((cfgM (F := F)).slots t 2)
abbrev hs2 (t : Fin (cfgM (F := F)).N) : (ms2 (F := F) t).IsWhole := hstage0_2 (((cfgM (F := F)).slots t 2).cast nbuf0_2)

/-- What the pipeline calls at point `t`. -/
theorem bodyAt_eq (t : Fin (cfgM (F := F)).N) :
    defs₀ (F := F) .tc (cfgM (F := F)).body ((cfgM (F := F)).bodyArgs t ((cfgM (F := F)).slots t))
      = cc0__pair_force_kernel (grid0.coords t) tbM0 htbM0 tbM1 htbM1 (ms0 t) (hs0 t) (ms1 t) (hs1 t) (ms2 t) (hs2 t) scM hscM := rfl

end Cert.Kernel.Hand

end
-- ==== Proof.Bits.CaseFacts.lean ====
/-
  The control cases and the output window's schedule at each of the 72 grid points (batch β = t / 36, pair
  p = t % 36): the first-pair condition holds exactly at p = 0, the last-pair condition exactly at p = 35, the
  off-diagonal condition exactly where the two tile tables differ at p; the first pair (0, 0) and the last pair
  (7, 7) are diagonal, and differ; the output window (block (β, 0, 0), read off no table) is written back exactly
  at the last pair of each batch and idle at every other point; its block at point t is batch β of the array, whole.
-/
import proofs.«138107_j13151189860959_2_alg».proof.Proof.Bits.FrameCfg
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The grid -/

theorem N_grid0 : grid0.N = 72 := by decide

theorem N_cfgM : (cfgM (F := F)).N = 72 := N_grid0

/-- In row-major order over (2, 36), point `t` is batch `t / 36`, pair `t % 36`. -/
theorem coords0 (t : Fin grid0.N) : (grid0.coords t 0).val = t.val / 36 := by
  show t.val / grid0.stride 0 % 2 = t.val / 36
  have h1 : grid0.stride 0 = 36 := by decide
  have ht : t.val < 72 := N_grid0 ▸ t.isLt
  rw [h1]; omega

theorem coords1 (t : Fin grid0.N) : (grid0.coords t 1).val = t.val % 36 := coords_pair t

/-! ## The three branch conditions in closed form -/

theorem cond1_iff (t : Fin grid0.N) : cond1 (grid0.coords t) ↔ t.val % 36 = 0 :=
  (by decide +kernel : ∀ t : Fin grid0.N, cond1 (grid0.coords t) ↔ t.val % 36 = 0) t

theorem cond3_iff (t : Fin grid0.N) : k0_cond3 (grid0.coords t) = 1#1 ↔ t.val % 36 = 35 :=
  (by decide +kernel : ∀ t : Fin grid0.N, k0_cond3 (grid0.coords t) = 1#1 ↔ t.val % 36 = 35) t

theorem cond2_at (c : Dev nD) (t : Fin grid0.N) :
    k0_cond2 (wd0 (F := F) c (grid0.coords t) (tbl (F := F) 0)) (wd1 (F := F) c (grid0.coords t) (tbl (F := F) 1)) = 1#1
      ↔ lit0 ⟨t.val % 36, Nat.mod_lt _ (by decide)⟩ ≠ lit1 ⟨t.val % 36, Nat.mod_lt _ (by decide)⟩ := by
  rw [cond2_iff]
  show word0 (F := F) (grid0.coords t) ≠ word1 (F := F) (grid0.coords t) ↔ _
  rw [word0_eq, word1_eq]

/-! ## The first pair (0, 0) and the last pair (7, 7) are diagonal, and differ -/

/-- Pair 0 is diagonal. -/
theorem lit_first : ∀ p : Fin 36, p.val = 0 → lit0 p = lit1 p := by decide

/-- An off-diagonal pair is not the last. -/
theorem lit_offdiag : ∀ p : Fin 36, lit0 p ≠ lit1 p → p.val ≠ 35 := by decide

theorem first_excl (c : Dev nD) (t : Fin grid0.N) (h : cond1 (grid0.coords t)) :
    ¬(k0_cond2 (wd0 (F := F) c (grid0.coords t) (tbl (F := F) 0)) (wd1 (F := F) c (grid0.coords t) (tbl (F := F) 1)) = 1#1)
      ∧ ¬(k0_cond3 (grid0.coords t) = 1#1) := by
  have h0 : t.val % 36 = 0 := (cond1_iff t).1 h
  refine ⟨fun h2 => (cond2_at c t).1 h2 (lit_first _ h0), fun h3 => ?_⟩
  have h35 := (cond3_iff t).1 h3
  omega

theorem offdiag_excl (c : Dev nD) (t : Fin grid0.N)
    (h : k0_cond2 (wd0 (F := F) c (grid0.coords t) (tbl (F := F) 0)) (wd1 (F := F) c (grid0.coords t) (tbl (F := F) 1)) = 1#1) :
    ¬(k0_cond3 (grid0.coords t) = 1#1) :=
  fun h3 => lit_offdiag _ ((cond2_at c t).1 h) ((cond3_iff t).1 h3)

/-! ## The side conditions, in the spelling the body's runs take them -/

theorem hw1_at (c : Dev nD) (t : Fin grid0.N) : k0_chk1 (wd0 (F := F) c (grid0.coords t) (tbl (F := F) 0)) :=
  chk1_at (F := F) t

theorem hw2_at (c : Dev nD) (t : Fin grid0.N) :
    k0_chk2 (wd0 (F := F) c (grid0.coords t) (tbl (F := F) 0)) (wd1 (F := F) c (grid0.coords t) (tbl (F := F) 1)) :=
  chk2_at (F := F) t

/-! ## The schedule of the output window -/

/-- Written back exactly at the last pair of each batch. -/
theorem flush2 (t : Fin (cfgM (F := F)).N) : ((cfgM (F := F)).win 2).flush t = decide (t.val % 36 = 35) :=
  (by decide +kernel : ∀ t : Fin grid0.N, Pipeline.Window.flushOf grid0 true cc0_transform_2 t = decide (t.val % 36 = 35)) t

/-- Idle at every other point. -/
theorem idle2 (t : Fin (cfgM (F := F)).N) :
    (cfgM (F := F)).idle 2 ((cfgM (F := F)).grid.coords t) = decide (t.val % 36 ≠ 35) :=
  (by decide +kernel : ∀ t : Fin grid0.N, (!(k0_cond3 (grid0.coords t) == 1#1)) = decide (t.val % 36 ≠ 35)) t

/-- The input windows never idle. -/
theorem idle0 (i : (cfgM (F := F)).grid.Coords) : (cfgM (F := F)).idle 0 i = false := rfl
theorem idle1 (i : (cfgM (F := F)).grid.Coords) : (cfgM (F := F)).idle 1 i = false := rfl

/-- The output window's block index at point `t`: (β, 0, 0). -/
theorem idx2 : ∀ t : Fin grid0.N, cc0_transform_2 (grid0.coords t) = ![t.val / 36, 0, 0] := by decide +kernel

/-- Membership in a unit-stride slice of a whole buffer, coordinate by coordinate. -/
theorem mem_slice_whole_unit (b : Ref sig .tc) (off size : Fin b.ty.shape.rank → Nat)
    (inb : ∀ a, off a + size a ≤ b.ty.shape.size a) (i : b.ty.shape.Idx) :
    i ∈ ((View.whole b).slice (Rect.unit off size inb)).set ↔ ∀ a, off a ≤ i a ∧ (i a : Nat) < off a + size a := by
  rw [View.set_slice_whole, Rect.mem_set_unit]

/-- The output window's block at point `t` is batch `t / 36` of the array, whole: membership in it. -/
theorem blk2_mem (t : Fin (cfgM (F := F)).N) (i : S2x4096x3.Idx) :
    i ∈ (((cfgM (F := F)).win 2).blk t).view.set ↔ (i 0).val = t.val / 36 := by
  have h2 : i ∈ (((cfgM (F := F)).win 2).blk t).view.set ↔
      ∀ a : Fin 3, cc0_transform_2 (grid0.coords t) a * S1x4096x3.size a ≤ (i a).val
        ∧ (i a).val < cc0_transform_2 (grid0.coords t) a * S1x4096x3.size a + S1x4096x3.size a :=
    mem_slice_whole_unit main_v3 _ _ _ i
  rw [h2, idx2 t]
  have hi1 : (i 1).val < 4096 := (i 1).isLt
  have hi2 : (i 2).val < 3 := (i 2).isLt
  constructor
  · intro h
    have h0 : t.val / 36 * 1 ≤ (i 0).val ∧ (i 0).val < t.val / 36 * 1 + 1 := h 0
    omega
  · intro h a
    match a with
    | ⟨0, _⟩ => show t.val / 36 * 1 ≤ (i 0).val ∧ (i 0).val < t.val / 36 * 1 + 1; omega
    | ⟨1, _⟩ => show 0 * 4096 ≤ (i 1).val ∧ (i 1).val < 0 * 4096 + 4096; omega
    | ⟨2, _⟩ => show 0 * 3 ≤ (i 2).val ∧ (i 2).val < 0 * 3 + 3; omega

/-- Reading an array `G` through the output window's block at point `t`: row `r`, coordinate `k` of the block is
    entry (t / 36, r, k) of the array. -/
theorem blk2_read (c : Dev nD) (t : Fin (cfgM (F := F)).N)
    (G : Buf (Elt F) (((cfgM (F := F)).win 2).arr.view.loc ((c : Dev nD) : Thread nD τ))) (r : Fin 4096) (k : Fin 3) :
    (((cfgM (F := F)).win 2).blk t).view.read (Elt F) G (Idealize.ShloMosaic.ValueIdx.ix3 0 r k)
      = G (Idealize.ShloMosaic.ValueIdx.ix3 ⟨t.val / 36, by have h72 : t.val < 72 := N_cfgM (F := F) ▸ t.isLt; omega⟩ r k) := by
  show G ((((cfgM (F := F)).win 2).blk t).view.emb (Idealize.ShloMosaic.ValueIdx.ix3 0 r k)) = _
  refine congrArg G ?_
  funext a
  apply Fin.ext
  have e := idx2 t
  match a with
  | ⟨0, _⟩ =>
    show cc0_transform_2 (grid0.coords t) 0 * 1 + 1 * 0 = t.val / 36
    rw [e]; show t.val / 36 * 1 + 1 * 0 = t.val / 36; omega
  | ⟨1, _⟩ =>
    show cc0_transform_2 (grid0.coords t) 1 * 4096 + 1 * r.val = r.val
    rw [e]; show 0 * 4096 + 1 * r.val = r.val; omega
  | ⟨2, _⟩ =>
    show cc0_transform_2 (grid0.coords t) 2 * 3 + 1 * k.val = k.val
    rw [e]; show 0 * 3 + 1 * k.val = k.val; omega

end Cert.Kernel.Hand

end
-- ==== Proof.Bits.RunA.lean ====
/-
  The kernel body run symbolically at the first tile pair of a batch: the accumulator is reset to zero and the first tile's rows gain the tile's row sums.
-/
import proofs.«138107_j13151189860959_2_alg».proof.Proof.Bits.BodyNames

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The first pair of a batch (a diagonal pair): the accumulator is reset, then updated once. -/
noncomputable def runA (c : Dev nD) (i : grid0.Coords) (arg4 : Memref sig .tc .vmem S1x512x3 .f32) (harg4 : arg4.IsWhole) (arg5 : Memref sig .tc .vmem S1x3x512 .f32) (harg5 : arg5.IsWhole) (arg6 : Memref sig .tc .vmem S1x4096x3 .f32) (harg6 : arg6.IsWhole)
    (x0 : Vec F S1x512x3 .f32) (x1 : Vec F S1x3x512 .f32) (xt0 : TbBuf (F := F) c tbM0) (xt1 : TbBuf (F := F) c tbM1)
    (hw1 : k0_chk1 (wd0 c i xt0)) (hw2 : k0_chk2 (wd0 c i xt0) (wd1 c i xt1))
    (hc1 : cond1 i) (hc2 : ¬(k0_cond2 (wd0 c i xt0) (wd1 c i xt1) = 1#1)) (hc3 : ¬(k0_cond3 i = 1#1)) :
    { LS : List (View.Piece (Elt F) S4096x3 .f32) //
      ∀ (xs : Vec F S4096x3 .f32) (xi : Vec F S1x4096x3 .f32) (E : Set ℕ) (K : PUnit → sProp 𝕄),
        iprop(owns (c : Thread nD τ) arg4 fullShare x0 ∗ owns (c : Thread nD τ) arg5 fullShare x1 ∗ owns (c : Thread nD τ) arg6 fullShare xi
            ∗ owns (c : Thread nD τ) scM fullShare xs ∗ tbPt c tbM0 xt0 ∗ tbPt c tbM1 xt1
            ∗ (iprop(owns (c : Thread nD τ) arg4 fullShare x0 ∗ owns (c : Thread nD τ) arg5 fullShare x1 ∗ owns (c : Thread nD τ) arg6 fullShare xi
                ∗ (scM.view.loc (c : Thread nD τ) ↦[scM.view.set]{fullShare} scM.view.writes (Elt F) scM.view.junk LS) ∗ tbPt c tbM0 xt0 ∗ tbPt c tbM1 xt1) -∗ K ⟨⟩))
          ⊢ wp frame (wpE (defs₀ (F := F)) Variants.none c none) E (cc0__pair_force_kernel i tbM0 htbM0 tbM1 htbM1 arg4 harg4 arg5 harg5 arg6 harg6 scM hscM) K } := by
  refine ⟨?_, fun xs xi E K => ?run⟩
  case run =>
    simp only [cc0__pair_force_kernel_eq_skeleton]; unfold cc0__pair_force_kernel_skel
    simp only [k0_part1_eq_skeleton]
    unfold owns
    iintro ⟨⟨%f0, %hf0, H0⟩, ⟨%f1, %hf1, H1⟩, ⟨%f2, %hf2, H2⟩, ⟨%fs, %hfs, HS⟩, HT0, HT1, Hk⟩
    obtain rfl := harg4.eq_unread hf0; obtain rfl := harg5.eq_unread hf1; obtain rfl := harg6.eq_unread hf2; obtain rfl := hscM.eq_unread hfs
    sl_exec (disch := first | sl_exact hw1 | sl_exact hw2 | exact hc1 | exact hc2 | exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [HS]; · iexact HS
    isplitl [HT0]; · iexact HT0
    iexact HT1

end Cert.Kernel.Hand

end
-- ==== Proof.Bits.RunB.lean ====
/-
  The kernel body run symbolically at an off-diagonal tile pair: the first tile's rows gain the row sums, the second tile's rows gain the negated column sums.
-/
import proofs.«138107_j13151189860959_2_alg».proof.Proof.Bits.BodyNames

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- An off-diagonal pair: the first tile's rows are updated, then the second tile's. -/
noncomputable def runB (c : Dev nD) (i : grid0.Coords) (arg4 : Memref sig .tc .vmem S1x512x3 .f32) (harg4 : arg4.IsWhole) (arg5 : Memref sig .tc .vmem S1x3x512 .f32) (harg5 : arg5.IsWhole) (arg6 : Memref sig .tc .vmem S1x4096x3 .f32) (harg6 : arg6.IsWhole)
    (x0 : Vec F S1x512x3 .f32) (x1 : Vec F S1x3x512 .f32) (xs : Vec F S4096x3 .f32) (xt0 : TbBuf (F := F) c tbM0) (xt1 : TbBuf (F := F) c tbM1)
    (hw1 : k0_chk1 (wd0 c i xt0)) (hw2 : k0_chk2 (wd0 c i xt0) (wd1 c i xt1))
    (hc1 : ¬cond1 i) (hc2 : k0_cond2 (wd0 c i xt0) (wd1 c i xt1) = 1#1) (hc3 : ¬(k0_cond3 i = 1#1)) :
    { LS : List (View.Piece (Elt F) S4096x3 .f32) //
      ∀ (xi : Vec F S1x4096x3 .f32) (E : Set ℕ) (K : PUnit → sProp 𝕄),
        iprop(owns (c : Thread nD τ) arg4 fullShare x0 ∗ owns (c : Thread nD τ) arg5 fullShare x1 ∗ owns (c : Thread nD τ) arg6 fullShare xi
            ∗ owns (c : Thread nD τ) scM fullShare xs ∗ tbPt c tbM0 xt0 ∗ tbPt c tbM1 xt1
            ∗ (iprop(owns (c : Thread nD τ) arg4 fullShare x0 ∗ owns (c : Thread nD τ) arg5 fullShare x1 ∗ owns (c : Thread nD τ) arg6 fullShare xi
                ∗ (scM.view.loc (c : Thread nD τ) ↦[scM.view.set]{fullShare} scM.view.writes (Elt F) (hscM.unread xs) LS) ∗ tbPt c tbM0 xt0 ∗ tbPt c tbM1 xt1) -∗ K ⟨⟩))
          ⊢ wp frame (wpE (defs₀ (F := F)) Variants.none c none) E (cc0__pair_force_kernel i tbM0 htbM0 tbM1 htbM1 arg4 harg4 arg5 harg5 arg6 harg6 scM hscM) K } := by
  refine ⟨?_, fun xi E K => ?run⟩
  case run =>
    simp only [cc0__pair_force_kernel_eq_skeleton]; unfold cc0__pair_force_kernel_skel
    simp only [k0_part1_eq_skeleton]
    unfold owns
    iintro ⟨⟨%f0, %hf0, H0⟩, ⟨%f1, %hf1, H1⟩, ⟨%f2, %hf2, H2⟩, ⟨%fs, %hfs, HS⟩, HT0, HT1, Hk⟩
    obtain rfl := harg4.eq_unread hf0; obtain rfl := harg5.eq_unread hf1; obtain rfl := harg6.eq_unread hf2; obtain rfl := hscM.eq_unread hfs
    sl_exec (disch := first | sl_exact hw1 | sl_exact hw2 | exact hc1 | exact hc2 | exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [HS]; · iexact HS
    isplitl [HT0]; · iexact HT0
    iexact HT1

end Cert.Kernel.Hand

end
-- ==== Proof.Bits.RunC.lean ====
/-
  The kernel body run symbolically at a diagonal tile pair that is neither the first nor the last of its batch: the accumulator's rows of that tile gain the tile's row sums.
-/
import proofs.«138107_j13151189860959_2_alg».proof.Proof.Bits.BodyNames

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- A diagonal pair that is neither the first nor the last of its batch: one update of the accumulator. -/
noncomputable def runC (c : Dev nD) (i : grid0.Coords) (arg4 : Memref sig .tc .vmem S1x512x3 .f32) (harg4 : arg4.IsWhole) (arg5 : Memref sig .tc .vmem S1x3x512 .f32) (harg5 : arg5.IsWhole) (arg6 : Memref sig .tc .vmem S1x4096x3 .f32) (harg6 : arg6.IsWhole)
    (x0 : Vec F S1x512x3 .f32) (x1 : Vec F S1x3x512 .f32) (xs : Vec F S4096x3 .f32) (xt0 : TbBuf (F := F) c tbM0) (xt1 : TbBuf (F := F) c tbM1)
    (hw1 : k0_chk1 (wd0 c i xt0)) (hw2 : k0_chk2 (wd0 c i xt0) (wd1 c i xt1))
    (hc1 : ¬cond1 i) (hc2 : ¬(k0_cond2 (wd0 c i xt0) (wd1 c i xt1) = 1#1)) (hc3 : ¬(k0_cond3 i = 1#1)) :
    { LS : List (View.Piece (Elt F) S4096x3 .f32) //
      ∀ (xi : Vec F S1x4096x3 .f32) (E : Set ℕ) (K : PUnit → sProp 𝕄),
        iprop(owns (c : Thread nD τ) arg4 fullShare x0 ∗ owns (c : Thread nD τ) arg5 fullShare x1 ∗ owns (c : Thread nD τ) arg6 fullShare xi
            ∗ owns (c : Thread nD τ) scM fullShare xs ∗ tbPt c tbM0 xt0 ∗ tbPt c tbM1 xt1
            ∗ (iprop(owns (c : Thread nD τ) arg4 fullShare x0 ∗ owns (c : Thread nD τ) arg5 fullShare x1 ∗ owns (c : Thread nD τ) arg6 fullShare xi
                ∗ (scM.view.loc (c : Thread nD τ) ↦[scM.view.set]{fullShare} scM.view.writes (Elt F) (hscM.unread xs) LS) ∗ tbPt c tbM0 xt0 ∗ tbPt c tbM1 xt1) -∗ K ⟨⟩))
          ⊢ wp frame (wpE (defs₀ (F := F)) Variants.none c none) E (cc0__pair_force_kernel i tbM0 htbM0 tbM1 htbM1 arg4 harg4 arg5 harg5 arg6 harg6 scM hscM) K } := by
  refine ⟨?_, fun xi E K => ?run⟩
  case run =>
    simp only [cc0__pair_force_kernel_eq_skeleton]; unfold cc0__pair_force_kernel_skel
    simp only [k0_part1_eq_skeleton]
    unfold owns
    iintro ⟨⟨%f0, %hf0, H0⟩, ⟨%f1, %hf1, H1⟩, ⟨%f2, %hf2, H2⟩, ⟨%fs, %hfs, HS⟩, HT0, HT1, Hk⟩
    obtain rfl := harg4.eq_unread hf0; obtain rfl := harg5.eq_unread hf1; obtain rfl := harg6.eq_unread hf2; obtain rfl := hscM.eq_unread hfs
    sl_exec (disch := first | sl_exact hw1 | sl_exact hw2 | exact hc1 | exact hc2 | exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [HS]; · iexact HS
    isplitl [HT0]; · iexact HT0
    iexact HT1

end Cert.Kernel.Hand

end
-- ==== Proof.Bits.RunD.lean ====
/-
  The kernel body run symbolically at the last tile pair of a batch: the last tile's rows gain the tile's row sums and the accumulator is copied into the output block.
-/
import proofs.«138107_j13151189860959_2_alg».proof.Proof.Bits.BodyNames

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The last pair of a batch (a diagonal pair): one update, then the accumulator is copied into the output block. -/
noncomputable def runD (c : Dev nD) (i : grid0.Coords) (arg4 : Memref sig .tc .vmem S1x512x3 .f32) (harg4 : arg4.IsWhole) (arg5 : Memref sig .tc .vmem S1x3x512 .f32) (harg5 : arg5.IsWhole) (arg6 : Memref sig .tc .vmem S1x4096x3 .f32) (harg6 : arg6.IsWhole)
    (x0 : Vec F S1x512x3 .f32) (x1 : Vec F S1x3x512 .f32) (xs : Vec F S4096x3 .f32) (xt0 : TbBuf (F := F) c tbM0) (xt1 : TbBuf (F := F) c tbM1)
    (hw1 : k0_chk1 (wd0 c i xt0)) (hw2 : k0_chk2 (wd0 c i xt0) (wd1 c i xt1))
    (hc1 : ¬cond1 i) (hc2 : ¬(k0_cond2 (wd0 c i xt0) (wd1 c i xt1) = 1#1)) (hc3 : k0_cond3 i = 1#1) :
    Σ' (L2 : List (View.Piece (Elt F) S1x4096x3 .f32)), { LS : List (View.Piece (Elt F) S4096x3 .f32) //
      ∀ (xi : Vec F S1x4096x3 .f32) (E : Set ℕ) (K : PUnit → sProp 𝕄),
        iprop(owns (c : Thread nD τ) arg4 fullShare x0 ∗ owns (c : Thread nD τ) arg5 fullShare x1 ∗ owns (c : Thread nD τ) arg6 fullShare xi
            ∗ owns (c : Thread nD τ) scM fullShare xs ∗ tbPt c tbM0 xt0 ∗ tbPt c tbM1 xt1
            ∗ (iprop(owns (c : Thread nD τ) arg4 fullShare x0 ∗ owns (c : Thread nD τ) arg5 fullShare x1 ∗ (∃ f, arg6.view.loc (c : Thread nD τ) ↦[arg6.view.set]{fullShare} arg6.view.writes (Elt F) f L2)
                ∗ (scM.view.loc (c : Thread nD τ) ↦[scM.view.set]{fullShare} scM.view.writes (Elt F) (hscM.unread xs) LS) ∗ tbPt c tbM0 xt0 ∗ tbPt c tbM1 xt1) -∗ K ⟨⟩))
          ⊢ wp frame (wpE (defs₀ (F := F)) Variants.none c none) E (cc0__pair_force_kernel i tbM0 htbM0 tbM1 htbM1 arg4 harg4 arg5 harg5 arg6 harg6 scM hscM) K } := by
  refine ⟨?_, ?_, fun xi E K => ?run⟩
  case run =>
    simp only [cc0__pair_force_kernel_eq_skeleton]; unfold cc0__pair_force_kernel_skel
    simp only [k0_part1_eq_skeleton]
    unfold owns
    iintro ⟨⟨%f0, %hf0, H0⟩, ⟨%f1, %hf1, H1⟩, ⟨%f2, %hf2, H2⟩, ⟨%fs, %hfs, HS⟩, HT0, HT1, Hk⟩
    obtain rfl := harg4.eq_unread hf0; obtain rfl := harg5.eq_unread hf1; obtain rfl := harg6.eq_unread hf2; obtain rfl := hscM.eq_unread hfs
    sl_exec (disch := first | sl_exact hw1 | sl_exact hw2 | exact hc1 | exact hc2 | exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]; · iexists _; iexact H2
    isplitl [HS]; · iexact HS
    isplitl [HT0]; · iexact HT0
    iexact HT1

end Cert.Kernel.Hand

end
-- ==== Proof.Bits.FrameDat.lean ====
/-
  The proof data of the pair-force kernel's pipeline and its body obligation. The accumulator the kernel carries
  from one grid point to the next is tracked point by point: after point `n` it holds what the body's run leaves
  there, in the control case the point is in, over what the point before left.
-/
import proofs.«138107_j13151189860959_2_alg».proof.Proof.Bits.FrameCfg
import proofs.«138107_j13151189860959_2_alg».proof.Proof.Bits.CaseFacts
import proofs.«138107_j13151189860959_2_alg».proof.Proof.Bits.RunA
import proofs.«138107_j13151189860959_2_alg».proof.Proof.Bits.RunB
import proofs.«138107_j13151189860959_2_alg».proof.Proof.Bits.RunC
import proofs.«138107_j13151189860959_2_alg».proof.Proof.Bits.RunD

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the output window, through which its contents are stated. -/
abbrev VOut : View sig .tc .vmem S1x4096x3 .f32 := (Memref.whole cc0_stg2_0 : Memref sig .tc .vmem S1x4096x3 .f32).view

/-! ## One step of the accumulator -/

/-- What the body leaves in the accumulator at point `t` when it found `xs` there: the run of the point's control
    case, its pieces written over `xs`. -/
def nextAcc (c : Dev nD) (t : Fin (cfgM (F := F)).N) (xs : Vec F S4096x3 .f32) : Vec F S4096x3 .f32 :=
  if h1 : cond1 (grid0.coords t) then
    scM.view.read (Elt F) (scM.view.writes (Elt F) scM.view.junk
      (runA c (grid0.coords t) (ms0 t) (hs0 t) (ms1 t) (hs1 t) (ms2 t) (hs2 t) (iblk m c 0 t) (iblk m c 1 t) (tbl (F := F) 0) (tbl (F := F) 1)
        (hw1_at (F := F) c t) (hw2_at (F := F) c t) h1 (first_excl (F := F) c t h1).1 (first_excl (F := F) c t h1).2).1)
  else if h2 : k0_cond2 (wd0 (F := F) c (grid0.coords t) (tbl (F := F) 0)) (wd1 (F := F) c (grid0.coords t) (tbl (F := F) 1)) = 1#1 then
    scM.view.read (Elt F) (scM.view.writes (Elt F) (hscM.unread xs)
      (runB c (grid0.coords t) (ms0 t) (hs0 t) (ms1 t) (hs1 t) (ms2 t) (hs2 t) (iblk m c 0 t) (iblk m c 1 t) xs (tbl (F := F) 0) (tbl (F := F) 1)
        (hw1_at (F := F) c t) (hw2_at (F := F) c t) h1 h2 (offdiag_excl (F := F) c t h2)).1)
  else if h3 : k0_cond3 (grid0.coords t) = 1#1 then
    scM.view.read (Elt F) (scM.view.writes (Elt F) (hscM.unread xs)
      (runD c (grid0.coords t) (ms0 t) (hs0 t) (ms1 t) (hs1 t) (ms2 t) (hs2 t) (iblk m c 0 t) (iblk m c 1 t) xs (tbl (F := F) 0) (tbl (F := F) 1)
        (hw1_at (F := F) c t) (hw2_at (F := F) c t) h1 h2 h3).2.1)
  else
    scM.view.read (Elt F) (scM.view.writes (Elt F) (hscM.unread xs)
      (runC c (grid0.coords t) (ms0 t) (hs0 t) (ms1 t) (hs1 t) (ms2 t) (hs2 t) (iblk m c 0 t) (iblk m c 1 t) xs (tbl (F := F) 0) (tbl (F := F) 1)
        (hw1_at (F := F) c t) (hw2_at (F := F) c t) h1 h2 h3).1)

/-- What the body leaves in the output window's staging buffer at the last pair of a batch (junk elsewhere: the
    window is idle there and the value is not consulted). -/
def outAt (c : Dev nD) (t : Fin (cfgM (F := F)).N) (xs : Vec F S4096x3 .f32) : Vec F S1x4096x3 .f32 :=
  if h : ¬cond1 (grid0.coords t) ∧ ¬(k0_cond2 (wd0 (F := F) c (grid0.coords t) (tbl (F := F) 0)) (wd1 (F := F) c (grid0.coords t) (tbl (F := F) 1)) = 1#1) ∧ k0_cond3 (grid0.coords t) = 1#1 then
    VOut.read (Elt F) (VOut.writes (Elt F) VOut.junk
      (runD c (grid0.coords t) (ms0 t) (hs0 t) (ms1 t) (hs1 t) (ms2 t) (hs2 t) (iblk m c 0 t) (iblk m c 1 t) xs (tbl (F := F) 0) (tbl (F := F) 1)
        (hw1_at (F := F) c t) (hw2_at (F := F) c t) h.1 h.2.1 h.2.2).1)
  else VOut.read (Elt F) VOut.junk

/-! ## The accumulator point by point -/

/-- The accumulator after point `n` (what point `n + 1` finds): from anything before the first point, which resets it. -/
def accAfter (c : Dev nD) : ℕ → Vec F S4096x3 .f32
  | 0 => if h : 0 < (cfgM (F := F)).N then nextAcc m c ⟨0, h⟩ (scM.view.read (Elt F) scM.view.junk) else scM.view.read (Elt F) scM.view.junk
  | n + 1 => if h : n + 1 < (cfgM (F := F)).N then nextAcc m c ⟨n + 1, h⟩ (accAfter c n) else accAfter c n

/-- What point `t` finds in the accumulator: what the point before left, anything at the first point. -/
def accBefore (c : Dev nD) (t : Fin (cfgM (F := F)).N) : Vec F S4096x3 .f32 :=
  if t.val = 0 then scM.view.read (Elt F) scM.view.junk else accAfter m c (t.val - 1)

theorem accAfter_eq (c : Dev nD) (t : Fin (cfgM (F := F)).N) : accAfter m c t.val = nextAcc m c t (accBefore m c t) := by
  obtain ⟨n, hn⟩ := t
  cases n with
  | zero => unfold accAfter accBefore; rw [dif_pos hn, if_pos rfl]
  | succ n => unfold accBefore; rw [accAfter, dif_pos hn, if_neg (Nat.succ_ne_zero n)]; rfl

/-! ## The invariant and the proof data -/

/-- The region invariant before point `t`: the accumulator at what the point before left (at anything before the
    first), the generator register at some state, and the two tables' halves. -/
def PhiS (c : Dev nD) (n : ℕ) : sProp 𝕄 :=
  iprop((∃ d, ⌜n ≠ 0 → d = accAfter m c (n - 1)⌝ ∗ owns (c : Thread nD τ) scM fullShare d) ∗ (∃ r, prngReg c r)
    ∗ tbPt c tbM0 (tbl (F := F) 0) ∗ tbPt c tbM1 (tbl (F := F) 1))

/-- The proof data on core `c`: the arrays as the region finds them; after the body each input's buffer at its
    block, the output's at the accumulator copied out; the invariant `PhiS`; nothing owed; full shares. -/
def dats (_ : Fin 1) (c : Dev nD) : Dat τ (Elt F) Unit ℕ (UR sig nD τ) ℕ (cfgM (F := F)) c where
  A w := V m c (Pipeline.arrRef spec0 w)
  after w t := match w with
    | ⟨0, _⟩ => iblk m c 0 t
    | ⟨1, _⟩ => iblk m c 1 t
    | ⟨2, _⟩ => outAt m c t (accBefore m c t)
  Φ t := PhiS m c t.val
  q _ := fullShare
  owed _ := 0

theorem A_eq (c : Dev nD) (w : Fin (cfgM (F := F)).W) : (dats m 0 c).A w = V m c (Pipeline.arrRef spec0 w) := by
  dsimp only [dats]

theorem after0 (c : Dev nD) (t : Fin (cfgM (F := F)).N) : (dats m 0 c).after 0 t = iblk m c 0 t := by dsimp only [dats]; try rfl
theorem after1 (c : Dev nD) (t : Fin (cfgM (F := F)).N) : (dats m 0 c).after 1 t = iblk m c 1 t := by dsimp only [dats]; try rfl
theorem after2 (c : Dev nD) (t : Fin (cfgM (F := F)).N) : (dats m 0 c).after 2 t = outAt m c t (accBefore m c t) := by dsimp only [dats]; try rfl

theorem before0 (c : Dev nD) (t : Fin (cfgM (F := F)).N) (d) : (dats m 0 c).before 0 t d = iblk m c 0 t :=
  before0_0_of m (dats m 0 c) (A_eq m c 0) (after0 m c) t d
theorem before1 (c : Dev nD) (t : Fin (cfgM (F := F)).N) (d) : (dats m 0 c).before 1 t d = iblk m c 1 t :=
  before0_1_of m (dats m 0 c) (A_eq m c 1) (after1 m c) t d

/-! ## The body obligation -/

/-- The first point of the grid is a first pair. -/
theorem cond1_of_zero (t : Fin (cfgM (F := F)).N) (h : t.val = 0) : cond1 (grid0.coords t) :=
  (cond1_iff t).mpr (by rw [h])

/-- What point `t` finds in the accumulator is what the invariant names (after the first point). -/
theorem found_eq (c : Dev nD) (t : Fin (cfgM (F := F)).N) (d : Vec F S4096x3 .f32)
    (hd : t.val ≠ 0 → d = accAfter m c (t.val - 1)) (ht : t.val ≠ 0) : d = accBefore m c t := by
  unfold accBefore; rw [if_neg ht]; exact hd ht

/-- What the body is called with at point `t`, -/
def bodyPre (c : Dev nD) (t : Fin (cfgM (F := F)).N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin (cfgM (F := F)).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4000000 in
/-- The output window's piece at the last pair is one store of the whole block: it covers it. -/
theorem coverD (c : Dev nD) (i : grid0.Coords) (arg4 : Memref sig .tc .vmem S1x512x3 .f32) (harg4 : arg4.IsWhole) (arg5 : Memref sig .tc .vmem S1x3x512 .f32) (harg5 : arg5.IsWhole) (arg6 : Memref sig .tc .vmem S1x4096x3 .f32) (harg6 : arg6.IsWhole)
    (x0 : Vec F S1x512x3 .f32) (x1 : Vec F S1x3x512 .f32) (xs : Vec F S4096x3 .f32) (xt0 : TbBuf (F := F) c tbM0) (xt1 : TbBuf (F := F) c tbM1)
    (hw1 : k0_chk1 (wd0 c i xt0)) (hw2 : k0_chk2 (wd0 c i xt0) (wd1 c i xt1))
    (hc1 : ¬cond1 i) (hc2 : ¬(k0_cond2 (wd0 c i xt0) (wd1 c i xt1) = 1#1)) (hc3 : k0_cond3 i = 1#1) (y : S1x4096x3.Idx) :
    ∃ pc ∈ (runD c i arg4 harg4 arg5 harg5 arg6 harg6 x0 x1 xs xt0 xt1 hw1 hw2 hc1 hc2 hc3).1, y ∈ pc.1.set :=
  View.cover_of_wholeMem (runD c i arg4 harg4 arg5 harg5 arg6 harg6 x0 x1 xs xt0 xt1 hw1 hw2 hc1 hc2 hc3).1 (by sl_whole_mem) y

/-- At the first pair the reset makes the step independent of what the accumulator held. -/
theorem nextAcc_first (c : Dev nD) (t : Fin (cfgM (F := F)).N) (h1 : cond1 (grid0.coords t)) (d d' : Vec F S4096x3 .f32) :
    nextAcc m c t d = nextAcc m c t d' := by
  unfold nextAcc; rw [dif_pos h1, dif_pos h1]

set_option maxHeartbeats 4000000 in
/-- The body at any point: the case the point is in, its run applied at the point's memrefs and blocks, the invariant
    handing the accumulator over at what the point before left and taking it back at this point's contents. -/
theorem sound_body (c : Dev nD) (t : Fin (cfgM (F := F)).N) :
    bodyPre m c t ⊢ wp frame (wpE (defs₀ (F := F)) Variants.none c none) Set.univ
      (cc0__pair_force_kernel (grid0.coords t) tbM0 htbM0 tbM1 htbM1 (ms0 t) (hs0 t) (ms1 t) (hs1 t) (ms2 t) (hs2 t) scM hscM) (fun _ => bodyPost m c t) := by
  unfold bodyPre bodyPost
  simp only [before0, before1]
  rw [show (dats m 0 c).owesAt () t.succ = (dats m 0 c).owesAt () t.castSucc from rfl]
  rw [show (dats m 0 c).Φ t.castSucc = PhiS m c t.val from by show PhiS m c (t.castSucc).val = _; rw [Fin.coe_castSucc],
    show (dats m 0 c).Φ t.succ = PhiS m c (t.val + 1) from by show PhiS m c (t.succ).val = _; rw [Fin.val_succ]]
  rw [show (dats m 0 c).leavesExact 0 t = owns (c : Thread nD τ) (ms0 t) fullShare ((dats m 0 c).after 0 t) from by
    unfold Dat.leavesExact; rw [Hand.idle0]; rfl, after0]
  rw [show (dats m 0 c).leavesExact 1 t = owns (c : Thread nD τ) (ms1 t) fullShare ((dats m 0 c).after 1 t) from by
    unfold Dat.leavesExact; rw [Hand.idle1]; rfl, after1]
  unfold PhiS
  have h72 : t.val < 72 := N_cfgM (F := F) ▸ t.isLt
  by_cases h1 : cond1 (grid0.coords t)
  · have hp : t.val % 36 = 0 := (cond1_iff t).mp h1
    have hi2 : (cfgM (F := F)).idle 2 ((cfgM (F := F)).grid.coords t) = true := by rw [idle2]; exact decide_eq_true (by omega)
    have hf2 : ((cfgM (F := F)).win 2).flush t = false := by rw [flush2]; exact decide_eq_false (by omega)
    rw [Dat.leavesExact_idle (dats m 0 c) 2 t hi2 hf2]
    iintro ⟨⟨⟨%d, %hd, HS⟩, Hg, HT0, HT1⟩, Ho, ⟨%d0, H0⟩, ⟨%d1, H1⟩, ⟨%d2, H2⟩⟩
    have hstep : nextAcc m c t d = nextAcc m c t (accBefore m c t) := nextAcc_first m c t h1 _ _
    iapply ((runA c (grid0.coords t) _ _ _ _ _ _ (iblk m c 0 t) (iblk m c 1 t) (tbl (F := F) 0) (tbl (F := F) 1) (hw1_at (F := F) c t) (hw2_at (F := F) c t) h1 (first_excl (F := F) c t h1).1 (first_excl (F := F) c t h1).2).2 d _ Set.univ _)
    isplitl [H0]; · iexact H0
    isplitl [H1]; · iexact H1
    isplitl [H2]; · iexact H2
    isplitl [HS]; · iexact HS
    isplitl [HT0]; · iexact HT0
    isplitl [HT1]; · iexact HT1
    iintro ⟨H0, H1, H2, HS, HT0, HT1⟩
    isplitl [HS Hg HT0 HT1]
    · isplitl [HS]
      · iexists (nextAcc m c t d); isplitr
        · ipureintro; intro _
          show nextAcc m c t d = accAfter m c (t.val + 1 - 1)
          rw [Nat.add_sub_cancel, accAfter_eq]; exact hstep
        · unfold owns; iexists _; isplitr
          swap; · iexact HS
          ipureintro; unfold nextAcc; rw [dif_pos h1]
      isplitl [Hg]; · iexact Hg
      isplitl [HT0]; · iexact HT0
      iexact HT1
    isplitl [Ho]; · iexact Ho
    isplitl [H0]; · iexact H0
    isplitl [H1]; · iexact H1
    iexists d2; iexact H2
  · have ht : t.val ≠ 0 := fun h => h1 (cond1_of_zero t h)
    by_cases h2 : k0_cond2 (wd0 (F := F) c (grid0.coords t) (tbl (F := F) 0)) (wd1 (F := F) c (grid0.coords t) (tbl (F := F) 1)) = 1#1
    · have hp : t.val % 36 ≠ 35 := fun h => offdiag_excl (F := F) c t h2 ((cond3_iff t).mpr h)
      have hi2 : (cfgM (F := F)).idle 2 ((cfgM (F := F)).grid.coords t) = true := by rw [idle2]; exact decide_eq_true hp
      have hf2 : ((cfgM (F := F)).win 2).flush t = false := by rw [flush2]; exact decide_eq_false hp
      rw [Dat.leavesExact_idle (dats m 0 c) 2 t hi2 hf2]
      iintro ⟨⟨⟨%d, %hd, HS⟩, Hg, HT0, HT1⟩, Ho, ⟨%d0, H0⟩, ⟨%d1, H1⟩, ⟨%d2, H2⟩⟩
      have hstep : nextAcc m c t d = nextAcc m c t (accBefore m c t) := by rw [← found_eq m c t d hd ht]
      iapply ((runB c (grid0.coords t) _ _ _ _ _ _ (iblk m c 0 t) (iblk m c 1 t) d (tbl (F := F) 0) (tbl (F := F) 1) (hw1_at (F := F) c t) (hw2_at (F := F) c t) h1 h2 (offdiag_excl (F := F) c t h2)).2 _ Set.univ _)
      isplitl [H0]; · iexact H0
      isplitl [H1]; · iexact H1
      isplitl [H2]; · iexact H2
      isplitl [HS]; · iexact HS
      isplitl [HT0]; · iexact HT0
      isplitl [HT1]; · iexact HT1
      iintro ⟨H0, H1, H2, HS, HT0, HT1⟩
      isplitl [HS Hg HT0 HT1]
      · isplitl [HS]
        · iexists (nextAcc m c t d); isplitr
          · ipureintro; intro _
            show nextAcc m c t d = accAfter m c (t.val + 1 - 1)
            rw [Nat.add_sub_cancel, accAfter_eq]; exact hstep
          · unfold owns; iexists _; isplitr
            swap; · iexact HS
            ipureintro; unfold nextAcc; rw [dif_neg h1, dif_pos h2]
        isplitl [Hg]; · iexact Hg
        isplitl [HT0]; · iexact HT0
        iexact HT1
      isplitl [Ho]; · iexact Ho
      isplitl [H0]; · iexact H0
      isplitl [H1]; · iexact H1
      iexists d2; iexact H2
    · by_cases h3 : k0_cond3 (grid0.coords t) = 1#1
      · have hp : t.val % 36 = 35 := (cond3_iff t).mp h3
        have hi2 : (cfgM (F := F)).idle 2 ((cfgM (F := F)).grid.coords t) = false := by rw [idle2]; exact decide_eq_false (by omega)
        rw [show (dats m 0 c).leavesExact 2 t = owns (c : Thread nD τ) (ms2 t) fullShare ((dats m 0 c).after 2 t) from by
          unfold Dat.leavesExact; rw [hi2]; rfl]
        iintro ⟨⟨⟨%d, %hd, HS⟩, Hg, HT0, HT1⟩, Ho, ⟨%d0, H0⟩, ⟨%d1, H1⟩, ⟨%d2, H2⟩⟩
        have hstep : nextAcc m c t d = nextAcc m c t (accBefore m c t) := by rw [← found_eq m c t d hd ht]
        iapply ((runD c (grid0.coords t) _ _ _ _ _ _ (iblk m c 0 t) (iblk m c 1 t) d (tbl (F := F) 0) (tbl (F := F) 1) (hw1_at (F := F) c t) (hw2_at (F := F) c t) h1 h2 h3).2.2 _ Set.univ _)
        isplitl [H0]; · iexact H0
        isplitl [H1]; · iexact H1
        isplitl [H2]; · iexact H2
        isplitl [HS]; · iexact HS
        isplitl [HT0]; · iexact HT0
        isplitl [HT1]; · iexact HT1
        iintro ⟨H0, H1, ⟨%e2, H2⟩, HS, HT0, HT1⟩
        isplitl [HS Hg HT0 HT1]
        · isplitl [HS]
          · iexists (nextAcc m c t d); isplitr
            · ipureintro; intro _
              show nextAcc m c t d = accAfter m c (t.val + 1 - 1)
              rw [Nat.add_sub_cancel, accAfter_eq]; exact hstep
            · unfold owns; iexists _; isplitr
              swap; · iexact HS
              ipureintro; unfold nextAcc; rw [dif_neg h1, dif_neg h2, dif_pos h3]
          isplitl [Hg]; · iexact Hg
          isplitl [HT0]; · iexact HT0
          iexact HT1
        isplitl [Ho]; · iexact Ho
        isplitl [H0]; · iexact H0
        isplitl [H1]; · iexact H1
        unfold owns; iexists _; isplitr
        swap; · iexact H2
        ipureintro
        rw [after2, ← found_eq m c t d hd ht]
        unfold outAt; rw [dif_pos ⟨h1, h2, h3⟩]
        exact View.read_writes_of_cover _ _ _ _ _ (coverD c _ _ _ _ _ _ _ _ _ _ _ _ _ _ _ _ _)
      · have hp : t.val % 36 ≠ 35 := fun h => h3 ((cond3_iff t).mpr h)
        have hi2 : (cfgM (F := F)).idle 2 ((cfgM (F := F)).grid.coords t) = true := by rw [idle2]; exact decide_eq_true hp
        have hf2 : ((cfgM (F := F)).win 2).flush t = false := by rw [flush2]; exact decide_eq_false hp
        rw [Dat.leavesExact_idle (dats m 0 c) 2 t hi2 hf2]
        iintro ⟨⟨⟨%d, %hd, HS⟩, Hg, HT0, HT1⟩, Ho, ⟨%d0, H0⟩, ⟨%d1, H1⟩, ⟨%d2, H2⟩⟩
        have hstep : nextAcc m c t d = nextAcc m c t (accBefore m c t) := by rw [← found_eq m c t d hd ht]
        iapply ((runC c (grid0.coords t) _ _ _ _ _ _ (iblk m c 0 t) (iblk m c 1 t) d (tbl (F := F) 0) (tbl (F := F) 1) (hw1_at (F := F) c t) (hw2_at (F := F) c t) h1 h2 h3).2 _ Set.univ _)
        isplitl [H0]; · iexact H0
        isplitl [H1]; · iexact H1
        isplitl [H2]; · iexact H2
        isplitl [HS]; · iexact HS
        isplitl [HT0]; · iexact HT0
        isplitl [HT1]; · iexact HT1
        iintro ⟨H0, H1, H2, HS, HT0, HT1⟩
        isplitl [HS Hg HT0 HT1]
        · isplitl [HS]
          · iexists (nextAcc m c t d); isplitr
            · ipureintro; intro _
              show nextAcc m c t d = accAfter m c (t.val + 1 - 1)
              rw [Nat.add_sub_cancel, accAfter_eq]; exact hstep
            · unfold owns; iexists _; isplitr
              swap; · iexact HS
              ipureintro; unfold nextAcc; rw [dif_neg h1, dif_neg h2, dif_neg h3]
          isplitl [Hg]; · iexact Hg
          isplitl [HT0]; · iexact HT0
          iexact HT1
        isplitl [Ho]; · iexact Ho
        isplitl [H0]; · iexact H0
        isplitl [H1]; · iexact H1
        iexists d2; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : iprop(Pipeline.ΦA spec0 c ∗ Pipeline.ΦT pre0 (tbl (F := F)) c) ⊢ (dats m 0 c).Φ 0 := by
  rw [show (dats m 0 c).Φ 0 = PhiS m c 0 from rfl, PhiA_eq, PhiT_eq]; unfold PhiS
  iintro ⟨⟨⟨%d, HS⟩, Hg⟩, HT0, HT1⟩
  isplitl [HS]
  · iexists d; isplitr
    · ipureintro; intro h; exact absurd rfl h
    · iexact HS
  isplitl [Hg]; · iexact Hg
  isplitl [HT0]; · iexact HT0
  iexact HT1

/-- After the last point the invariant gives the class's back: the accumulator's contents are forgotten, the tables' halves let go. -/
theorem hout (c : Dev nD) : (dats m 0 c).Φ (Fin.last (cfgM (F := F)).N) ⊢ Pipeline.ΦA spec0 c := by
  rw [show (dats m 0 c).Φ (Fin.last (cfgM (F := F)).N) = PhiS m c (Fin.last (cfgM (F := F)).N).val from rfl, PhiA_eq]; unfold PhiS
  iintro ⟨⟨%d, -, HS⟩, Hg, -, -⟩
  isplitl [HS]
  · iexists d; iexact HS
  iexact Hg

/-! ## The run -/

set_option backward.isDefEq.respectTransparency.types false in
/-- Every weakly fair execution of @main terminates; the pipeline's arrays end at what the library computes from
    the proof data, every other unscoped buffer as the region found it. -/
theorem run_main : θ_run defs (onTc (τ := τ) (main (F := F))) (s₀ m ρ) (Pipeline.FramePost (Pipeline.pin pcfgs fun _ => adm (F := F)) (dats m) 0 (V m)) :=
  Pipeline.θ_run_frameP_track pcfgs (fun _ => adm (F := F)) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hin := hin m) (hout := hout m)

end Cert.Kernel.Hand

end
-- ==== Proof.Bits.HostReads.lean ====
/-
  What the five host operations before the region leave in each buffer of a core.

  The host writes the two tile tables, broadcasts the masses along the coordinate axis, divides the momenta by the
  broadcast masses, and transposes the positions from (batch, particle, axis) to (batch, axis, particle). No host
  operation writes an argument, so each argument reaches the region as launched; the quotient and the transpose
  are those functions of the launched arguments; and the transposed positions read at (β, k, j) are the launched
  positions at (β, j, k).
-/
import proofs.«138107_j13151189860959_2_alg».proof.Proof.Bits.FrameBase
import Idealize.ShloMosaic.Lib.ValueIdx
import Idealize.ShloMosaic.Lib.Pipeline.Value
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The arguments -/

/-- No host operation writes an argument: each reaches the region as launched. -/
theorem V_arg0 (c : Dev nD) : V m c main_arg0 = m ((c : Thread nD τ).loc main_arg0) := by
  show StableHlo.after hostOps0 (fun b => m (c, b)) (Proc.devRef .tc main_arg0) = _
  after_results <;> rfl

theorem V_arg1 (c : Dev nD) : V m c main_arg1 = m ((c : Thread nD τ).loc main_arg1) := by
  show StableHlo.after hostOps0 (fun b => m (c, b)) (Proc.devRef .tc main_arg1) = _
  after_results <;> rfl

theorem V_arg2 (c : Dev nD) : V m c main_arg2 = m ((c : Thread nD τ).loc main_arg2) := by
  show StableHlo.after hostOps0 (fun b => m (c, b)) (Proc.devRef .tc main_arg2) = _
  after_results <;> rfl

theorem V_arg3 (c : Dev nD) : V m c main_arg3 = m ((c : Thread nD τ).loc main_arg3) := by
  show StableHlo.after hostOps0 (fun b => m (c, b)) (Proc.devRef .tc main_arg3) = _
  after_results <;> rfl

/-! ## The two results the host computes -/

/-- The first result: momenta over masses. -/
theorem V_v1 (c : Dev nD) : V m c main_v1 = Host.divf (m ((c : Thread nD τ).loc main_arg1)) (broadcastInDim S2x4096x3 ![0, 1, 2] bcast_S2x4096x1_S2x4096x3_0_1_2 (m ((c : Thread nD τ).loc main_arg2))) := by
  show StableHlo.after hostOps0 (fun b => m (c, b)) (Proc.devRef .tc main_v1) = _
  after_results <;> rfl

/-- The transposed positions. -/
theorem V_v2 (c : Dev nD) : V m c main_v2 = transpose S2x3x4096 [0, 2, 1] (m ((c : Thread nD τ).loc main_arg0)) transposes_S2x4096x3_S2x3x4096_0_2_1 := by
  show StableHlo.after hostOps0 (fun b => m (c, b)) (Proc.devRef .tc main_v2) = _
  after_results <;> rfl

/-- The transposed positions at (β, k, j) are the launched positions at (β, j, k). -/
theorem V_v2_apply (c : Dev nD) (β : Fin 2) (k : Fin 3) (j : Fin 4096) :
    V m c main_v2 (Idealize.ShloMosaic.ValueIdx.ix3 β k j) = m ((c : Thread nD τ).loc main_arg0) (Idealize.ShloMosaic.ValueIdx.ix3 β j k) := by
  rw [V_v2]
  exact transpose_apply [0, 2, 1] _ transposes_S2x4096x3_S2x3x4096_0_2_1 (Idealize.ShloMosaic.ValueIdx.ix3 β k j)
    (Idealize.ShloMosaic.ValueIdx.ix3 β j k) (fun b => match b with | ⟨0, _⟩ => rfl | ⟨1, _⟩ => rfl | ⟨2, _⟩ => rfl)

end Cert.Kernel.Hand

end
-- ==== Proof.Bits.FrameThm.lean ====
/-
  The kernel program's frame claim and its value run, read off the launch theorem's post: a staged input array ends
  as the region found it, an array no window stages ends as the region found it, and what the region found in an
  argument is what the launch memory held; the host's quotient is that function of the launched arguments; the
  output window's array ends at what the proof data computes.
-/
import proofs.«138107_j13151189860959_2_alg».proof.Proof.Bits.FrameDat
import proofs.«138107_j13151189860959_2_alg».proof.Proof.Bits.HostReads

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers that bypass the region -/

theorem arg1_rest : main_arg1 ∈ Pipeline.restRefs sig spec0 :=
  Pipeline.mem_restRefs_of main_arg1 rfl (fun w => by fin_cases w <;> decide)
theorem arg2_rest : main_arg2 ∈ Pipeline.restRefs sig spec0 :=
  Pipeline.mem_restRefs_of main_arg2 rfl (fun w => by fin_cases w <;> decide)
theorem arg3_rest : main_arg3 ∈ Pipeline.restRefs sig spec0 :=
  Pipeline.mem_restRefs_of main_arg3 rfl (fun w => by fin_cases w <;> decide)
theorem v1_rest : main_v1 ∈ Pipeline.restRefs sig spec0 :=
  Pipeline.mem_restRefs_of main_v1 rfl (fun w => by fin_cases w <;> decide)

/-! ## The frame claim's run -/

/-- Every weakly fair execution terminates and the four arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans ((A_eq m c 0).trans (V_arg0 m c))),
      ((h c).2 main_arg1 arg1_rest).trans (V_arg1 m c),
      ((h c).2 main_arg2 arg2_rest).trans (V_arg2 m c),
      ((h c).2 main_arg3 arg3_rest).trans (V_arg3 m c)⟩) (run_main m ρ)

/-! ## The value run -/

/-- The two results named, the arguments unchanged. -/
theorem run_value : θ_run defs (onTc (τ := τ) (main (F := F))) ⟨m, fun _ => 0, ρ⟩ (fun r => ∀ c : Dev nD,
      r.2.mem ((c.tc : Thread nD τ).loc main_v1) = Host.divf (m ((c.tc : Thread nD τ).loc main_arg1)) (broadcastInDim S2x4096x3 ![0, 1, 2] bcast_S2x4096x1_S2x4096x3_0_1_2 (m ((c.tc : Thread nD τ).loc main_arg2)))
      ∧ r.2.mem ((c.tc : Thread nD τ).loc main_v3) = (dats m 0 c).arrAt 2 (cfgM (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v1 v1_rest).trans (V_v1 m c),
      (h c).1 2,
      ((h c).1 0).trans (((dats m 0 c).arrAt_in 0 rfl _).trans ((A_eq m c 0).trans (V_arg0 m c))),
      ((h c).2 main_arg1 arg1_rest).trans (V_arg1 m c),
      ((h c).2 main_arg2 arg2_rest).trans (V_arg2 m c),
      ((h c).2 main_arg3 arg3_rest).trans (V_arg3 m c)⟩) (run_main m ρ)

end Cert.Kernel.Hand

end
-- ==== Proof.FrameBase.lean ====
/-
  The launch side of the pair-force kernel's run: the host operations before the region, the two tile tables the
  region prefetches (the triangular enumeration of the 36 unordered tile pairs, constants of the program), and the
  pipeline at those tables.
-/
import proofs.«138107_j13151189860959_2_alg».proof.Proof.Gen.KernelIdeal.Launch
import proofs.«138107_j13151189860959_2_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The buffers' contents when the region is entered: after the five host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-! ## The tile tables -/

/-- The two tables' contents: first and second member of each of the 36 tile pairs. -/
def tbl : pre0.Contents (Elt F) := fun
  | 0 => fun i => lit0 (S36.rowMajor i)
  | 1 => fun i => lit1 (S36.rowMajor i)
  | ⟨_ + 2, h⟩ => absurd h (Nat.not_lt.2 (Nat.le_add_left _ _))

theorem V_pre (c : Dev nD) (j : Fin 2) : V m c (pre0.ref j) = tbl (F := F) j := by
  match j with
  | 0 => show StableHlo.after hostOps0 (fun b => m (c, b)) (Proc.devRef .tc main_c) = _; after_results; rfl
  | 1 => show StableHlo.after hostOps0 (fun b => m (c, b)) (Proc.devRef .tc main_c_0) = _; after_results; rfl

end Cert.KernelIdeal.Hand

end
-- ==== Proof.TableFacts.lean ====
/-
  Facts about the two literal tile tables the kernel prefetches — the triangular enumeration of the 36 unordered
  pairs (i, j), i ≤ j, of the 8 row tiles: table 0 holds i, table 1 holds j — at every one of the 72 grid points
  (batch β < 2, pair p < 36): the word the body loads at point (β, p) is the p-th entry; every entry is below 8, so
  512 · entry is a multiple of 512 naming 512 rows inside the 4096; the off-diagonal branch is taken exactly when
  the two words differ; and every table-indexed block lies inside its array.
-/
import proofs.«138107_j13151189860959_2_alg».proof.Proof.FrameBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The table entries -/

/-- The entries of table 0 are below 8. -/
theorem lit0_lt : ∀ x : Fin 36, (lit0 x).toNat < 8 := by decide

/-- The entries of table 1 are below 8. -/
theorem lit1_lt : ∀ x : Fin 36, (lit1 x).toNat < 8 := by decide

/-! ## The integer chains at a word below 8 -/

/-- 512 times a word below 8 does not wrap. -/
theorem muli512_toNat (v : BitVec 32) (hv : v.toNat < 8) : (Scalar.muli v 512#32).toNat = 512 * v.toNat := by
  show (v * 512#32).toNat = _
  rw [BitVec.toNat_mul]
  have h512 : (512#32 : BitVec 32).toNat = 512 := rfl
  rw [h512, Nat.mod_eq_of_lt (by omega)]; omega

/-- The row offsets the body stores through: 512 · tile index, column 0. -/
theorem off2_word (v : BitVec 32) (hv : v.toNat < 8) : k0_off2 v = ![512 * v.toNat, 0] := by
  show ![(Scalar.muli v 512#32).toNat, 0] = _
  rw [muli512_toNat v hv]

theorem off3_word (v : BitVec 32) (hv : v.toNat < 8) : k0_off3 v = ![512 * v.toNat, 0] := by
  show ![(Scalar.muli v 512#32).toNat, 0] = _
  rw [muli512_toNat v hv]

/-- 512 rows from row 512 · v, v < 8, lie inside the 4096. -/
theorem rows_inb (v : BitVec 32) (hv : v.toNat < 8) :
    ∀ a, (![512 * v.toNat, 0] : Fin 2 → Nat) a + S512x3.size a ≤ S4096x3.size a := by
  intro a
  fin_cases a <;> simp [S512x3, S4096x3] <;> omega

theorem chk1_of_lt (v : BitVec 32) (hv : v.toNat < 8) : k0_chk1 v := by
  refine ⟨?_, ?_⟩
  · show 512 ∣ (Scalar.muli v 512#32).toNat
    rw [muli512_toNat v hv]; exact Dvd.intro _ rfl
  · rw [off2_word v hv]; exact rows_inb v hv

theorem chk2_of_lt (v1 v3 : BitVec 32) (h1 : v1.toNat < 8) (h3 : v3.toNat < 8) : k0_chk2 v1 v3 := by
  refine ⟨fun _ => ?_, fun _ => ?_⟩
  · show 512 ∣ (Scalar.muli v3 512#32).toNat
    rw [muli512_toNat v3 h3]; exact Dvd.intro _ rfl
  · rw [off3_word v3 h3]; exact rows_inb v3 h3

/-- The off-diagonal branch is taken exactly when the two words differ. -/
theorem cond2_iff (v1 v3 : BitVec 32) : k0_cond2 v1 v3 = 1#1 ↔ v1 ≠ v3 := by
  have key : ∀ b : Bool,
      IntOp.cmpi .ne (Scalar.extui (IntOp.xori (BitVec.ofBool b) 1#1)) 0#32 = 1#1 ↔ b = false := by decide
  show IntOp.cmpi .ne (Scalar.extui (IntOp.xori (BitVec.ofBool (v1 == v3)) 1#1)) 0#32 = 1#1 ↔ _
  rw [key]; simp

/-! ## The words the body loads -/

/-- The word of table 0 the body loads at grid coordinates `i`: a load through the unit rectangle at the pair
    coordinate of the held table. -/
abbrev word0 (i : grid0.Coords) : Elt F .i32 :=
  (Memref.whole main_c : Memref sig .tc .smem S36 .i32).view.readAt (Elt F) (Rect.unit (s := S36) (k0_off1 i) S1.size (k0_off1_inb i)).toLoadRect (tbl (F := F) 0) (Shape.Idx.first (numel1_S1.symm ▸ Nat.one_pos))

/-- The word of table 1 the body loads at grid coordinates `i`. -/
abbrev word1 (i : grid0.Coords) : Elt F .i32 :=
  (Memref.whole main_c_0 : Memref sig .tc .smem S36 .i32).view.readAt (Elt F) (Rect.unit (s := S36) (k0_off1 i) S1.size (k0_off1_inb i)).toLoadRect (tbl (F := F) 1) (Shape.Idx.first (numel1_S1.symm ▸ Nat.one_pos))

/-- The pair coordinate, as the 32-bit word the body casts to an index, is the coordinate. -/
theorem off1_val (i : grid0.Coords) : k0_off1 i 0 = (i 1).val := by
  show (BitVec.ofNat 32 (i 1).val).toNat = (i 1).val
  have h36 : (i 1).val < 36 := (i 1).isLt
  rw [BitVec.toNat_ofNat, Nat.mod_eq_of_lt (by omega)]

/-- The unit rectangle at the pair coordinate names entry `i 1` of the 36. -/
theorem pair_idx (i : grid0.Coords) (h : 0 < S1.numel) :
    (S36.rowMajor ((Rect.unit (s := S36) (k0_off1 i) S1.size (k0_off1_inb i)).idx (Shape.Idx.first h))).val
      = (i 1).val := by
  rw [Shape.rowMajor_val_one]
  show k0_off1 i 0 + 1 * 0 = (i 1).val
  rw [off1_val]; omega

/-- The loaded words at grid coordinates `i`: the tables' entries at the pair coordinate `i 1`. -/
theorem word0_at (i : grid0.Coords) : word0 (F := F) i = lit0 ⟨(i 1).val, (i 1).isLt⟩ :=
  congrArg lit0 (Fin.ext (pair_idx i _))

theorem word1_at (i : grid0.Coords) : word1 (F := F) i = lit1 ⟨(i 1).val, (i 1).isLt⟩ :=
  congrArg lit1 (Fin.ext (pair_idx i _))

/-- In row-major order over (2, 36), point `t` has pair coordinate `t % 36`. -/
theorem coords_pair (t : Fin grid0.N) : (grid0.coords t 1).val = t.val % 36 := by
  show t.val / grid0.stride 1 % 36 = t.val % 36
  have h1 : grid0.stride 1 = 1 := by decide
  rw [h1, Nat.div_one]

/-- The loaded words are the literal tables' entries at the pair coordinate. -/
theorem word0_eq (t : Fin grid0.N) :
    word0 (F := F) (grid0.coords t) = lit0 ⟨t.val % 36, Nat.mod_lt _ (by decide)⟩ :=
  (word0_at (grid0.coords t)).trans (congrArg lit0 (Fin.ext (coords_pair t)))

theorem word1_eq (t : Fin grid0.N) :
    word1 (F := F) (grid0.coords t) = lit1 ⟨t.val % 36, Nat.mod_lt _ (by decide)⟩ :=
  (word1_at (grid0.coords t)).trans (congrArg lit1 (Fin.ext (coords_pair t)))

/-- The loaded words are below 8, at any grid coordinates. -/
theorem word0_lt (i : grid0.Coords) : (word0 (F := F) i : BitVec 32).toNat < 8 := by
  rw [word0_at]; exact lit0_lt _

theorem word1_lt (i : grid0.Coords) : (word1 (F := F) i : BitVec 32).toNat < 8 := by
  rw [word1_at]; exact lit1_lt _

/-! ## The side conditions the body assumes hold at every point -/

theorem chk1_at (t : Fin grid0.N) : k0_chk1 (word0 (F := F) (grid0.coords t)) :=
  chk1_of_lt _ (word0_lt _)

theorem chk2_at (t : Fin grid0.N) :
    k0_chk2 (word0 (F := F) (grid0.coords t)) (word1 (F := F) (grid0.coords t)) :=
  chk2_of_lt _ _ (word0_lt _) (word1_lt _)

/-! ## Every table-indexed block lies inside its array -/

/-- The batch coordinate, as a 32-bit word, is below 2. -/
theorem arg0_lt (i : grid0.Coords) : (BitVec.ofNat 32 (i 0).val).toNat < 2 := by
  have h2 : (i 0).val < 2 := (i 0).isLt
  rw [BitVec.toNat_ofNat, Nat.mod_eq_of_lt (by omega)]; exact h2

theorem ok_tbl : ok0 (F := F) (tbl (F := F)) := by
  refine ⟨fun i => ⟨fun a => ?_, .inl rfl⟩, fun i => ⟨fun a => ?_, .inl rfl⟩⟩
  · -- window 0: block (β, table-0 word, 0) of size (1, 512, 3) inside (2, 4096, 3)
    obtain ⟨w, hw, e⟩ : ∃ w : BitVec 32, w.toNat < 8 ∧
        cc0_transform_0 k0_off1_inb numel1_S1 (tbl (F := F)) i = ![(BitVec.ofNat 32 (i 0).val).toNat, w.toNat, 0] :=
      ⟨_, word0_lt (F := F) i, rfl⟩
    rw [e]
    have h0 := arg0_lt i
    fin_cases a <;> simp [S1x512x3, S2x4096x3] <;> omega
  · -- window 1: block (β, 0, table-1 word) of size (1, 3, 512) inside (2, 3, 4096)
    obtain ⟨w, hw, e⟩ : ∃ w : BitVec 32, w.toNat < 8 ∧
        cc0_transform_1 k0_off1_inb numel1_S1 (tbl (F := F)) i = ![(BitVec.ofNat 32 (i 0).val).toNat, 0, w.toNat] :=
      ⟨_, word1_lt (F := F) i, rfl⟩
    rw [e]
    have h0 := arg0_lt i
    fin_cases a <;> simp [S1x3x512, S2x3x4096] <;> omega

end Cert.KernelIdeal.Hand

end
-- ==== Proof.BodyNames.lean ====
/-
  Names shared by the runs of the kernel body: the two tile tables and the accumulator as memrefs, the word of each
  table the body loads at a grid point, and the first-pair condition.
-/
import proofs.«138107_j13151189860959_2_alg».proof.Proof.FrameBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each table as the body is handed it: its whole buffer as a memref. -/
abbrev tbM0 : Memref sig .tc .smem S36 .i32 := Memref.whole main_c
abbrev htbM0 : tbM0.IsWhole := Memref.isWhole_whole _
abbrev tbM1 : Memref sig .tc .smem S36 .i32 := Memref.whole main_c_0
abbrev htbM1 : tbM1.IsWhole := Memref.isWhole_whole _
/-- The accumulator: the kernel's scratch buffer. -/
abbrev scM : Memref sig .tc .vmem S4096x3 .f32 := Memref.whole cc0_scratch0
abbrev hscM : scM.IsWhole := Memref.isWhole_whole _

abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The word of each table the body loads at grid coordinates `i`. -/
abbrev wd0 (c : Dev nD) (i : grid0.Coords) (xt0 : TbBuf (F := F) c tbM0) : Elt F .i32 :=
  tbM0.view.readAt (Elt F) (Rect.unit (s := S36) (k0_off1 i) S1.size (k0_off1_inb i)).toLoadRect xt0 (Shape.Idx.first (numel1_S1.symm ▸ Nat.one_pos))
abbrev wd1 (c : Dev nD) (i : grid0.Coords) (xt1 : TbBuf (F := F) c tbM1) : Elt F .i32 :=
  tbM1.view.readAt (Elt F) (Rect.unit (s := S36) (k0_off1 i) S1.size (k0_off1_inb i)).toLoadRect xt1 (Shape.Idx.first (numel1_S1.symm ▸ Nat.one_pos))

/-- The first-pair condition, from the grid coordinates. -/
abbrev cond1 (i : grid0.Coords) : Prop := (Scalar.cmpi .ne (Scalar.extui (Scalar.cmpi .eq (BitVec.ofNat 32 (i 1).val) 0#32)) 0#32) = 1#1

end Cert.KernelIdeal.Hand

end
-- ==== Proof.FrameCfg.lean ====
/-
  The pipeline at the literal tile tables, the blocks its windows stage at each grid point, and the invariant's parts.
-/
import proofs.«138107_j13151189860959_2_alg».proof.Proof.TableFacts
import proofs.«138107_j13151189860959_2_alg».proof.Proof.BodyNames

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tables as admissible contents, and the pipeline at them. -/
abbrev adm : (pcfg0 (F := F)).Adm := ⟨tbl (F := F), ok_tbl⟩
abbrev cfgM : Pipeline.Cfg sig Λ₀ := cfg0 (adm (F := F))

/-- The halves of the two tables the region hands the body. -/
theorem PhiT_eq (c : Dev nD) : (Pipeline.ΦT pre0 (tbl (F := F)) c : sProp 𝕄) = iprop(tbPt c tbM0 (tbl (F := F) 0) ∗ tbPt c tbM1 (tbl (F := F) 1)) := by
  unfold Pipeline.ΦT Pipeline.prefHeld
  rw [show (Finset.univ : Finset (Fin 2)) = insert (0 : Fin 2) {(1 : Fin 2)} from by decide,
    bigSep_insert (by decide), bigSep_singleton]
  rfl

/-- The class invariant with the accumulator as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The windows' blocks -/

/-- Window `w`'s block at point `t`, read off its array as the region finds it. -/
def iblk (c : Dev nD) (w : Fin (cfgM (F := F)).W) (t : Fin (cfgM (F := F)).N) : (((cfgM (F := F)).win w).xblock ((cfgM (F := F)).grid.coords t)).Idx → Elt F ((cfgM (F := F)).win w).elt :=
  (((cfgM (F := F)).win w).blk t).view.read (Elt F) (V m c (Pipeline.arrRef spec0 w))

/-- An input window's staging buffer holds its block at every point, fetched there or not. -/
theorem before0_0_of {c : Dev nD} (dat : Dat τ (Elt F) Unit ℕ (UR sig nD τ) ℕ (cfgM (F := F)) c) (hA : dat.A 0 = V m c (Pipeline.arrRef spec0 0))
    (hafter : ∀ t, dat.after 0 t = iblk m c 0 t) (t : Fin (cfgM (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ (cfgM (F := F)) c) (hA : dat.A 1 = V m c (Pipeline.arrRef spec0 1))
    (hafter : ∀ t, dat.after 1 t = iblk m c 1 t) (t : Fin (cfgM (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point `t`. -/
abbrev ms0 (t : Fin (cfgM (F := F)).N) : Memref sig .tc .vmem S1x512x3 .f32 := spec0_0.stage ((cfgM (F := F)).slots t 0)
abbrev hs0 (t : Fin (cfgM (F := F)).N) : (ms0 (F := F) t).IsWhole := hstage0_0 (((cfgM (F := F)).slots t 0).cast nbuf0_0)
abbrev ms1 (t : Fin (cfgM (F := F)).N) : Memref sig .tc .vmem S1x3x512 .f32 := spec0_1.stage ((cfgM (F := F)).slots t 1)
abbrev hs1 (t : Fin (cfgM (F := F)).N) : (ms1 (F := F) t).IsWhole := hstage0_1 (((cfgM (F := F)).slots t 1).cast nbuf0_1)
abbrev ms2 (t : Fin (cfgM (F := F)).N) : Memref sig .tc .vmem S1x4096x3 .f32 := spec0_2.stage ((cfgM (F := F)).slots t 2)
abbrev hs2 (t : Fin (cfgM (F := F)).N) : (ms2 (F := F) t).IsWhole := hstage0_2 (((cfgM (F := F)).slots t 2).cast nbuf0_2)

/-- What the pipeline calls at point `t`. -/
theorem bodyAt_eq (t : Fin (cfgM (F := F)).N) :
    defs₀ (F := F) .tc (cfgM (F := F)).body ((cfgM (F := F)).bodyArgs t ((cfgM (F := F)).slots t))
      = cc0__pair_force_kernel (grid0.coords t) tbM0 htbM0 tbM1 htbM1 (ms0 t) (hs0 t) (ms1 t) (hs1 t) (ms2 t) (hs2 t) scM hscM := rfl

end Cert.KernelIdeal.Hand

end
-- ==== Proof.CaseFacts.lean ====
/-
  The control cases and the output window's schedule at each of the 72 grid points (batch β = t / 36, pair
  p = t % 36): the first-pair condition holds exactly at p = 0, the last-pair condition exactly at p = 35, the
  off-diagonal condition exactly where the two tile tables differ at p; the first pair (0, 0) and the last pair
  (7, 7) are diagonal, and differ; the output window (block (β, 0, 0), read off no table) is written back exactly
  at the last pair of each batch and idle at every other point; its block at point t is batch β of the array, whole.
-/
import proofs.«138107_j13151189860959_2_alg».proof.Proof.FrameCfg
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The grid -/

theorem N_grid0 : grid0.N = 72 := by decide

theorem N_cfgM : (cfgM (F := F)).N = 72 := N_grid0

/-- In row-major order over (2, 36), point `t` is batch `t / 36`, pair `t % 36`. -/
theorem coords0 (t : Fin grid0.N) : (grid0.coords t 0).val = t.val / 36 := by
  show t.val / grid0.stride 0 % 2 = t.val / 36
  have h1 : grid0.stride 0 = 36 := by decide
  have ht : t.val < 72 := N_grid0 ▸ t.isLt
  rw [h1]; omega

theorem coords1 (t : Fin grid0.N) : (grid0.coords t 1).val = t.val % 36 := coords_pair t

/-! ## The three branch conditions in closed form -/

theorem cond1_iff (t : Fin grid0.N) : cond1 (grid0.coords t) ↔ t.val % 36 = 0 :=
  (by decide +kernel : ∀ t : Fin grid0.N, cond1 (grid0.coords t) ↔ t.val % 36 = 0) t

theorem cond3_iff (t : Fin grid0.N) : k0_cond3 (grid0.coords t) = 1#1 ↔ t.val % 36 = 35 :=
  (by decide +kernel : ∀ t : Fin grid0.N, k0_cond3 (grid0.coords t) = 1#1 ↔ t.val % 36 = 35) t

theorem cond2_at (c : Dev nD) (t : Fin grid0.N) :
    k0_cond2 (wd0 (F := F) c (grid0.coords t) (tbl (F := F) 0)) (wd1 (F := F) c (grid0.coords t) (tbl (F := F) 1)) = 1#1
      ↔ lit0 ⟨t.val % 36, Nat.mod_lt _ (by decide)⟩ ≠ lit1 ⟨t.val % 36, Nat.mod_lt _ (by decide)⟩ := by
  rw [cond2_iff]
  show word0 (F := F) (grid0.coords t) ≠ word1 (F := F) (grid0.coords t) ↔ _
  rw [word0_eq, word1_eq]

/-! ## The first pair (0, 0) and the last pair (7, 7) are diagonal, and differ -/

/-- Pair 0 is diagonal. -/
theorem lit_first : ∀ p : Fin 36, p.val = 0 → lit0 p = lit1 p := by decide

/-- An off-diagonal pair is not the last. -/
theorem lit_offdiag : ∀ p : Fin 36, lit0 p ≠ lit1 p → p.val ≠ 35 := by decide

theorem first_excl (c : Dev nD) (t : Fin grid0.N) (h : cond1 (grid0.coords t)) :
    ¬(k0_cond2 (wd0 (F := F) c (grid0.coords t) (tbl (F := F) 0)) (wd1 (F := F) c (grid0.coords t) (tbl (F := F) 1)) = 1#1)
      ∧ ¬(k0_cond3 (grid0.coords t) = 1#1) := by
  have h0 : t.val % 36 = 0 := (cond1_iff t).1 h
  refine ⟨fun h2 => (cond2_at c t).1 h2 (lit_first _ h0), fun h3 => ?_⟩
  have h35 := (cond3_iff t).1 h3
  omega

theorem offdiag_excl (c : Dev nD) (t : Fin grid0.N)
    (h : k0_cond2 (wd0 (F := F) c (grid0.coords t) (tbl (F := F) 0)) (wd1 (F := F) c (grid0.coords t) (tbl (F := F) 1)) = 1#1) :
    ¬(k0_cond3 (grid0.coords t) = 1#1) :=
  fun h3 => lit_offdiag _ ((cond2_at c t).1 h) ((cond3_iff t).1 h3)

/-! ## The side conditions, in the spelling the body's runs take them -/

theorem hw1_at (c : Dev nD) (t : Fin grid0.N) : k0_chk1 (wd0 (F := F) c (grid0.coords t) (tbl (F := F) 0)) :=
  chk1_at (F := F) t

theorem hw2_at (c : Dev nD) (t : Fin grid0.N) :
    k0_chk2 (wd0 (F := F) c (grid0.coords t) (tbl (F := F) 0)) (wd1 (F := F) c (grid0.coords t) (tbl (F := F) 1)) :=
  chk2_at (F := F) t

/-! ## The schedule of the output window -/

/-- Written back exactly at the last pair of each batch. -/
theorem flush2 (t : Fin (cfgM (F := F)).N) : ((cfgM (F := F)).win 2).flush t = decide (t.val % 36 = 35) :=
  (by decide +kernel : ∀ t : Fin grid0.N, Pipeline.Window.flushOf grid0 true cc0_transform_2 t = decide (t.val % 36 = 35)) t

/-- Idle at every other point. -/
theorem idle2 (t : Fin (cfgM (F := F)).N) :
    (cfgM (F := F)).idle 2 ((cfgM (F := F)).grid.coords t) = decide (t.val % 36 ≠ 35) :=
  (by decide +kernel : ∀ t : Fin grid0.N, (!(k0_cond3 (grid0.coords t) == 1#1)) = decide (t.val % 36 ≠ 35)) t

/-- The input windows never idle. -/
theorem idle0 (i : (cfgM (F := F)).grid.Coords) : (cfgM (F := F)).idle 0 i = false := rfl
theorem idle1 (i : (cfgM (F := F)).grid.Coords) : (cfgM (F := F)).idle 1 i = false := rfl

/-- The output window's block index at point `t`: (β, 0, 0). -/
theorem idx2 : ∀ t : Fin grid0.N, cc0_transform_2 (grid0.coords t) = ![t.val / 36, 0, 0] := by decide +kernel

/-- Membership in a unit-stride slice of a whole buffer, coordinate by coordinate. -/
theorem mem_slice_whole_unit (b : Ref sig .tc) (off size : Fin b.ty.shape.rank → Nat)
    (inb : ∀ a, off a + size a ≤ b.ty.shape.size a) (i : b.ty.shape.Idx) :
    i ∈ ((View.whole b).slice (Rect.unit off size inb)).set ↔ ∀ a, off a ≤ i a ∧ (i a : Nat) < off a + size a := by
  rw [View.set_slice_whole, Rect.mem_set_unit]

/-- The output window's block at point `t` is batch `t / 36` of the array, whole: membership in it. -/
theorem blk2_mem (t : Fin (cfgM (F := F)).N) (i : S2x4096x3.Idx) :
    i ∈ (((cfgM (F := F)).win 2).blk t).view.set ↔ (i 0).val = t.val / 36 := by
  have h2 : i ∈ (((cfgM (F := F)).win 2).blk t).view.set ↔
      ∀ a : Fin 3, cc0_transform_2 (grid0.coords t) a * S1x4096x3.size a ≤ (i a).val
        ∧ (i a).val < cc0_transform_2 (grid0.coords t) a * S1x4096x3.size a + S1x4096x3.size a :=
    mem_slice_whole_unit main_v3 _ _ _ i
  rw [h2, idx2 t]
  have hi1 : (i 1).val < 4096 := (i 1).isLt
  have hi2 : (i 2).val < 3 := (i 2).isLt
  constructor
  · intro h
    have h0 : t.val / 36 * 1 ≤ (i 0).val ∧ (i 0).val < t.val / 36 * 1 + 1 := h 0
    omega
  · intro h a
    match a with
    | ⟨0, _⟩ => show t.val / 36 * 1 ≤ (i 0).val ∧ (i 0).val < t.val / 36 * 1 + 1; omega
    | ⟨1, _⟩ => show 0 * 4096 ≤ (i 1).val ∧ (i 1).val < 0 * 4096 + 4096; omega
    | ⟨2, _⟩ => show 0 * 3 ≤ (i 2).val ∧ (i 2).val < 0 * 3 + 3; omega

/-- Reading an array `G` through the output window's block at point `t`: row `r`, coordinate `k` of the block is
    entry (t / 36, r, k) of the array. -/
theorem blk2_read (c : Dev nD) (t : Fin (cfgM (F := F)).N)
    (G : Buf (Elt F) (((cfgM (F := F)).win 2).arr.view.loc ((c : Dev nD) : Thread nD τ))) (r : Fin 4096) (k : Fin 3) :
    (((cfgM (F := F)).win 2).blk t).view.read (Elt F) G (Idealize.ShloMosaic.ValueIdx.ix3 0 r k)
      = G (Idealize.ShloMosaic.ValueIdx.ix3 ⟨t.val / 36, by have h72 : t.val < 72 := N_cfgM (F := F) ▸ t.isLt; omega⟩ r k) := by
  show G ((((cfgM (F := F)).win 2).blk t).view.emb (Idealize.ShloMosaic.ValueIdx.ix3 0 r k)) = _
  refine congrArg G ?_
  funext a
  apply Fin.ext
  have e := idx2 t
  match a with
  | ⟨0, _⟩ =>
    show cc0_transform_2 (grid0.coords t) 0 * 1 + 1 * 0 = t.val / 36
    rw [e]; show t.val / 36 * 1 + 1 * 0 = t.val / 36; omega
  | ⟨1, _⟩ =>
    show cc0_transform_2 (grid0.coords t) 1 * 4096 + 1 * r.val = r.val
    rw [e]; show 0 * 4096 + 1 * r.val = r.val; omega
  | ⟨2, _⟩ =>
    show cc0_transform_2 (grid0.coords t) 2 * 3 + 1 * k.val = k.val
    rw [e]; show 0 * 3 + 1 * k.val = k.val; omega

end Cert.KernelIdeal.Hand

end
-- ==== Proof.RunA.lean ====
/-
  The kernel body run symbolically at the first tile pair of a batch: the accumulator is reset to zero and the first tile's rows gain the tile's row sums.
-/
import proofs.«138107_j13151189860959_2_alg».proof.Proof.BodyNames

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The first pair of a batch (a diagonal pair): the accumulator is reset, then updated once. -/
noncomputable def runA (c : Dev nD) (i : grid0.Coords) (arg4 : Memref sig .tc .vmem S1x512x3 .f32) (harg4 : arg4.IsWhole) (arg5 : Memref sig .tc .vmem S1x3x512 .f32) (harg5 : arg5.IsWhole) (arg6 : Memref sig .tc .vmem S1x4096x3 .f32) (harg6 : arg6.IsWhole)
    (x0 : Vec F S1x512x3 .f32) (x1 : Vec F S1x3x512 .f32) (xt0 : TbBuf (F := F) c tbM0) (xt1 : TbBuf (F := F) c tbM1)
    (hw1 : k0_chk1 (wd0 c i xt0)) (hw2 : k0_chk2 (wd0 c i xt0) (wd1 c i xt1))
    (hc1 : cond1 i) (hc2 : ¬(k0_cond2 (wd0 c i xt0) (wd1 c i xt1) = 1#1)) (hc3 : ¬(k0_cond3 i = 1#1)) :
    { LS : List (View.Piece (Elt F) S4096x3 .f32) //
      ∀ (xs : Vec F S4096x3 .f32) (xi : Vec F S1x4096x3 .f32) (E : Set ℕ) (K : PUnit → sProp 𝕄),
        iprop(owns (c : Thread nD τ) arg4 fullShare x0 ∗ owns (c : Thread nD τ) arg5 fullShare x1 ∗ owns (c : Thread nD τ) arg6 fullShare xi
            ∗ owns (c : Thread nD τ) scM fullShare xs ∗ tbPt c tbM0 xt0 ∗ tbPt c tbM1 xt1
            ∗ (iprop(owns (c : Thread nD τ) arg4 fullShare x0 ∗ owns (c : Thread nD τ) arg5 fullShare x1 ∗ owns (c : Thread nD τ) arg6 fullShare xi
                ∗ (scM.view.loc (c : Thread nD τ) ↦[scM.view.set]{fullShare} scM.view.writes (Elt F) scM.view.junk LS) ∗ tbPt c tbM0 xt0 ∗ tbPt c tbM1 xt1) -∗ K ⟨⟩))
          ⊢ wp frame (wpE (defs₀ (F := F)) Variants.none c none) E (cc0__pair_force_kernel i tbM0 htbM0 tbM1 htbM1 arg4 harg4 arg5 harg5 arg6 harg6 scM hscM) K } := by
  refine ⟨?_, fun xs xi E K => ?run⟩
  case run =>
    simp only [cc0__pair_force_kernel_eq_skeleton]; unfold cc0__pair_force_kernel_skel
    simp only [k0_part1_eq_skeleton]
    unfold owns
    iintro ⟨⟨%f0, %hf0, H0⟩, ⟨%f1, %hf1, H1⟩, ⟨%f2, %hf2, H2⟩, ⟨%fs, %hfs, HS⟩, HT0, HT1, Hk⟩
    obtain rfl := harg4.eq_unread hf0; obtain rfl := harg5.eq_unread hf1; obtain rfl := harg6.eq_unread hf2; obtain rfl := hscM.eq_unread hfs
    sl_exec (disch := first | sl_exact hw1 | sl_exact hw2 | exact hc1 | exact hc2 | exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [HS]; · iexact HS
    isplitl [HT0]; · iexact HT0
    iexact HT1

end Cert.KernelIdeal.Hand

end
-- ==== Proof.RunB.lean ====
/-
  The kernel body run symbolically at an off-diagonal tile pair: the first tile's rows gain the row sums, the second tile's rows gain the negated column sums.
-/
import proofs.«138107_j13151189860959_2_alg».proof.Proof.BodyNames

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- An off-diagonal pair: the first tile's rows are updated, then the second tile's. -/
noncomputable def runB (c : Dev nD) (i : grid0.Coords) (arg4 : Memref sig .tc .vmem S1x512x3 .f32) (harg4 : arg4.IsWhole) (arg5 : Memref sig .tc .vmem S1x3x512 .f32) (harg5 : arg5.IsWhole) (arg6 : Memref sig .tc .vmem S1x4096x3 .f32) (harg6 : arg6.IsWhole)
    (x0 : Vec F S1x512x3 .f32) (x1 : Vec F S1x3x512 .f32) (xs : Vec F S4096x3 .f32) (xt0 : TbBuf (F := F) c tbM0) (xt1 : TbBuf (F := F) c tbM1)
    (hw1 : k0_chk1 (wd0 c i xt0)) (hw2 : k0_chk2 (wd0 c i xt0) (wd1 c i xt1))
    (hc1 : ¬cond1 i) (hc2 : k0_cond2 (wd0 c i xt0) (wd1 c i xt1) = 1#1) (hc3 : ¬(k0_cond3 i = 1#1)) :
    { LS : List (View.Piece (Elt F) S4096x3 .f32) //
      ∀ (xi : Vec F S1x4096x3 .f32) (E : Set ℕ) (K : PUnit → sProp 𝕄),
        iprop(owns (c : Thread nD τ) arg4 fullShare x0 ∗ owns (c : Thread nD τ) arg5 fullShare x1 ∗ owns (c : Thread nD τ) arg6 fullShare xi
            ∗ owns (c : Thread nD τ) scM fullShare xs ∗ tbPt c tbM0 xt0 ∗ tbPt c tbM1 xt1
            ∗ (iprop(owns (c : Thread nD τ) arg4 fullShare x0 ∗ owns (c : Thread nD τ) arg5 fullShare x1 ∗ owns (c : Thread nD τ) arg6 fullShare xi
                ∗ (scM.view.loc (c : Thread nD τ) ↦[scM.view.set]{fullShare} scM.view.writes (Elt F) (hscM.unread xs) LS) ∗ tbPt c tbM0 xt0 ∗ tbPt c tbM1 xt1) -∗ K ⟨⟩))
          ⊢ wp frame (wpE (defs₀ (F := F)) Variants.none c none) E (cc0__pair_force_kernel i tbM0 htbM0 tbM1 htbM1 arg4 harg4 arg5 harg5 arg6 harg6 scM hscM) K } := by
  refine ⟨?_, fun xi E K => ?run⟩
  case run =>
    simp only [cc0__pair_force_kernel_eq_skeleton]; unfold cc0__pair_force_kernel_skel
    simp only [k0_part1_eq_skeleton]
    unfold owns
    iintro ⟨⟨%f0, %hf0, H0⟩, ⟨%f1, %hf1, H1⟩, ⟨%f2, %hf2, H2⟩, ⟨%fs, %hfs, HS⟩, HT0, HT1, Hk⟩
    obtain rfl := harg4.eq_unread hf0; obtain rfl := harg5.eq_unread hf1; obtain rfl := harg6.eq_unread hf2; obtain rfl := hscM.eq_unread hfs
    sl_exec (disch := first | sl_exact hw1 | sl_exact hw2 | exact hc1 | exact hc2 | exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [HS]; · iexact HS
    isplitl [HT0]; · iexact HT0
    iexact HT1

end Cert.KernelIdeal.Hand

end
-- ==== Proof.RunC.lean ====
/-
  The kernel body run symbolically at a diagonal tile pair that is neither the first nor the last of its batch: the accumulator's rows of that tile gain the tile's row sums.
-/
import proofs.«138107_j13151189860959_2_alg».proof.Proof.BodyNames

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- A diagonal pair that is neither the first nor the last of its batch: one update of the accumulator. -/
noncomputable def runC (c : Dev nD) (i : grid0.Coords) (arg4 : Memref sig .tc .vmem S1x512x3 .f32) (harg4 : arg4.IsWhole) (arg5 : Memref sig .tc .vmem S1x3x512 .f32) (harg5 : arg5.IsWhole) (arg6 : Memref sig .tc .vmem S1x4096x3 .f32) (harg6 : arg6.IsWhole)
    (x0 : Vec F S1x512x3 .f32) (x1 : Vec F S1x3x512 .f32) (xs : Vec F S4096x3 .f32) (xt0 : TbBuf (F := F) c tbM0) (xt1 : TbBuf (F := F) c tbM1)
    (hw1 : k0_chk1 (wd0 c i xt0)) (hw2 : k0_chk2 (wd0 c i xt0) (wd1 c i xt1))
    (hc1 : ¬cond1 i) (hc2 : ¬(k0_cond2 (wd0 c i xt0) (wd1 c i xt1) = 1#1)) (hc3 : ¬(k0_cond3 i = 1#1)) :
    { LS : List (View.Piece (Elt F) S4096x3 .f32) //
      ∀ (xi : Vec F S1x4096x3 .f32) (E : Set ℕ) (K : PUnit → sProp 𝕄),
        iprop(owns (c : Thread nD τ) arg4 fullShare x0 ∗ owns (c : Thread nD τ) arg5 fullShare x1 ∗ owns (c : Thread nD τ) arg6 fullShare xi
            ∗ owns (c : Thread nD τ) scM fullShare xs ∗ tbPt c tbM0 xt0 ∗ tbPt c tbM1 xt1
            ∗ (iprop(owns (c : Thread nD τ) arg4 fullShare x0 ∗ owns (c : Thread nD τ) arg5 fullShare x1 ∗ owns (c : Thread nD τ) arg6 fullShare xi
                ∗ (scM.view.loc (c : Thread nD τ) ↦[scM.view.set]{fullShare} scM.view.writes (Elt F) (hscM.unread xs) LS) ∗ tbPt c tbM0 xt0 ∗ tbPt c tbM1 xt1) -∗ K ⟨⟩))
          ⊢ wp frame (wpE (defs₀ (F := F)) Variants.none c none) E (cc0__pair_force_kernel i tbM0 htbM0 tbM1 htbM1 arg4 harg4 arg5 harg5 arg6 harg6 scM hscM) K } := by
  refine ⟨?_, fun xi E K => ?run⟩
  case run =>
    simp only [cc0__pair_force_kernel_eq_skeleton]; unfold cc0__pair_force_kernel_skel
    simp only [k0_part1_eq_skeleton]
    unfold owns
    iintro ⟨⟨%f0, %hf0, H0⟩, ⟨%f1, %hf1, H1⟩, ⟨%f2, %hf2, H2⟩, ⟨%fs, %hfs, HS⟩, HT0, HT1, Hk⟩
    obtain rfl := harg4.eq_unread hf0; obtain rfl := harg5.eq_unread hf1; obtain rfl := harg6.eq_unread hf2; obtain rfl := hscM.eq_unread hfs
    sl_exec (disch := first | sl_exact hw1 | sl_exact hw2 | exact hc1 | exact hc2 | exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [HS]; · iexact HS
    isplitl [HT0]; · iexact HT0
    iexact HT1

end Cert.KernelIdeal.Hand

end
-- ==== Proof.RunD.lean ====
/-
  The kernel body run symbolically at the last tile pair of a batch: the last tile's rows gain the tile's row sums and the accumulator is copied into the output block.
-/
import proofs.«138107_j13151189860959_2_alg».proof.Proof.BodyNames

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The last pair of a batch (a diagonal pair): one update, then the accumulator is copied into the output block. -/
noncomputable def runD (c : Dev nD) (i : grid0.Coords) (arg4 : Memref sig .tc .vmem S1x512x3 .f32) (harg4 : arg4.IsWhole) (arg5 : Memref sig .tc .vmem S1x3x512 .f32) (harg5 : arg5.IsWhole) (arg6 : Memref sig .tc .vmem S1x4096x3 .f32) (harg6 : arg6.IsWhole)
    (x0 : Vec F S1x512x3 .f32) (x1 : Vec F S1x3x512 .f32) (xs : Vec F S4096x3 .f32) (xt0 : TbBuf (F := F) c tbM0) (xt1 : TbBuf (F := F) c tbM1)
    (hw1 : k0_chk1 (wd0 c i xt0)) (hw2 : k0_chk2 (wd0 c i xt0) (wd1 c i xt1))
    (hc1 : ¬cond1 i) (hc2 : ¬(k0_cond2 (wd0 c i xt0) (wd1 c i xt1) = 1#1)) (hc3 : k0_cond3 i = 1#1) :
    Σ' (L2 : List (View.Piece (Elt F) S1x4096x3 .f32)), { LS : List (View.Piece (Elt F) S4096x3 .f32) //
      ∀ (xi : Vec F S1x4096x3 .f32) (E : Set ℕ) (K : PUnit → sProp 𝕄),
        iprop(owns (c : Thread nD τ) arg4 fullShare x0 ∗ owns (c : Thread nD τ) arg5 fullShare x1 ∗ owns (c : Thread nD τ) arg6 fullShare xi
            ∗ owns (c : Thread nD τ) scM fullShare xs ∗ tbPt c tbM0 xt0 ∗ tbPt c tbM1 xt1
            ∗ (iprop(owns (c : Thread nD τ) arg4 fullShare x0 ∗ owns (c : Thread nD τ) arg5 fullShare x1 ∗ (∃ f, arg6.view.loc (c : Thread nD τ) ↦[arg6.view.set]{fullShare} arg6.view.writes (Elt F) f L2)
                ∗ (scM.view.loc (c : Thread nD τ) ↦[scM.view.set]{fullShare} scM.view.writes (Elt F) (hscM.unread xs) LS) ∗ tbPt c tbM0 xt0 ∗ tbPt c tbM1 xt1) -∗ K ⟨⟩))
          ⊢ wp frame (wpE (defs₀ (F := F)) Variants.none c none) E (cc0__pair_force_kernel i tbM0 htbM0 tbM1 htbM1 arg4 harg4 arg5 harg5 arg6 harg6 scM hscM) K } := by
  refine ⟨?_, ?_, fun xi E K => ?run⟩
  case run =>
    simp only [cc0__pair_force_kernel_eq_skeleton]; unfold cc0__pair_force_kernel_skel
    simp only [k0_part1_eq_skeleton]
    unfold owns
    iintro ⟨⟨%f0, %hf0, H0⟩, ⟨%f1, %hf1, H1⟩, ⟨%f2, %hf2, H2⟩, ⟨%fs, %hfs, HS⟩, HT0, HT1, Hk⟩
    obtain rfl := harg4.eq_unread hf0; obtain rfl := harg5.eq_unread hf1; obtain rfl := harg6.eq_unread hf2; obtain rfl := hscM.eq_unread hfs
    sl_exec (disch := first | sl_exact hw1 | sl_exact hw2 | exact hc1 | exact hc2 | exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]; · iexists _; iexact H2
    isplitl [HS]; · iexact HS
    isplitl [HT0]; · iexact HT0
    iexact HT1

end Cert.KernelIdeal.Hand

end
-- ==== Proof.FrameDat.lean ====
/-
  The proof data of the pair-force kernel's pipeline and its body obligation. The accumulator the kernel carries
  from one grid point to the next is tracked point by point: after point `n` it holds what the body's run leaves
  there, in the control case the point is in, over what the point before left.
-/
import proofs.«138107_j13151189860959_2_alg».proof.Proof.FrameCfg
import proofs.«138107_j13151189860959_2_alg».proof.Proof.CaseFacts
import proofs.«138107_j13151189860959_2_alg».proof.Proof.RunA
import proofs.«138107_j13151189860959_2_alg».proof.Proof.RunB
import proofs.«138107_j13151189860959_2_alg».proof.Proof.RunC
import proofs.«138107_j13151189860959_2_alg».proof.Proof.RunD

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the output window, through which its contents are stated. -/
abbrev VOut : View sig .tc .vmem S1x4096x3 .f32 := (Memref.whole cc0_stg2_0 : Memref sig .tc .vmem S1x4096x3 .f32).view

/-! ## One step of the accumulator -/

/-- What the body leaves in the accumulator at point `t` when it found `xs` there: the run of the point's control
    case, its pieces written over `xs`. -/
def nextAcc (c : Dev nD) (t : Fin (cfgM (F := F)).N) (xs : Vec F S4096x3 .f32) : Vec F S4096x3 .f32 :=
  if h1 : cond1 (grid0.coords t) then
    scM.view.read (Elt F) (scM.view.writes (Elt F) scM.view.junk
      (runA c (grid0.coords t) (ms0 t) (hs0 t) (ms1 t) (hs1 t) (ms2 t) (hs2 t) (iblk m c 0 t) (iblk m c 1 t) (tbl (F := F) 0) (tbl (F := F) 1)
        (hw1_at (F := F) c t) (hw2_at (F := F) c t) h1 (first_excl (F := F) c t h1).1 (first_excl (F := F) c t h1).2).1)
  else if h2 : k0_cond2 (wd0 (F := F) c (grid0.coords t) (tbl (F := F) 0)) (wd1 (F := F) c (grid0.coords t) (tbl (F := F) 1)) = 1#1 then
    scM.view.read (Elt F) (scM.view.writes (Elt F) (hscM.unread xs)
      (runB c (grid0.coords t) (ms0 t) (hs0 t) (ms1 t) (hs1 t) (ms2 t) (hs2 t) (iblk m c 0 t) (iblk m c 1 t) xs (tbl (F := F) 0) (tbl (F := F) 1)
        (hw1_at (F := F) c t) (hw2_at (F := F) c t) h1 h2 (offdiag_excl (F := F) c t h2)).1)
  else if h3 : k0_cond3 (grid0.coords t) = 1#1 then
    scM.view.read (Elt F) (scM.view.writes (Elt F) (hscM.unread xs)
      (runD c (grid0.coords t) (ms0 t) (hs0 t) (ms1 t) (hs1 t) (ms2 t) (hs2 t) (iblk m c 0 t) (iblk m c 1 t) xs (tbl (F := F) 0) (tbl (F := F) 1)
        (hw1_at (F := F) c t) (hw2_at (F := F) c t) h1 h2 h3).2.1)
  else
    scM.view.read (Elt F) (scM.view.writes (Elt F) (hscM.unread xs)
      (runC c (grid0.coords t) (ms0 t) (hs0 t) (ms1 t) (hs1 t) (ms2 t) (hs2 t) (iblk m c 0 t) (iblk m c 1 t) xs (tbl (F := F) 0) (tbl (F := F) 1)
        (hw1_at (F := F) c t) (hw2_at (F := F) c t) h1 h2 h3).1)

/-- What the body leaves in the output window's staging buffer at the last pair of a batch (junk elsewhere: the
    window is idle there and the value is not consulted). -/
def outAt (c : Dev nD) (t : Fin (cfgM (F := F)).N) (xs : Vec F S4096x3 .f32) : Vec F S1x4096x3 .f32 :=
  if h : ¬cond1 (grid0.coords t) ∧ ¬(k0_cond2 (wd0 (F := F) c (grid0.coords t) (tbl (F := F) 0)) (wd1 (F := F) c (grid0.coords t) (tbl (F := F) 1)) = 1#1) ∧ k0_cond3 (grid0.coords t) = 1#1 then
    VOut.read (Elt F) (VOut.writes (Elt F) VOut.junk
      (runD c (grid0.coords t) (ms0 t) (hs0 t) (ms1 t) (hs1 t) (ms2 t) (hs2 t) (iblk m c 0 t) (iblk m c 1 t) xs (tbl (F := F) 0) (tbl (F := F) 1)
        (hw1_at (F := F) c t) (hw2_at (F := F) c t) h.1 h.2.1 h.2.2).1)
  else VOut.read (Elt F) VOut.junk

/-! ## The accumulator point by point -/

/-- The accumulator after point `n` (what point `n + 1` finds): from anything before the first point, which resets it. -/
def accAfter (c : Dev nD) : ℕ → Vec F S4096x3 .f32
  | 0 => if h : 0 < (cfgM (F := F)).N then nextAcc m c ⟨0, h⟩ (scM.view.read (Elt F) scM.view.junk) else scM.view.read (Elt F) scM.view.junk
  | n + 1 => if h : n + 1 < (cfgM (F := F)).N then nextAcc m c ⟨n + 1, h⟩ (accAfter c n) else accAfter c n

/-- What point `t` finds in the accumulator: what the point before left, anything at the first point. -/
def accBefore (c : Dev nD) (t : Fin (cfgM (F := F)).N) : Vec F S4096x3 .f32 :=
  if t.val = 0 then scM.view.read (Elt F) scM.view.junk else accAfter m c (t.val - 1)

theorem accAfter_eq (c : Dev nD) (t : Fin (cfgM (F := F)).N) : accAfter m c t.val = nextAcc m c t (accBefore m c t) := by
  obtain ⟨n, hn⟩ := t
  cases n with
  | zero => unfold accAfter accBefore; rw [dif_pos hn, if_pos rfl]
  | succ n => unfold accBefore; rw [accAfter, dif_pos hn, if_neg (Nat.succ_ne_zero n)]; rfl

/-! ## The invariant and the proof data -/

/-- The region invariant before point `t`: the accumulator at what the point before left (at anything before the
    first), the generator register at some state, and the two tables' halves. -/
def PhiS (c : Dev nD) (n : ℕ) : sProp 𝕄 :=
  iprop((∃ d, ⌜n ≠ 0 → d = accAfter m c (n - 1)⌝ ∗ owns (c : Thread nD τ) scM fullShare d) ∗ (∃ r, prngReg c r)
    ∗ tbPt c tbM0 (tbl (F := F) 0) ∗ tbPt c tbM1 (tbl (F := F) 1))

/-- The proof data on core `c`: the arrays as the region finds them; after the body each input's buffer at its
    block, the output's at the accumulator copied out; the invariant `PhiS`; nothing owed; full shares. -/
def dats (_ : Fin 1) (c : Dev nD) : Dat τ (Elt F) Unit ℕ (UR sig nD τ) ℕ (cfgM (F := F)) c where
  A w := V m c (Pipeline.arrRef spec0 w)
  after w t := match w with
    | ⟨0, _⟩ => iblk m c 0 t
    | ⟨1, _⟩ => iblk m c 1 t
    | ⟨2, _⟩ => outAt m c t (accBefore m c t)
  Φ t := PhiS m c t.val
  q _ := fullShare
  owed _ := 0

theorem A_eq (c : Dev nD) (w : Fin (cfgM (F := F)).W) : (dats m 0 c).A w = V m c (Pipeline.arrRef spec0 w) := by
  dsimp only [dats]

theorem after0 (c : Dev nD) (t : Fin (cfgM (F := F)).N) : (dats m 0 c).after 0 t = iblk m c 0 t := by dsimp only [dats]; try rfl
theorem after1 (c : Dev nD) (t : Fin (cfgM (F := F)).N) : (dats m 0 c).after 1 t = iblk m c 1 t := by dsimp only [dats]; try rfl
theorem after2 (c : Dev nD) (t : Fin (cfgM (F := F)).N) : (dats m 0 c).after 2 t = outAt m c t (accBefore m c t) := by dsimp only [dats]; try rfl

theorem before0 (c : Dev nD) (t : Fin (cfgM (F := F)).N) (d) : (dats m 0 c).before 0 t d = iblk m c 0 t :=
  before0_0_of m (dats m 0 c) (A_eq m c 0) (after0 m c) t d
theorem before1 (c : Dev nD) (t : Fin (cfgM (F := F)).N) (d) : (dats m 0 c).before 1 t d = iblk m c 1 t :=
  before0_1_of m (dats m 0 c) (A_eq m c 1) (after1 m c) t d

/-! ## The body obligation -/

/-- The first point of the grid is a first pair. -/
theorem cond1_of_zero (t : Fin (cfgM (F := F)).N) (h : t.val = 0) : cond1 (grid0.coords t) :=
  (cond1_iff t).mpr (by rw [h])

/-- What point `t` finds in the accumulator is what the invariant names (after the first point). -/
theorem found_eq (c : Dev nD) (t : Fin (cfgM (F := F)).N) (d : Vec F S4096x3 .f32)
    (hd : t.val ≠ 0 → d = accAfter m c (t.val - 1)) (ht : t.val ≠ 0) : d = accBefore m c t := by
  unfold accBefore; rw [if_neg ht]; exact hd ht

/-- What the body is called with at point `t`, -/
def bodyPre (c : Dev nD) (t : Fin (cfgM (F := F)).N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin (cfgM (F := F)).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4000000 in
/-- The output window's piece at the last pair is one store of the whole block: it covers it. -/
theorem coverD (c : Dev nD) (i : grid0.Coords) (arg4 : Memref sig .tc .vmem S1x512x3 .f32) (harg4 : arg4.IsWhole) (arg5 : Memref sig .tc .vmem S1x3x512 .f32) (harg5 : arg5.IsWhole) (arg6 : Memref sig .tc .vmem S1x4096x3 .f32) (harg6 : arg6.IsWhole)
    (x0 : Vec F S1x512x3 .f32) (x1 : Vec F S1x3x512 .f32) (xs : Vec F S4096x3 .f32) (xt0 : TbBuf (F := F) c tbM0) (xt1 : TbBuf (F := F) c tbM1)
    (hw1 : k0_chk1 (wd0 c i xt0)) (hw2 : k0_chk2 (wd0 c i xt0) (wd1 c i xt1))
    (hc1 : ¬cond1 i) (hc2 : ¬(k0_cond2 (wd0 c i xt0) (wd1 c i xt1) = 1#1)) (hc3 : k0_cond3 i = 1#1) (y : S1x4096x3.Idx) :
    ∃ pc ∈ (runD c i arg4 harg4 arg5 harg5 arg6 harg6 x0 x1 xs xt0 xt1 hw1 hw2 hc1 hc2 hc3).1, y ∈ pc.1.set :=
  View.cover_of_wholeMem (runD c i arg4 harg4 arg5 harg5 arg6 harg6 x0 x1 xs xt0 xt1 hw1 hw2 hc1 hc2 hc3).1 (by sl_whole_mem) y

/-- At the first pair the reset makes the step independent of what the accumulator held. -/
theorem nextAcc_first (c : Dev nD) (t : Fin (cfgM (F := F)).N) (h1 : cond1 (grid0.coords t)) (d d' : Vec F S4096x3 .f32) :
    nextAcc m c t d = nextAcc m c t d' := by
  unfold nextAcc; rw [dif_pos h1, dif_pos h1]

set_option maxHeartbeats 4000000 in
/-- The body at any point: the case the point is in, its run applied at the point's memrefs and blocks, the invariant
    handing the accumulator over at what the point before left and taking it back at this point's contents. -/
theorem sound_body (c : Dev nD) (t : Fin (cfgM (F := F)).N) :
    bodyPre m c t ⊢ wp frame (wpE (defs₀ (F := F)) Variants.none c none) Set.univ
      (cc0__pair_force_kernel (grid0.coords t) tbM0 htbM0 tbM1 htbM1 (ms0 t) (hs0 t) (ms1 t) (hs1 t) (ms2 t) (hs2 t) scM hscM) (fun _ => bodyPost m c t) := by
  unfold bodyPre bodyPost
  simp only [before0, before1]
  rw [show (dats m 0 c).owesAt () t.succ = (dats m 0 c).owesAt () t.castSucc from rfl]
  rw [show (dats m 0 c).Φ t.castSucc = PhiS m c t.val from by show PhiS m c (t.castSucc).val = _; rw [Fin.coe_castSucc],
    show (dats m 0 c).Φ t.succ = PhiS m c (t.val + 1) from by show PhiS m c (t.succ).val = _; rw [Fin.val_succ]]
  rw [show (dats m 0 c).leavesExact 0 t = owns (c : Thread nD τ) (ms0 t) fullShare ((dats m 0 c).after 0 t) from by
    unfold Dat.leavesExact; rw [Hand.idle0]; rfl, after0]
  rw [show (dats m 0 c).leavesExact 1 t = owns (c : Thread nD τ) (ms1 t) fullShare ((dats m 0 c).after 1 t) from by
    unfold Dat.leavesExact; rw [Hand.idle1]; rfl, after1]
  unfold PhiS
  have h72 : t.val < 72 := N_cfgM (F := F) ▸ t.isLt
  by_cases h1 : cond1 (grid0.coords t)
  · have hp : t.val % 36 = 0 := (cond1_iff t).mp h1
    have hi2 : (cfgM (F := F)).idle 2 ((cfgM (F := F)).grid.coords t) = true := by rw [idle2]; exact decide_eq_true (by omega)
    have hf2 : ((cfgM (F := F)).win 2).flush t = false := by rw [flush2]; exact decide_eq_false (by omega)
    rw [Dat.leavesExact_idle (dats m 0 c) 2 t hi2 hf2]
    iintro ⟨⟨⟨%d, %hd, HS⟩, Hg, HT0, HT1⟩, Ho, ⟨%d0, H0⟩, ⟨%d1, H1⟩, ⟨%d2, H2⟩⟩
    have hstep : nextAcc m c t d = nextAcc m c t (accBefore m c t) := nextAcc_first m c t h1 _ _
    iapply ((runA c (grid0.coords t) _ _ _ _ _ _ (iblk m c 0 t) (iblk m c 1 t) (tbl (F := F) 0) (tbl (F := F) 1) (hw1_at (F := F) c t) (hw2_at (F := F) c t) h1 (first_excl (F := F) c t h1).1 (first_excl (F := F) c t h1).2).2 d _ Set.univ _)
    isplitl [H0]; · iexact H0
    isplitl [H1]; · iexact H1
    isplitl [H2]; · iexact H2
    isplitl [HS]; · iexact HS
    isplitl [HT0]; · iexact HT0
    isplitl [HT1]; · iexact HT1
    iintro ⟨H0, H1, H2, HS, HT0, HT1⟩
    isplitl [HS Hg HT0 HT1]
    · isplitl [HS]
      · iexists (nextAcc m c t d); isplitr
        · ipureintro; intro _
          show nextAcc m c t d = accAfter m c (t.val + 1 - 1)
          rw [Nat.add_sub_cancel, accAfter_eq]; exact hstep
        · unfold owns; iexists _; isplitr
          swap; · iexact HS
          ipureintro; unfold nextAcc; rw [dif_pos h1]
      isplitl [Hg]; · iexact Hg
      isplitl [HT0]; · iexact HT0
      iexact HT1
    isplitl [Ho]; · iexact Ho
    isplitl [H0]; · iexact H0
    isplitl [H1]; · iexact H1
    iexists d2; iexact H2
  · have ht : t.val ≠ 0 := fun h => h1 (cond1_of_zero t h)
    by_cases h2 : k0_cond2 (wd0 (F := F) c (grid0.coords t) (tbl (F := F) 0)) (wd1 (F := F) c (grid0.coords t) (tbl (F := F) 1)) = 1#1
    · have hp : t.val % 36 ≠ 35 := fun h => offdiag_excl (F := F) c t h2 ((cond3_iff t).mpr h)
      have hi2 : (cfgM (F := F)).idle 2 ((cfgM (F := F)).grid.coords t) = true := by rw [idle2]; exact decide_eq_true hp
      have hf2 : ((cfgM (F := F)).win 2).flush t = false := by rw [flush2]; exact decide_eq_false hp
      rw [Dat.leavesExact_idle (dats m 0 c) 2 t hi2 hf2]
      iintro ⟨⟨⟨%d, %hd, HS⟩, Hg, HT0, HT1⟩, Ho, ⟨%d0, H0⟩, ⟨%d1, H1⟩, ⟨%d2, H2⟩⟩
      have hstep : nextAcc m c t d = nextAcc m c t (accBefore m c t) := by rw [← found_eq m c t d hd ht]
      iapply ((runB c (grid0.coords t) _ _ _ _ _ _ (iblk m c 0 t) (iblk m c 1 t) d (tbl (F := F) 0) (tbl (F := F) 1) (hw1_at (F := F) c t) (hw2_at (F := F) c t) h1 h2 (offdiag_excl (F := F) c t h2)).2 _ Set.univ _)
      isplitl [H0]; · iexact H0
      isplitl [H1]; · iexact H1
      isplitl [H2]; · iexact H2
      isplitl [HS]; · iexact HS
      isplitl [HT0]; · iexact HT0
      isplitl [HT1]; · iexact HT1
      iintro ⟨H0, H1, H2, HS, HT0, HT1⟩
      isplitl [HS Hg HT0 HT1]
      · isplitl [HS]
        · iexists (nextAcc m c t d); isplitr
          · ipureintro; intro _
            show nextAcc m c t d = accAfter m c (t.val + 1 - 1)
            rw [Nat.add_sub_cancel, accAfter_eq]; exact hstep
          · unfold owns; iexists _; isplitr
            swap; · iexact HS
            ipureintro; unfold nextAcc; rw [dif_neg h1, dif_pos h2]
        isplitl [Hg]; · iexact Hg
        isplitl [HT0]; · iexact HT0
        iexact HT1
      isplitl [Ho]; · iexact Ho
      isplitl [H0]; · iexact H0
      isplitl [H1]; · iexact H1
      iexists d2; iexact H2
    · by_cases h3 : k0_cond3 (grid0.coords t) = 1#1
      · have hp : t.val % 36 = 35 := (cond3_iff t).mp h3
        have hi2 : (cfgM (F := F)).idle 2 ((cfgM (F := F)).grid.coords t) = false := by rw [idle2]; exact decide_eq_false (by omega)
        rw [show (dats m 0 c).leavesExact 2 t = owns (c : Thread nD τ) (ms2 t) fullShare ((dats m 0 c).after 2 t) from by
          unfold Dat.leavesExact; rw [hi2]; rfl]
        iintro ⟨⟨⟨%d, %hd, HS⟩, Hg, HT0, HT1⟩, Ho, ⟨%d0, H0⟩, ⟨%d1, H1⟩, ⟨%d2, H2⟩⟩
        have hstep : nextAcc m c t d = nextAcc m c t (accBefore m c t) := by rw [← found_eq m c t d hd ht]
        iapply ((runD c (grid0.coords t) _ _ _ _ _ _ (iblk m c 0 t) (iblk m c 1 t) d (tbl (F := F) 0) (tbl (F := F) 1) (hw1_at (F := F) c t) (hw2_at (F := F) c t) h1 h2 h3).2.2 _ Set.univ _)
        isplitl [H0]; · iexact H0
        isplitl [H1]; · iexact H1
        isplitl [H2]; · iexact H2
        isplitl [HS]; · iexact HS
        isplitl [HT0]; · iexact HT0
        isplitl [HT1]; · iexact HT1
        iintro ⟨H0, H1, ⟨%e2, H2⟩, HS, HT0, HT1⟩
        isplitl [HS Hg HT0 HT1]
        · isplitl [HS]
          · iexists (nextAcc m c t d); isplitr
            · ipureintro; intro _
              show nextAcc m c t d = accAfter m c (t.val + 1 - 1)
              rw [Nat.add_sub_cancel, accAfter_eq]; exact hstep
            · unfold owns; iexists _; isplitr
              swap; · iexact HS
              ipureintro; unfold nextAcc; rw [dif_neg h1, dif_neg h2, dif_pos h3]
          isplitl [Hg]; · iexact Hg
          isplitl [HT0]; · iexact HT0
          iexact HT1
        isplitl [Ho]; · iexact Ho
        isplitl [H0]; · iexact H0
        isplitl [H1]; · iexact H1
        unfold owns; iexists _; isplitr
        swap; · iexact H2
        ipureintro
        rw [after2, ← found_eq m c t d hd ht]
        unfold outAt; rw [dif_pos ⟨h1, h2, h3⟩]
        exact View.read_writes_of_cover _ _ _ _ _ (coverD c _ _ _ _ _ _ _ _ _ _ _ _ _ _ _ _ _)
      · have hp : t.val % 36 ≠ 35 := fun h => h3 ((cond3_iff t).mpr h)
        have hi2 : (cfgM (F := F)).idle 2 ((cfgM (F := F)).grid.coords t) = true := by rw [idle2]; exact decide_eq_true hp
        have hf2 : ((cfgM (F := F)).win 2).flush t = false := by rw [flush2]; exact decide_eq_false hp
        rw [Dat.leavesExact_idle (dats m 0 c) 2 t hi2 hf2]
        iintro ⟨⟨⟨%d, %hd, HS⟩, Hg, HT0, HT1⟩, Ho, ⟨%d0, H0⟩, ⟨%d1, H1⟩, ⟨%d2, H2⟩⟩
        have hstep : nextAcc m c t d = nextAcc m c t (accBefore m c t) := by rw [← found_eq m c t d hd ht]
        iapply ((runC c (grid0.coords t) _ _ _ _ _ _ (iblk m c 0 t) (iblk m c 1 t) d (tbl (F := F) 0) (tbl (F := F) 1) (hw1_at (F := F) c t) (hw2_at (F := F) c t) h1 h2 h3).2 _ Set.univ _)
        isplitl [H0]; · iexact H0
        isplitl [H1]; · iexact H1
        isplitl [H2]; · iexact H2
        isplitl [HS]; · iexact HS
        isplitl [HT0]; · iexact HT0
        isplitl [HT1]; · iexact HT1
        iintro ⟨H0, H1, H2, HS, HT0, HT1⟩
        isplitl [HS Hg HT0 HT1]
        · isplitl [HS]
          · iexists (nextAcc m c t d); isplitr
            · ipureintro; intro _
              show nextAcc m c t d = accAfter m c (t.val + 1 - 1)
              rw [Nat.add_sub_cancel, accAfter_eq]; exact hstep
            · unfold owns; iexists _; isplitr
              swap; · iexact HS
              ipureintro; unfold nextAcc; rw [dif_neg h1, dif_neg h2, dif_neg h3]
          isplitl [Hg]; · iexact Hg
          isplitl [HT0]; · iexact HT0
          iexact HT1
        isplitl [Ho]; · iexact Ho
        isplitl [H0]; · iexact H0
        isplitl [H1]; · iexact H1
        iexists d2; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : iprop(Pipeline.ΦA spec0 c ∗ Pipeline.ΦT pre0 (tbl (F := F)) c) ⊢ (dats m 0 c).Φ 0 := by
  rw [show (dats m 0 c).Φ 0 = PhiS m c 0 from rfl, PhiA_eq, PhiT_eq]; unfold PhiS
  iintro ⟨⟨⟨%d, HS⟩, Hg⟩, HT0, HT1⟩
  isplitl [HS]
  · iexists d; isplitr
    · ipureintro; intro h; exact absurd rfl h
    · iexact HS
  isplitl [Hg]; · iexact Hg
  isplitl [HT0]; · iexact HT0
  iexact HT1

/-- After the last point the invariant gives the class's back: the accumulator's contents are forgotten, the tables' halves let go. -/
theorem hout (c : Dev nD) : (dats m 0 c).Φ (Fin.last (cfgM (F := F)).N) ⊢ Pipeline.ΦA spec0 c := by
  rw [show (dats m 0 c).Φ (Fin.last (cfgM (F := F)).N) = PhiS m c (Fin.last (cfgM (F := F)).N).val from rfl, PhiA_eq]; unfold PhiS
  iintro ⟨⟨%d, -, HS⟩, Hg, -, -⟩
  isplitl [HS]
  · iexists d; iexact HS
  iexact Hg

/-! ## The run -/

set_option backward.isDefEq.respectTransparency.types false in
/-- Every weakly fair execution of @main terminates; the pipeline's arrays end at what the library computes from
    the proof data, every other unscoped buffer as the region found it. -/
theorem run_main : θ_run defs (onTc (τ := τ) (main (F := F))) (s₀ m ρ) (Pipeline.FramePost (Pipeline.pin pcfgs fun _ => adm (F := F)) (dats m) 0 (V m)) :=
  Pipeline.θ_run_frameP_track pcfgs (fun _ => adm (F := F)) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hin := hin m) (hout := hout m)

end Cert.KernelIdeal.Hand

end
-- ==== Proof.HostReads.lean ====
/-
  What the five host operations before the region leave in each buffer of a core.

  The host writes the two tile tables, broadcasts the masses along the coordinate axis, divides the momenta by the
  broadcast masses, and transposes the positions from (batch, particle, axis) to (batch, axis, particle). No host
  operation writes an argument, so each argument reaches the region as launched; the quotient and the transpose
  are those functions of the launched arguments; and the transposed positions read at (β, k, j) are the launched
  positions at (β, j, k).
-/
import proofs.«138107_j13151189860959_2_alg».proof.Proof.FrameBase
import Idealize.ShloMosaic.Lib.ValueIdx
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The arguments -/

/-- No host operation writes an argument: each reaches the region as launched. -/
theorem V_arg0 (c : Dev nD) : V m c main_arg0 = m ((c : Thread nD τ).loc main_arg0) := by
  show StableHlo.after hostOps0 (fun b => m (c, b)) (Proc.devRef .tc main_arg0) = _
  after_results <;> rfl

theorem V_arg1 (c : Dev nD) : V m c main_arg1 = m ((c : Thread nD τ).loc main_arg1) := by
  show StableHlo.after hostOps0 (fun b => m (c, b)) (Proc.devRef .tc main_arg1) = _
  after_results <;> rfl

theorem V_arg2 (c : Dev nD) : V m c main_arg2 = m ((c : Thread nD τ).loc main_arg2) := by
  show StableHlo.after hostOps0 (fun b => m (c, b)) (Proc.devRef .tc main_arg2) = _
  after_results <;> rfl

theorem V_arg3 (c : Dev nD) : V m c main_arg3 = m ((c : Thread nD τ).loc main_arg3) := by
  show StableHlo.after hostOps0 (fun b => m (c, b)) (Proc.devRef .tc main_arg3) = _
  after_results <;> rfl

/-! ## The two results the host computes -/

/-- The first result: momenta over masses. -/
theorem V_v1 (c : Dev nD) : V m c main_v1 = Host.divf (m ((c : Thread nD τ).loc main_arg1)) (broadcastInDim S2x4096x3 ![0, 1, 2] bcast_S2x4096x1_S2x4096x3_0_1_2 (m ((c : Thread nD τ).loc main_arg2))) := by
  show StableHlo.after hostOps0 (fun b => m (c, b)) (Proc.devRef .tc main_v1) = _
  after_results <;> rfl

/-- The transposed positions. -/
theorem V_v2 (c : Dev nD) : V m c main_v2 = transpose S2x3x4096 [0, 2, 1] (m ((c : Thread nD τ).loc main_arg0)) transposes_S2x4096x3_S2x3x4096_0_2_1 := by
  show StableHlo.after hostOps0 (fun b => m (c, b)) (Proc.devRef .tc main_v2) = _
  after_results <;> rfl

/-- The transposed positions at (β, k, j) are the launched positions at (β, j, k). -/
theorem V_v2_apply (c : Dev nD) (β : Fin 2) (k : Fin 3) (j : Fin 4096) :
    V m c main_v2 (Idealize.ShloMosaic.ValueIdx.ix3 β k j) = m ((c : Thread nD τ).loc main_arg0) (Idealize.ShloMosaic.ValueIdx.ix3 β j k) := by
  rw [V_v2]
  exact transpose_apply [0, 2, 1] _ transposes_S2x4096x3_S2x3x4096_0_2_1 (Idealize.ShloMosaic.ValueIdx.ix3 β k j)
    (Idealize.ShloMosaic.ValueIdx.ix3 β j k) (fun b => match b with | ⟨0, _⟩ => rfl | ⟨1, _⟩ => rfl | ⟨2, _⟩ => rfl)

end Cert.KernelIdeal.Hand

end
-- ==== Proof.FrameThm.lean ====
/-
  The kernel program's frame claim and its value run, read off the launch theorem's post: a staged input array ends
  as the region found it, an array no window stages ends as the region found it, and what the region found in an
  argument is what the launch memory held; the host's quotient is that function of the launched arguments; the
  output window's array ends at what the proof data computes.
-/
import proofs.«138107_j13151189860959_2_alg».proof.Proof.FrameDat
import proofs.«138107_j13151189860959_2_alg».proof.Proof.HostReads

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers that bypass the region -/

theorem arg1_rest : main_arg1 ∈ Pipeline.restRefs sig spec0 :=
  Pipeline.mem_restRefs_of main_arg1 rfl (fun w => by fin_cases w <;> decide)
theorem arg2_rest : main_arg2 ∈ Pipeline.restRefs sig spec0 :=
  Pipeline.mem_restRefs_of main_arg2 rfl (fun w => by fin_cases w <;> decide)
theorem arg3_rest : main_arg3 ∈ Pipeline.restRefs sig spec0 :=
  Pipeline.mem_restRefs_of main_arg3 rfl (fun w => by fin_cases w <;> decide)
theorem v1_rest : main_v1 ∈ Pipeline.restRefs sig spec0 :=
  Pipeline.mem_restRefs_of main_v1 rfl (fun w => by fin_cases w <;> decide)

/-! ## The frame claim's run -/

/-- Every weakly fair execution terminates and the four arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans ((A_eq m c 0).trans (V_arg0 m c))),
      ((h c).2 main_arg1 arg1_rest).trans (V_arg1 m c),
      ((h c).2 main_arg2 arg2_rest).trans (V_arg2 m c),
      ((h c).2 main_arg3 arg3_rest).trans (V_arg3 m c)⟩) (run_main m ρ)

/-! ## The value run -/

/-- The two results named, the arguments unchanged. -/
theorem run_value : θ_run defs (onTc (τ := τ) (main (F := F))) ⟨m, fun _ => 0, ρ⟩ (fun r => ∀ c : Dev nD,
      r.2.mem ((c.tc : Thread nD τ).loc main_v1) = Host.divf (m ((c.tc : Thread nD τ).loc main_arg1)) (broadcastInDim S2x4096x3 ![0, 1, 2] bcast_S2x4096x1_S2x4096x3_0_1_2 (m ((c.tc : Thread nD τ).loc main_arg2)))
      ∧ r.2.mem ((c.tc : Thread nD τ).loc main_v3) = (dats m 0 c).arrAt 2 (cfgM (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v1 v1_rest).trans (V_v1 m c),
      (h c).1 2,
      ((h c).1 0).trans (((dats m 0 c).arrAt_in 0 rfl _).trans ((A_eq m c 0).trans (V_arg0 m c))),
      ((h c).2 main_arg1 arg1_rest).trans (V_arg1 m c),
      ((h c).2 main_arg2 arg2_rest).trans (V_arg2 m c),
      ((h c).2 main_arg3 arg3_rest).trans (V_arg3 m c)⟩) (run_main m ρ)

end Cert.KernelIdeal.Hand

end
-- ==== Proof.AccumView.lean ====
/-
  How the accumulator, a buffer of 4096 rows of 3 columns, reads after a store of a tile of 512 rows at row offset
  `512·J`, and what a load of such a tile reads.

  A store through a unit-stride rectangle at offsets `off` places position `x` of its payload at index `off + x`.
  With row offset `512·J` and column offset `0`, row `i` of the buffer lies under the tile exactly when
  `i / 512 = J`, at position `i % 512` of the payload; a row of another tile is outside the rectangle and keeps what
  the earlier writes left. A load through the same rectangle reads rows `512·J + r`. The whole-buffer rectangle (offsets
  zero, all 4096 rows) places every index at itself.
-/
import proofs.«138107_j13151189860959_2_alg».proof.Proof.BodyNames
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-- An index that is the place of position `x` of the last write's rectangle reads that write's payload at `x`. -/
theorem read_writes_cons_at (r : Rect S4096x3) (w : r.shape.Idx → Elt F .f32) (L : List (View.Piece (Elt F) S4096x3 .f32))
    (f : scM.view.ty.Contents (Elt F)) (x : r.shape.Idx) (y : S4096x3.Idx) (hy : r.emb x = y) :
    scM.view.read (Elt F) (scM.view.writes (Elt F) f (⟨r, w⟩ :: L)) y = w x := by
  subst hy
  exact View.read_writes_cons_emb _ f r w L x

/-- An index outside the last write's rectangle reads what the earlier writes left. -/
theorem read_writes_cons_off (r : Rect S4096x3) (w : r.shape.Idx → Elt F .f32) (L : List (View.Piece (Elt F) S4096x3 .f32))
    (f : scM.view.ty.Contents (Elt F)) (y : S4096x3.Idx) (hy : y ∉ r.set) :
    scM.view.read (Elt F) (scM.view.writes (Elt F) f (⟨r, w⟩ :: L)) y
      = scM.view.read (Elt F) (scM.view.writes (Elt F) f L) y := by
  have hy' : y ∉ Finset.univ.map r.emb := by rwa [Rect.map_emb_univ]
  rw [View.writes_cons]
  exact View.read_slice_write_of_not_mem r _ _ _ hy'

/-- under the last write of a tile at row offset 512·J, a row of tile J reads the written payload -/
theorem read_writes_tile_hit (off : Fin 2 → ℕ) (hin : ∀ a, off a + S512x3.size a ≤ S4096x3.size a) (J : ℕ)
    (h0 : off 0 = 512 * J) (h1 : off 1 = 0)
    (w : (Rect.unit (s := S4096x3) off S512x3.size hin).shape.Idx → F .f32)
    (L : List (View.Piece (Elt F) S4096x3 .f32)) (f : scM.view.ty.Contents (Elt F))
    (i : Fin 4096) (k : Fin 3) (hi : i.val / 512 = J) :
    scM.view.read (Elt F) (scM.view.writes (Elt F) f (⟨Rect.unit (s := S4096x3) off S512x3.size hin, w⟩ :: L)) (ix2 i k)
      = w (ix2 (⟨i.val % 512, Nat.mod_lt _ (by decide)⟩ : Fin 512) k) := by
  refine read_writes_cons_at (Rect.unit (s := S4096x3) off S512x3.size hin) w L f
    (ix2 (⟨i.val % 512, Nat.mod_lt _ (by decide)⟩ : Fin 512) k) (ix2 i k) ?_
  funext a
  match a with
  | ⟨0, _⟩ =>
    apply Fin.ext
    show off 0 + 1 * (i.val % 512) = i.val
    rw [h0, ← hi]; omega
  | ⟨1, _⟩ =>
    apply Fin.ext
    show off 1 + 1 * k.val = k.val
    rw [h1]; omega

/-- a row of another tile reads what the earlier writes left -/
theorem read_writes_tile_miss (off : Fin 2 → ℕ) (hin : ∀ a, off a + S512x3.size a ≤ S4096x3.size a) (J : ℕ)
    (h0 : off 0 = 512 * J) (h1 : off 1 = 0)
    (w : (Rect.unit (s := S4096x3) off S512x3.size hin).shape.Idx → F .f32)
    (L : List (View.Piece (Elt F) S4096x3 .f32)) (f : scM.view.ty.Contents (Elt F))
    (i : Fin 4096) (k : Fin 3) (hi : i.val / 512 ≠ J) :
    scM.view.read (Elt F) (scM.view.writes (Elt F) f (⟨Rect.unit (s := S4096x3) off S512x3.size hin, w⟩ :: L)) (ix2 i k)
      = scM.view.read (Elt F) (scM.view.writes (Elt F) f L) (ix2 i k) := by
  refine read_writes_cons_off (Rect.unit (s := S4096x3) off S512x3.size hin) w L f (ix2 i k) ?_
  rw [Rect.mem_set_unit]
  intro hall
  have h : off 0 ≤ i.val ∧ i.val < off 0 + 512 := hall 0
  rw [h0] at h
  exact hi (by omega)

/-- a load of the tile at row offset 512·J reads rows 512·J + r of the buffer -/
theorem readAt_tile (off : Fin 2 → ℕ) (hin : ∀ a, off a + S512x3.size a ≤ S4096x3.size a) (J : ℕ)
    (h0 : off 0 = 512 * J) (h1 : off 1 = 0) (g : scM.view.ty.Contents (Elt F)) (r : Fin 512) (k : Fin 3)
    (hr : 512 * J + r.val < 4096) :
    scM.view.readAt (Elt F) (Rect.unit (s := S4096x3) off S512x3.size hin).toLoadRect g (ix2 r k)
      = scM.view.read (Elt F) g (ix2 (⟨512 * J + r.val, hr⟩ : Fin 4096) k) := by
  have hidx : (Rect.unit (s := S4096x3) off S512x3.size hin).toLoadRect.idx (ix2 r k)
      = ix2 (⟨512 * J + r.val, hr⟩ : Fin 4096) k := by
    funext a
    match a with
    | ⟨0, _⟩ =>
      apply Fin.ext
      show off 0 + 1 * r.val = 512 * J + r.val
      rw [h0]; omega
    | ⟨1, _⟩ =>
      apply Fin.ext
      show off 1 + 1 * k.val = k.val
      rw [h1]; omega
  rw [View.readAt_apply, hidx]

/-- The whole-buffer rectangle places every index at itself. -/
theorem emb_whole (hin : ∀ a, (![0, 0] : Fin 2 → ℕ) a + S4096x3.size a ≤ S4096x3.size a) (j : S4096x3.Idx) :
    (Rect.unit (s := S4096x3) ![0, 0] S4096x3.size hin).emb j = j := by
  funext a
  match a with
  | ⟨0, _⟩ =>
    apply Fin.ext
    show 0 + 1 * (j 0).val = (j 0).val
    omega
  | ⟨1, _⟩ =>
    apply Fin.ext
    show 0 + 1 * (j 1).val = (j 1).val
    omega

/-- the whole-buffer store (the reset) and the whole-buffer load -/
theorem read_writes_whole (hin : ∀ a, (![0, 0] : Fin 2 → ℕ) a + S4096x3.size a ≤ S4096x3.size a)
    (w : (Rect.unit (s := S4096x3) ![0, 0] S4096x3.size hin).shape.Idx → F .f32)
    (L : List (View.Piece (Elt F) S4096x3 .f32)) (f : scM.view.ty.Contents (Elt F)) (j : S4096x3.Idx) :
    scM.view.read (Elt F) (scM.view.writes (Elt F) f (⟨Rect.unit (s := S4096x3) ![0, 0] S4096x3.size hin, w⟩ :: L)) j
      = w j :=
  read_writes_cons_at (Rect.unit (s := S4096x3) ![0, 0] S4096x3.size hin) w L f j j (emb_whole hin j)

theorem readAt_whole (hin : ∀ a, (![0, 0] : Fin 2 → ℕ) a + S4096x3.size a ≤ S4096x3.size a)
    (g : scM.view.ty.Contents (Elt F)) (j : S4096x3.Idx) :
    scM.view.readAt (Elt F) (Rect.unit (s := S4096x3) ![0, 0] S4096x3.size hin).toLoadRect g j
      = scM.view.read (Elt F) g j := by
  rw [View.readAt_apply]
  exact congrArg (scM.view.read (Elt F) g) (emb_whole hin j)

/-- no write: the buffer reads its contents; a whole buffer filled with xs reads xs -/
theorem read_writes_nil (f : scM.view.ty.Contents (Elt F)) :
    scM.view.read (Elt F) (scM.view.writes (Elt F) f []) = scM.view.read (Elt F) f := by
  rw [View.writes_nil]

theorem read_unread_sc (xs : Vec F S4096x3 .f32) : scM.view.read (Elt F) (hscM.unread xs) = xs :=
  Memref.IsWhole.read_unread hscM xs

end Cert.KernelIdeal.Hand

end
-- ==== Proof.PairForce.lean ====
/-
  The pairwise inverse-power (Lennard-Jones) force on the extended reals, as ONE function of the position array.

  For two particles at positions `a`, `b` (three coordinates each) the displacement is `d = a - b`, its squared
  length `s = (d₀·d₀ + d₁·d₁) + d₂·d₂`, the reciprocal `w = 1/s` where `s > 0` and `0` elsewhere (so a particle
  exerts nothing on itself, nor on a particle at the same place), and the force of `b` on `a` along axis `k` is
  `((24·w)·w³)·(2·w³ − 1) · d_k` with `w³ = (w·w)·w`. The total force on particle `i` of batch `β` is the sum of that
  over all 4096 partners `j`. Everything is written with the ideal instance's own operations, so that a program's
  term read at an index unfolds to these definitions.
-/
import Idealize.ShloMosaic.PureOps.Ideal
import Idealize.ShloMosaic.Lib.ValueIdx

noncomputable section

open scoped BigOperators

namespace Cert.PairForce

open Idealize.ShloMosaic Idealize.ShloMosaic.ValueIdx

/-- The shape of the position array: 2 batches of 4096 particles with 3 coordinates. -/
abbrev Sq : Shape := ⟨3, ![2, 4096, 3]⟩

/-- One displacement component, `a_k - b_k`. -/
def disp (a b : Fin 3 → Ideal .f32) (k : Fin 3) : Ideal .f32 := FloatOps.subf (a k) (b k)

/-- The squared distance from the three displacement components, associated as `(d₀² + d₁²) + d₂²`. -/
def sqLen (d0 d1 d2 : Ideal .f32) : Ideal .f32 :=
  FloatOps.addf (FloatOps.addf (FloatOps.mulf d0 d0) (FloatOps.mulf d1 d1)) (FloatOps.mulf d2 d2)

/-- The squared distance of two particles. -/
def sqDist (a b : Fin 3 → Ideal .f32) : Ideal .f32 := sqLen (disp a b 0) (disp a b 1) (disp a b 2)

/-- The reciprocal of a squared distance where it is positive, zero elsewhere. -/
def invSq (s : Ideal .f32) : Ideal .f32 :=
  Scalar.select (FloatOps.cmpf .ogt s (FloatOps.ofBits (F := Ideal) .f32 0x00000000#32))
    (FloatOps.divf (FloatOps.ofBits (F := Ideal) .f32 0x3F800000#32) s) (FloatOps.ofBits (F := Ideal) .f32 0x00000000#32)

/-- The cube `(w·w)·w`. -/
def cube (w : Ideal .f32) : Ideal .f32 := FloatOps.mulf (FloatOps.mulf w w) w

/-- The force's scalar coefficient from the squared distance: `((24·w)·w³)·(2·w³ − 1)` at `w = invSq s`. -/
def coef (s : Ideal .f32) : Ideal .f32 :=
  FloatOps.mulf
    (FloatOps.mulf (FloatOps.mulf (FloatOps.ofBits (F := Ideal) .f32 0x41C00000#32) (invSq s)) (cube (invSq s)))
    (FloatOps.subf (FloatOps.mulf (FloatOps.ofBits (F := Ideal) .f32 0x40000000#32) (cube (invSq s)))
      (FloatOps.ofBits (F := Ideal) .f32 0x3F800000#32))

/-- The force of the particle at `b` on the particle at `a`, along axis `k`. -/
def pair (a b : Fin 3 → Ideal .f32) (k : Fin 3) : Ideal .f32 := FloatOps.mulf (coef (sqDist a b)) (disp a b k)

/-- Particle `i` of batch `β`: its three coordinates. -/
def row (q : FVec Ideal Sq .f32) (β : Fin 2) (i : Fin 4096) : Fin 3 → Ideal .f32 := fun k => q (ix3 β i k)

/-- The total force on every particle: entry `(β, i, k)` is the sum over all partners `j` of the pair force. -/
def force (q : FVec Ideal Sq .f32) : FVec Ideal Sq .f32 := fun idx =>
  ∑ j : Fin 4096, pair (row q (idx 0) (idx 1)) (row q (idx 0) j) (idx 2)

theorem force_apply (q : FVec Ideal Sq .f32) (β : Fin 2) (i : Fin 4096) (k : Fin 3) :
    force q (ix3 β i k) = ∑ j : Fin 4096, pair (row q β i) (row q β j) k := rfl

end Cert.PairForce

end
-- ==== Proof.LibExtReal.lean ====
/-
  General laws of the extended reals under the exact float operations, used to join two
  arrangements of the same computation: a clamp taken under a square root or on its square, a
  variance written as the mean of squared deviations or as the mean of squares less the squared
  mean, a sum over rows regrouped into equal tiles, a dot product over a zero-padded axis, and
  the closure of the finite values (the coerced reals) under the operations that occur.
  Nothing here mentions a program.
-/
import Idealize.ShloMosaic.PureOps.Ideal
import Idealize.ShloMosaic.PureOps.Ideal.Laws
import Idealize.ShloMosaic.Lib.ValueIdx

noncomputable section

namespace Cert.LibExtReal

open Idealize.ShloMosaic
open scoped BigOperators

/-! ## The clamp: under the root, or on the square -/

/-- The coercion of the reals into the extended reals commutes with `max`. -/
theorem coe_max (a b : ℝ) : ((max a b : ℝ) : EReal) = max (a : EReal) (b : EReal) :=
  EReal.coe_strictMono.monotone.map_max

/-- For a real `d ≥ 0` and EVERY extended real `s` (negative, `⊥` and `⊤` included): clamping the
    square root of `s` from below at `d` is the square root of `s` clamped from below at `d * d`.
    (Below zero the root is the junk `⊥`, which the clamp replaces by `d`; on the right the clamp
    replaces `s` by `d * d`, whose root is `d`.) -/
theorem max_sqrt_coe {d : ℝ} (hd : 0 ≤ d) (s : EReal) :
    max (Ideal.sqrt s) (d : EReal) = Ideal.sqrt (max s ((d * d : ℝ) : EReal)) := by
  have hsq : Real.sqrt (d * d) = d := Real.sqrt_mul_self hd
  have hdd : (0 : ℝ) ≤ d * d := mul_self_nonneg d
  induction s using EReal.rec with
  | bot =>
    rw [Ideal.sqrt_bot, max_eq_right bot_le, max_eq_right bot_le, Ideal.sqrt_coe,
      if_neg (not_lt.mpr hdd), hsq]
  | top => rw [Ideal.sqrt_top, max_eq_left le_top, max_eq_left le_top, Ideal.sqrt_top]
  | coe r =>
    rw [Ideal.sqrt_coe]
    by_cases hr : r < 0
    · rw [if_pos hr, max_eq_right bot_le,
        max_eq_right (EReal.coe_le_coe_iff.mpr (hr.le.trans hdd)), Ideal.sqrt_coe,
        if_neg (not_lt.mpr hdd), hsq]
    · have hr0 : 0 ≤ r := not_lt.mp hr
      rw [if_neg hr, ← coe_max, ← coe_max, Ideal.sqrt_coe,
        if_neg (not_lt.mpr (le_max_of_le_left hr0)), Real.sqrt_monotone.map_max, hsq]

/-- For an extended real `m > 0` (`⊤` included) and EVERY extended real `o`: the quotient of `o` by
    the square root of `m` is the product of `o` with the reciprocal square root of `m`. -/
theorem div_sqrt_eq_mul_rsqrt (o : EReal) {m : EReal} (hm : 0 < m) :
    Ideal.div o (Ideal.sqrt m) = o * Ideal.rsqrt m := by
  induction m using EReal.rec with
  | bot => exact absurd hm (not_lt.mpr bot_le)
  | top =>
    rw [Ideal.sqrt_top, Ideal.rsqrt_top, Ideal.div, if_neg EReal.top_ne_zero, EReal.inv_top]
  | coe r =>
    have hr : 0 < r := EReal.coe_pos.mp hm
    have hs : Real.sqrt r ≠ 0 := (Real.sqrt_pos.mpr hr).ne'
    rw [Ideal.sqrt_coe, Ideal.rsqrt_coe, if_neg (not_lt.mpr hr.le), if_neg (not_lt.mpr hr.le),
      if_neg hr.ne', Ideal.div, if_neg (EReal.coe_ne_zero.mpr hs), EReal.coe_inv]

/-- The clamp of a row norm: `2305843 / 2^61`. -/
abbrev D : EReal := ((2305843 / 2305843009213693952 : ℝ) : EReal)

/-- The clamp of a row's sum of squares: `5316911940649 / 2^122`, the square of `D`. -/
abbrev D2 : EReal := ((5316911940649 / 5316911983139663491615228241121378304 : ℝ) : EReal)

/-- The second clamp is the square of the first, as real numbers. -/
theorem d_mul_d_real :
    (2305843 / 2305843009213693952 : ℝ) * (2305843 / 2305843009213693952 : ℝ)
      = 5316911940649 / 5316911983139663491615228241121378304 := by norm_num

/-- `D * D = D2` on the extended reals. -/
theorem D_mul_D : D * D = D2 := by
  show ((2305843 / 2305843009213693952 : ℝ) : EReal) * ((2305843 / 2305843009213693952 : ℝ) : EReal) = _
  rw [← EReal.coe_mul, d_mul_d_real]

/-- `D2` is positive. -/
theorem D2_pos : 0 < D2 := EReal.coe_pos.mpr (by norm_num)

/-- For EVERY extended real `s` (no hypothesis): `max (√s) D = √(max s D2)`. -/
theorem max_sqrt_D (s : EReal) : max (Ideal.sqrt s) D = Ideal.sqrt (max s D2) := by
  have h := max_sqrt_coe (d := 2305843 / 2305843009213693952) (by norm_num) s
  rw [d_mul_d_real] at h
  exact h

/-- For EVERY extended reals `o` and `s` (no finiteness, no sign hypothesis): dividing `o` by the
    clamped root `max (√s) D` is multiplying `o` by the reciprocal root of the clamped square,
    `rsqrt (max s D2)`. -/
theorem div_max_sqrt_D (o s : EReal) :
    Ideal.div o (max (Ideal.sqrt s) D) = o * Ideal.rsqrt (max s D2) := by
  rw [max_sqrt_D, div_sqrt_eq_mul_rsqrt o (lt_of_lt_of_le D2_pos (le_max_right s D2))]

/-- The same through the fields of the exact float instance, as the two programs spell them: the
    host's quotient by the maximum of the host's square root and `D`, against the product with the
    reciprocal square root of the maximum with `D2`. -/
theorem hostDivf_max_sqrt_D {φ : FTy} (o s : Ideal φ) :
    FloatOps.hostDivf o (FloatOps.maximumf (FloatOps.hostUnary .sqrt s) (D : Ideal φ))
      = FloatOps.mulf o (FloatOps.rsqrt (FloatOps.maximumf s (D2 : Ideal φ))) :=
  div_max_sqrt_D o s

/-! ## Finite values

An extended real is finite when it is a coerced real. The finite values are closed under the
operations below; at `⊥` and `⊤` the laws of the next sections fail, so a proof that uses them
first shows its entries finite. -/

/-- `x` is finite: it is the coercion of a real number. -/
def IsReal (x : EReal) : Prop := ∃ r : ℝ, x = (r : EReal)

/-- A coerced real is finite. -/
theorem isReal_coe (r : ℝ) : IsReal (r : EReal) := ⟨r, rfl⟩

/-- Zero is finite. -/
theorem isReal_zero : IsReal 0 := ⟨0, rfl⟩

/-- One is finite. -/
theorem isReal_one : IsReal 1 := ⟨1, rfl⟩

/-- Finite means neither `⊥` nor `⊤`. -/
theorem isReal_iff {x : EReal} : IsReal x ↔ x ≠ ⊥ ∧ x ≠ ⊤ := by
  constructor
  · rintro ⟨r, rfl⟩
    exact ⟨EReal.coe_ne_bot r, EReal.coe_ne_top r⟩
  · rintro ⟨hb, ht⟩
    induction x using EReal.rec with
    | bot => exact absurd rfl hb
    | top => exact absurd rfl ht
    | coe r => exact ⟨r, rfl⟩

/-- Finite means strictly between `⊥` and `⊤`. -/
theorem isReal_iff_lt {x : EReal} : IsReal x ↔ ⊥ < x ∧ x < ⊤ := by
  rw [isReal_iff, bot_lt_iff_ne_bot, lt_top_iff_ne_top]

/-- The sum of two finite values is finite. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two finite values is finite. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two finite values is finite. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a finite value is finite. -/
theorem IsReal.neg {x : EReal} (hx : IsReal x) : IsReal (-x) := by
  obtain ⟨a, rfl⟩ := hx; exact ⟨-a, (EReal.coe_neg a).symm⟩

/-- The maximum of two finite values is finite. -/
theorem IsReal.max {x y : EReal} (hx : IsReal x) (hy : IsReal y) : IsReal (Max.max x y) := by
  obtain ⟨a, rfl⟩ := hx; obtain ⟨b, rfl⟩ := hy; exact ⟨Max.max a b, (coe_max a b).symm⟩

/-- The minimum of two finite values is finite. -/
theorem IsReal.min {x y : EReal} (hx : IsReal x) (hy : IsReal y) : IsReal (Min.min x y) := by
  obtain ⟨a, rfl⟩ := hx; obtain ⟨b, rfl⟩ := hy
  exact ⟨Min.min a b, (EReal.coe_strictMono.monotone.map_min (a := a) (b := b)).symm⟩

/-- A finite sum of finite values is finite. -/
theorem isReal_sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- The sum of finite values over a whole finite index type is finite. -/
theorem isReal_sum_univ {ι : Type*} [Fintype ι] (f : ι → EReal) (h : ∀ i, IsReal (f i)) :
    IsReal (∑ i, f i) :=
  isReal_sum Finset.univ f fun i _ => h i

/-- The exact quotient of a finite value by a finite nonzero value is finite. -/
theorem IsReal.div {x y : EReal} (hx : IsReal x) (hy : IsReal y) (h0 : y ≠ 0) :
    IsReal (Ideal.div x y) := by
  obtain ⟨a, rfl⟩ := hx; obtain ⟨b, rfl⟩ := hy
  rw [Ideal.div_coe (EReal.coe_ne_zero.mp h0), ← EReal.coe_mul]
  exact ⟨_, rfl⟩

/-- The exact reciprocal square root of a finite POSITIVE value is finite. -/
theorem IsReal.rsqrt {x : EReal} (hx : IsReal x) (h0 : 0 < x) : IsReal (Ideal.rsqrt x) := by
  obtain ⟨a, rfl⟩ := hx
  have ha : 0 < a := EReal.coe_pos.mp h0
  rw [Ideal.rsqrt_coe, if_neg (not_lt.mpr ha.le), if_neg ha.ne']
  exact ⟨_, rfl⟩

/-- The exact square root of a finite non-negative value is finite. -/
theorem IsReal.sqrt {x : EReal} (hx : IsReal x) (h0 : 0 ≤ x) : IsReal (Ideal.sqrt x) := by
  obtain ⟨a, rfl⟩ := hx
  rw [Ideal.sqrt_coe, if_neg (not_lt.mpr (EReal.coe_nonneg.mp h0))]
  exact ⟨_, rfl⟩

/-- The exact exponential of a finite value is finite. -/
theorem IsReal.exp {x : EReal} (hx : IsReal x) : IsReal (Ideal.exp x) := by
  obtain ⟨a, rfl⟩ := hx; exact ⟨Real.exp a, rfl⟩

/-- The exact logarithm of a finite POSITIVE value is finite. -/
theorem IsReal.log {x : EReal} (hx : IsReal x) (h0 : 0 < x) : IsReal (Ideal.log x) := by
  obtain ⟨a, rfl⟩ := hx
  rw [Ideal.log_coe, if_neg (not_le.mpr (EReal.coe_pos.mp h0))]
  exact ⟨_, rfl⟩

/-- A finite value times itself is non-negative. -/
theorem IsReal.mul_self_nonneg {x : EReal} (hx : IsReal x) : 0 ≤ x * x := by
  obtain ⟨a, rfl⟩ := hx
  rw [← EReal.coe_mul]; exact EReal.coe_nonneg.mpr (_root_.mul_self_nonneg a)

/-- The clamped sum of squares `max s D2` is positive, for every `s`. -/
theorem max_D2_pos (s : EReal) : 0 < Max.max s D2 := lt_of_lt_of_le D2_pos (le_max_right s D2)

/-! ## The variance: mean of squared deviations, or mean of squares less the squared mean -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The exact quotient of two coerced reals, the divisor nonzero, is the coerced quotient. -/
theorem div_coe_coe (a : ℝ) {N : ℝ} (h0 : N ≠ 0) :
    Ideal.div (a : EReal) (N : EReal) = ((a / N : ℝ) : EReal) := by
  rw [Ideal.div_coe h0, ← EReal.coe_mul, mul_one_div]

/-- On the reals, over any finite index type with `N` elements (`N ≠ 0`), with `μ = (∑ x) / N`:
    `(∑ (x i - μ)²) / N = (∑ (x i)²) / N - μ²`. -/
theorem variance_real {ι : Type*} [Fintype ι] (x : ι → ℝ) {N : ℝ} (hN : (Fintype.card ι : ℝ) = N)
    (h0 : N ≠ 0) :
    (∑ i, (x i - (∑ j, x j) / N) ^ 2) / N = (∑ i, x i ^ 2) / N - ((∑ j, x j) / N) ^ 2 := by
  have hsum : ∑ i, (x i - (∑ j, x j) / N) ^ 2
      = ∑ i, x i ^ 2 - 2 * ((∑ j, x j) / N) * ∑ j, x j + N * ((∑ j, x j) / N) ^ 2 := by
    have e : ∀ i, (x i - (∑ j, x j) / N) ^ 2
        = x i ^ 2 - 2 * ((∑ j, x j) / N) * x i + ((∑ j, x j) / N) ^ 2 := fun i => by ring
    simp only [e, Finset.sum_add_distrib, Finset.sum_sub_distrib, ← Finset.mul_sum, Finset.sum_const,
      Finset.card_univ, nsmul_eq_mul, hN]
  rw [hsum]
  field_simp
  ring

/-- The same for `n > 0` rows indexed by `Fin n`. -/
theorem variance_real_fin {n : ℕ} (hn : 0 < n) (x : Fin n → ℝ) :
    (∑ i, (x i - (∑ j, x j) / (n : ℝ)) ^ 2) / (n : ℝ)
      = (∑ i, x i ^ 2) / (n : ℝ) - ((∑ j, x j) / (n : ℝ)) ^ 2 :=
  variance_real x (by rw [Fintype.card_fin]) (Nat.cast_ne_zero.mpr hn.ne')

/-- The same with each square written as a product, as the programs write it. -/
theorem variance_real_mul {ι : Type*} [Fintype ι] (x : ι → ℝ) {N : ℝ} (hN : (Fintype.card ι : ℝ) = N)
    (h0 : N ≠ 0) :
    (∑ i, (x i - (∑ j, x j) / N) * (x i - (∑ j, x j) / N)) / N
      = (∑ i, x i * x i) / N - ((∑ j, x j) / N) * ((∑ j, x j) / N) := by
  have h := variance_real x hN h0
  simp only [pow_two] at h
  exact h

/-- On the extended reals, every entry a coerced real, over the exact operations (the sums are
    the extended reals' own, the quotients `Ideal.div` by the coerced count `N ≠ 0`): with
    `m = (∑ x) / N`, `(∑ (x i - m) * (x i - m)) / N = (∑ x i * x i) / N - m * m`. -/
theorem variance_coe {ι : Type*} [Fintype ι] (x : ι → ℝ) {N : ℝ} (hN : (Fintype.card ι : ℝ) = N)
    (h0 : N ≠ 0) :
    Ideal.div (∑ i, ((x i : EReal) - Ideal.div (∑ j, (x j : EReal)) (N : EReal))
        * ((x i : EReal) - Ideal.div (∑ j, (x j : EReal)) (N : EReal))) (N : EReal)
      = Ideal.div (∑ i, (x i : EReal) * (x i : EReal)) (N : EReal)
        - Ideal.div (∑ j, (x j : EReal)) (N : EReal) * Ideal.div (∑ j, (x j : EReal)) (N : EReal) := by
  simp only [← coe_sum, div_coe_coe _ h0, ← EReal.coe_sub, ← EReal.coe_mul]
  exact congrArg _ (variance_real_mul x hN h0)

/-- The same for finite entries given as extended reals: for `y : ι → EReal` with every `y i`
    finite, `N` the number of indices, and `m = (∑ y) / N`:
    `(∑ (y i - m) * (y i - m)) / N = (∑ y i * y i) / N - m * m`. -/
theorem variance_of_isReal {ι : Type*} [Fintype ι] (y : ι → EReal) (hy : ∀ i, IsReal (y i)) {N : ℝ}
    (hN : (Fintype.card ι : ℝ) = N) (h0 : N ≠ 0) :
    Ideal.div (∑ i, (y i - Ideal.div (∑ j, y j) (N : EReal)) * (y i - Ideal.div (∑ j, y j) (N : EReal)))
        (N : EReal)
      = Ideal.div (∑ i, y i * y i) (N : EReal)
        - Ideal.div (∑ j, y j) (N : EReal) * Ideal.div (∑ j, y j) (N : EReal) := by
  choose x hx using hy
  obtain rfl : y = fun i => (x i : EReal) := funext hx
  exact variance_coe x hN h0

/-- The instance for 100000 rows: `y : Fin 100000 → EReal` finite, the count `100000`. -/
theorem variance_100000 (y : Fin 100000 → EReal) (hy : ∀ i, IsReal (y i)) :
    Ideal.div (∑ i, (y i - Ideal.div (∑ j, y j) ((100000 : ℝ) : EReal))
        * (y i - Ideal.div (∑ j, y j) ((100000 : ℝ) : EReal))) ((100000 : ℝ) : EReal)
      = Ideal.div (∑ i, y i * y i) ((100000 : ℝ) : EReal)
        - Ideal.div (∑ j, y j) ((100000 : ℝ) : EReal) * Ideal.div (∑ j, y j) ((100000 : ℝ) : EReal) :=
  variance_of_isReal y hy (by rw [Fintype.card_fin]; norm_num) (by norm_num)

/-! ## A sum over rows regrouped into equal tiles -/

/-- Row `r` of tile `t`, tiles of `b` rows, is a row of the `a * b`. -/
theorem tile_lt {a b : ℕ} (t : Fin a) (r : Fin b) : b * t.val + r.val < a * b := by
  have ht : t.val + 1 ≤ a := t.isLt
  calc b * t.val + r.val < b * t.val + b := Nat.add_lt_add_left r.isLt _
    _ = b * (t.val + 1) := (Nat.mul_succ b t.val).symm
    _ ≤ b * a := Nat.mul_le_mul_left b ht
    _ = a * b := Nat.mul_comm b a

/-- In any additive commutative monoid (the extended reals included: no finiteness is needed), a
    sum over `a * b` rows is the sum over the `a` tiles of the sums over each tile's `b` rows,
    for ANY way `idx` of writing row `b * t + r` as an index. -/
theorem sum_tiles_idx {M : Type*} [AddCommMonoid M] {a b : ℕ} (f : Fin (a * b) → M)
    (idx : Fin a → Fin b → Fin (a * b)) (hidx : ∀ t r, (idx t r).val = b * t.val + r.val) :
    ∑ t : Fin a, ∑ r : Fin b, f (idx t r) = ∑ i : Fin (a * b), f i := by
  rw [← Equiv.sum_comp finProdFinEquiv f, Fintype.sum_prod_type]
  refine Finset.sum_congr rfl fun t _ => Finset.sum_congr rfl fun r _ => congrArg f (Fin.ext ?_)
  rw [hidx, finProdFinEquiv_apply_val]
  exact Nat.add_comm _ _

/-- The same with the row index written out. -/
theorem sum_tiles {M : Type*} [AddCommMonoid M] {a b : ℕ} (f : Fin (a * b) → M) :
    ∑ t : Fin a, ∑ r : Fin b, f ⟨b * t.val + r.val, tile_lt t r⟩ = ∑ i : Fin (a * b), f i :=
  sum_tiles_idx f (fun t r => ⟨b * t.val + r.val, tile_lt t r⟩) fun _ _ => rfl

/-- 100000 rows in 50 tiles of 2000, for any way `idx` of writing row `2000 * t + r`. -/
theorem sum_tiles_100000_idx {M : Type*} [AddCommMonoid M] (f : Fin 100000 → M)
    (idx : Fin 50 → Fin 2000 → Fin 100000) (hidx : ∀ t r, (idx t r).val = 2000 * t.val + r.val) :
    ∑ t : Fin 50, ∑ r : Fin 2000, f (idx t r) = ∑ i : Fin 100000, f i :=
  sum_tiles_idx (a := 50) (b := 2000) f idx hidx

/-- 100000 rows in 50 tiles of 2000, the row index written out. -/
theorem sum_tiles_100000 {M : Type*} [AddCommMonoid M] (f : Fin 100000 → M) :
    ∑ t : Fin 50, ∑ r : Fin 2000, f ⟨2000 * t.val + r.val, by have := t.isLt; have := r.isLt; omega⟩
      = ∑ i : Fin 100000, f i :=
  sum_tiles_100000_idx f (fun t r => ⟨2000 * t.val + r.val, by have := t.isLt; have := r.isLt; omega⟩)
    fun _ _ => rfl

/-! ## A dot product over a zero-padded axis -/

/-- Extending two families over `Fin n` to `Fin m` (`n ≤ m`) so that, from `n` on, one factor of
    each product is zero, leaves the sum of products unchanged: the added terms are zero. -/
theorem sum_mul_pad {n m : ℕ} (hnm : n ≤ m) (a b : Fin n → EReal) (a' b' : Fin m → EReal)
    (ha : ∀ k : Fin n, a' (Fin.castLE hnm k) = a k) (hb : ∀ k : Fin n, b' (Fin.castLE hnm k) = b k)
    (h0 : ∀ k : Fin m, n ≤ k.val → a' k = 0 ∨ b' k = 0) :
    ∑ k : Fin m, a' k * b' k = ∑ k : Fin n, a k * b k := by
  obtain ⟨d, rfl⟩ := Nat.exists_eq_add_of_le hnm
  rw [Fin.sum_univ_add]
  have hz : ∑ i : Fin d, a' (Fin.natAdd n i) * b' (Fin.natAdd n i) = 0 :=
    Finset.sum_eq_zero fun i _ => by
      rcases h0 (Fin.natAdd n i) (Nat.le_add_right n i.val) with h | h
      · rw [h, zero_mul]
      · rw [h, mul_zero]
  rw [hz, add_zero]
  exact Finset.sum_congr rfl fun k _ => by rw [← ha k, ← hb k]; rfl

/-- The instance met here: `a b : Fin 100 → EReal` extended by zeros to `Fin 128`. -/
theorem sum_mul_pad_100_128 (a b : Fin 100 → EReal) :
    ∑ k : Fin 128, (if h : k.val < 100 then a ⟨k.val, h⟩ else 0) * (if h : k.val < 100 then b ⟨k.val, h⟩ else 0)
      = ∑ k : Fin 100, a k * b k :=
  sum_mul_pad (by decide) a b _ _
    (fun k => by rw [dif_pos (show (Fin.castLE (by decide : 100 ≤ 128) k).val < 100 from k.isLt)]; rfl)
    (fun k => by rw [dif_pos (show (Fin.castLE (by decide : 100 ≤ 128) k).val < 100 from k.isLt)]; rfl)
    (fun k hk => Or.inl (dif_neg (not_lt.mpr hk)))

/-! ## The variance is non-negative, and the tiled form of the statistics -/

/-- For finite entries `y`, any finite centre `m` and a positive count `N`, the mean of the squared
    deviations from `m` is non-negative. -/
theorem variance_nonneg {ι : Type*} [Fintype ι] (y : ι → EReal) (hy : ∀ i, IsReal (y i)) {m : EReal}
    (hm : IsReal m) {N : ℝ} (hN : 0 < N) :
    0 ≤ Ideal.div (∑ i, (y i - m) * (y i - m)) (N : EReal) := by
  choose x hx using hy
  obtain ⟨μ, rfl⟩ := hm
  simp only [hx, ← EReal.coe_sub, ← EReal.coe_mul, ← coe_sum, div_coe_coe _ hN.ne']
  exact EReal.coe_nonneg.mpr (div_nonneg (Finset.sum_nonneg fun i _ => mul_self_nonneg _) hN.le)

/-- The mean of finite entries over a nonzero count is finite. -/
theorem isReal_mean {ι : Type*} [Fintype ι] (y : ι → EReal) (hy : ∀ i, IsReal (y i)) {N : ℝ} (h0 : N ≠ 0) :
    IsReal (Ideal.div (∑ i, y i) (N : EReal)) :=
  (isReal_sum_univ y hy).div (isReal_coe N) (EReal.coe_ne_zero.mpr h0)

/-- The reciprocal square root of a finite non-negative value plus a finite positive one is finite
    (a variance plus its positive offset). -/
theorem isReal_rsqrt_add {v e : EReal} (hv : IsReal v) (he : IsReal e) (hv0 : 0 ≤ v) (he0 : 0 < e) :
    IsReal (Ideal.rsqrt (v + e)) := by
  obtain ⟨a, rfl⟩ := hv; obtain ⟨b, rfl⟩ := he
  have ha : 0 ≤ a := EReal.coe_nonneg.mp hv0
  have hb : 0 < b := EReal.coe_pos.mp he0
  rw [← EReal.coe_add]
  exact (isReal_coe (a + b)).rsqrt (EReal.coe_pos.mpr (add_pos_of_nonneg_of_pos ha hb))

/-- The batch statistics of 100000 finite rows accumulated as 50 tile sums of 2000 rows (`idx t r`
    any spelling of row `2000 * t + r`): the mean of squares less the squared mean, both from the
    tile sums, is the mean of the squared deviations from the mean over all rows. -/
theorem variance_tiles_100000 (y : Fin 100000 → EReal) (hy : ∀ i, IsReal (y i))
    (idx : Fin 50 → Fin 2000 → Fin 100000) (hidx : ∀ t r, (idx t r).val = 2000 * t.val + r.val) :
    Ideal.div (∑ t : Fin 50, ∑ r : Fin 2000, y (idx t r) * y (idx t r)) ((100000 : ℝ) : EReal)
        - Ideal.div (∑ t : Fin 50, ∑ r : Fin 2000, y (idx t r)) ((100000 : ℝ) : EReal)
          * Ideal.div (∑ t : Fin 50, ∑ r : Fin 2000, y (idx t r)) ((100000 : ℝ) : EReal)
      = Ideal.div (∑ i, (y i - Ideal.div (∑ j, y j) ((100000 : ℝ) : EReal))
          * (y i - Ideal.div (∑ j, y j) ((100000 : ℝ) : EReal))) ((100000 : ℝ) : EReal) := by
  rw [sum_tiles_100000_idx (fun i => y i * y i) idx hidx, sum_tiles_100000_idx y idx hidx]
  exact (variance_100000 y hy).symm

/-! ## The float literals that occur, as extended reals -/

/-- The pattern of `100000.0` denotes the real `100000`. -/
theorem ofBits_100000 : Ideal.ofBits .f32 0x47C35000#32 = ((100000 : ℝ) : EReal) := by
  simp [Ideal.ofBits, Ideal.ieee, -EReal.coe_mul]; norm_num

/-- The pattern of `1.0` denotes `1`. -/
theorem ofBits_one : Ideal.ofBits .f32 0x3F800000#32 = 1 := by
  simp [Ideal.ofBits, Ideal.ieee, -EReal.coe_mul]; norm_num

/-- The pattern `0x2B8CBCCC` (the float nearest `1e-12`) denotes `D = 2305843 / 2^61`. -/
theorem ofBits_D : Ideal.ofBits .f32 0x2B8CBCCC#32 = D := by
  simp [Ideal.ofBits, Ideal.ieee, -EReal.coe_mul]; norm_num

/-- The pattern `0x3727C5AC` (the float nearest `1e-5`) denotes `2748779 / 2^38`. -/
theorem ofBits_1em5 : Ideal.ofBits .f32 0x3727C5AC#32 = ((2748779 / 274877906944 : ℝ) : EReal) := by
  simp [Ideal.ofBits, Ideal.ieee, -EReal.coe_mul]; norm_num

/-- That offset is finite. -/
theorem ofBits_1em5_isReal : IsReal (Ideal.ofBits .f32 0x3727C5AC#32) := ofBits_1em5 ▸ isReal_coe _
/-- That offset is positive. -/
theorem ofBits_1em5_pos : 0 < Ideal.ofBits .f32 0x3727C5AC#32 := by
  rw [ofBits_1em5]; exact EReal.coe_pos.mpr (by norm_num)

end Cert.LibExtReal

end
-- ==== Proof.TileTerms.lean ====
/-
  The kernel body's arithmetic, read at one element at the ideal instance, is the specification's pair force summed
  over one tile.

  The body loads a row tile (512 particles × 3 coordinates) and a column tile (3 coordinates × 512 particles, i.e.
  transposed), forms the 512 × 512 arrays of displacement components `d_k(r, c) = a_r[k] - b_c[k]`, the squared
  distance, its guarded reciprocal, the force coefficient, and the three force components; it then adds to the old
  accumulator rows the sum over the tile's columns (the action on the row particles) and, to the column particles'
  accumulator rows, zero minus the sum over the tile's rows (the reaction). Each layout operation met on the way
  (a unit axis dropped or added, a one-column or one-row slice, a broadcast of a column or a row, a sum over one
  axis, a transpose of a one-row matrix, three columns laid side by side) reads, at an index given by coordinates,
  its operand at one index; with those read off, each payload at an index is the specification's term by unfolding.
-/
import proofs.«138107_j13151189860959_2_alg».proof.Proof.Gen.KernelIdeal.Skeleton
import proofs.«138107_j13151189860959_2_alg».proof.Proof.PairForce
import proofs.«138107_j13151189860959_2_alg».proof.Proof.LibExtReal
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.TileTerms

open Cert.KernelIdeal Cert.KernelIdeal.Gen Cert.PairForce Idealize.ShloMosaic Idealize.ShloMosaic.ValueIdx

variable [Cert.KernelIdeal.Facts]

/-! ## Layout operations of this body read at coordinates -/

section Layout
variable {α : Type}

/-- A one-column slice of an `[a, b]` matrix at column `o` reads, at `(i, 0)`, the matrix at `(i, o)`. -/
theorem sliceCol_apply {a b : ℕ} (o : ℕ) (X : (⟨2, ![a, b]⟩ : Shape).Idx → α)
    (h : (⟨2, ![a, b]⟩ : Shape).Slices ![0, o] ⟨2, ![a, 1]⟩) (i : Fin a) (q : Fin 1) (k : Fin b) (hk : k.val = o) :
    extractStridedSlice ⟨2, ![a, 1]⟩ ![0, o] X h (ix2 i q) = X (ix2 i k) :=
  slice2_axis1_apply o X h i q k (by have := q.isLt; omega)

/-- A one-row slice of an `[a, b]` matrix at row `o` reads, at `(0, j)`, the matrix at `(o, j)`. -/
theorem sliceRow_apply {a b : ℕ} (o : ℕ) (X : (⟨2, ![a, b]⟩ : Shape).Idx → α)
    (h : (⟨2, ![a, b]⟩ : Shape).Slices ![o, 0] ⟨2, ![1, b]⟩) (q : Fin 1) (j : Fin b) (k : Fin a) (hk : k.val = o) :
    extractStridedSlice ⟨2, ![1, b]⟩ ![o, 0] X h (ix2 q j) = X (ix2 k j) :=
  slice2_axis0_apply o X h q j k (by have := q.isLt; omega)

/-- An `[a, 1]` column broadcast to `[a, b]` reads, at `(i, j)`, the column at `(i, 0)`. -/
theorem broadcastCol_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a]` vector cast to an `[a, 1]` column reads, at `(i, 0)`, the vector at `i`. -/
theorem castCol_apply {a : ℕ} (x : (⟨1, ![a]⟩ : Shape).Idx → α) (h : (⟨1, ![a]⟩ : Shape).ShapeCasts ⟨2, ![a, 1]⟩)
    (i : Fin a) (q : Fin 1) : shapeCast ⟨2, ![a, 1]⟩ x h (ix2 i q) = x (ix1 i) :=
  shapeCast_apply x h _ _ (by
    have hq : q.val = 0 := by omega
    rw [Shape.rowMajor_val_two, Shape.rowMajor_val_one]
    show i.val = i.val * 1 + q.val
    rw [hq, Nat.mul_one, Nat.add_zero])

/-- The sum over axis 1 of an `[a, b]` matrix reads, at `i`, the sum over the columns `j` of the matrix at `(i, j)`. -/
theorem sumCols_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (i : Fin a) :
    multiReduction (F := Ideal) .add [1] ⟨1, ![a]⟩ src acc h hφ hacc (ix1 i) = ∑ j : Fin b, src (ix2 i j) := by
  refine (Ideal.multiReduction_add_single src acc h hφ hacc (ix1 i)).trans ?_
  refine Finset.sum_congr rfl fun j _ => congrArg src ?_
  funext ax
  match ax with
  | ⟨0, _⟩ => rfl
  | ⟨1, _⟩ => rfl

/-- The sum over axis 0 of an `[a, b]` matrix reads, at `j`, the sum over the rows `i` of the matrix at `(i, j)`. -/
theorem sumRows_apply {a b : ℕ} (src : FVec Ideal ⟨2, ![a, b]⟩ .f32) (acc : BitVec 32)
    (h : (⟨2, ![a, b]⟩ : Shape).Reduces [0] ⟨1, ![b]⟩) (hφ : FKind.Formats .f32)
    (hacc : acc = FKind.add.neutral .f32 hφ) (j : Fin b) :
    multiReduction (F := Ideal) .add [0] ⟨1, ![b]⟩ src acc h hφ hacc (ix1 j) = ∑ i : Fin a, src (ix2 i j) := by
  refine (Ideal.multiReduction_add_single src acc h hφ hacc (ix1 j)).trans ?_
  refine Finset.sum_congr rfl fun i _ => congrArg src ?_
  funext ax
  match ax with
  | ⟨0, _⟩ => rfl
  | ⟨1, _⟩ => rfl

end Layout

section Concat
variable {α : Type} {a : ℕ} (x0 x1 x2 : (⟨2, ![a, 1]⟩ : Shape).Idx → α)
  (h : Shape.Concatenates [(⟨2, ![a, 1]⟩ : Shape), ⟨2, ![a, 1]⟩, ⟨2, ![a, 1]⟩] ⟨2, ![a, 3]⟩ 1) (i : Fin a)

/-- Three `[a, 1]` columns laid side by side read, at `(i, 0)`, the first column at `(i, 0)`. -/
theorem concat3_apply0 :
    concatenate ⟨2, ![a, 3]⟩ 1 [⟨⟨2, ![a, 1]⟩, x0⟩, ⟨⟨2, ![a, 1]⟩, x1⟩, ⟨⟨2, ![a, 1]⟩, x2⟩] h (ix2 i (0 : Fin 3))
      = x0 (ix2 i (0 : Fin 1)) :=
  concatenate_apply_piece (α := α) 1 [⟨⟨2, ![a, 1]⟩, x0⟩, ⟨⟨2, ![a, 1]⟩, x1⟩, ⟨⟨2, ![a, 1]⟩, x2⟩] h (ix2 i (0 : Fin 3)) 0
    (by show (0 : ℕ) < 3; omega) ⟨2, ![a, 1]⟩ x0 rfl rfl 0 rfl (ix2 i (0 : Fin 1))
    (fun b hb => match b with | ⟨0, _⟩ => rfl | ⟨1, _⟩ => absurd rfl hb) rfl

/-- … at `(i, 1)`, the second column at `(i, 0)`. -/
theorem concat3_apply1 :
    concatenate ⟨2, ![a, 3]⟩ 1 [⟨⟨2, ![a, 1]⟩, x0⟩, ⟨⟨2, ![a, 1]⟩, x1⟩, ⟨⟨2, ![a, 1]⟩, x2⟩] h (ix2 i (1 : Fin 3))
      = x1 (ix2 i (0 : Fin 1)) :=
  concatenate_apply_piece (α := α) 1 [⟨⟨2, ![a, 1]⟩, x0⟩, ⟨⟨2, ![a, 1]⟩, x1⟩, ⟨⟨2, ![a, 1]⟩, x2⟩] h (ix2 i (1 : Fin 3)) 1
    (by show (1 : ℕ) < 3; omega) ⟨2, ![a, 1]⟩ x1 rfl rfl 1 rfl (ix2 i (0 : Fin 1))
    (fun b hb => match b with | ⟨0, _⟩ => rfl | ⟨1, _⟩ => absurd rfl hb) rfl

/-- … at `(i, 2)`, the third column at `(i, 0)`. -/
theorem concat3_apply2 :
    concatenate ⟨2, ![a, 3]⟩ 1 [⟨⟨2, ![a, 1]⟩, x0⟩, ⟨⟨2, ![a, 1]⟩, x1⟩, ⟨⟨2, ![a, 1]⟩, x2⟩] h (ix2 i (2 : Fin 3))
      = x2 (ix2 i (0 : Fin 1)) :=
  concatenate_apply_piece (α := α) 1 [⟨⟨2, ![a, 1]⟩, x0⟩, ⟨⟨2, ![a, 1]⟩, x1⟩, ⟨⟨2, ![a, 1]⟩, x2⟩] h (ix2 i (2 : Fin 3)) 2
    (by show (2 : ℕ) < 3; omega) ⟨2, ![a, 1]⟩ x2 rfl rfl 2 rfl (ix2 i (0 : Fin 1))
    (fun b hb => match b with | ⟨0, _⟩ => rfl | ⟨1, _⟩ => absurd rfl hb) rfl

end Concat

/-! ## The tile's particles -/

/-- particle r of the row tile, particle c of the column tile -/
def rowOf (v8 : Vec Ideal S1x512x3 .f32) (r : Fin 512) : Fin 3 → Ideal .f32 := fun k => v8 (ix3 0 r k)
def colOf (v10 : Vec Ideal S1x3x512 .f32) (c : Fin 512) : Fin 3 → Ideal .f32 := fun k => v10 (ix3 0 k c)

/-! ## The displacement components -/

/-- Column `k` of the row tile broadcast along the rows, minus row `k` of the column tile broadcast down the columns,
    is at `(r, c)` the displacement component `a_r[k] - b_c[k]`. -/
theorem dispTile_apply (k : Fin 3) (o : ℕ) (ho : k.val = o) (v8 : Vec Ideal S1x512x3 .f32) (v10 : Vec Ideal S1x3x512 .f32)
    (h1 : S1x512x3.ShapeCasts S512x3) (h2 : S512x3.Slices ![0, o] S512x1) (h3 : S512x1.Broadcasts S512x512)
    (g1 : S1x3x512.ShapeCasts S3x512) (g2 : S3x512.Slices ![o, 0] S1x512) (g3 : S1x512.Broadcasts S512x512)
    (r c : Fin 512) :
    subf (F := Ideal) (φ := .f32)
        (broadcastTo S512x512 (extractStridedSlice S512x1 ![0, o] (shapeCast S512x3 v8 h1) h2) h3)
        (broadcastTo S512x512 (extractStridedSlice S1x512 ![o, 0] (shapeCast S3x512 v10 g1) g2) g3) (ix2 r c)
      = disp (rowOf v8 r) (colOf v10 c) k := by
  have e1 : broadcastTo S512x512 (extractStridedSlice S512x1 ![0, o] (shapeCast S512x3 v8 h1) h2) h3 (ix2 r c)
      = v8 (ix3 0 r k) :=
    (broadcastCol_apply _ h3 r c).trans
      ((sliceCol_apply o _ h2 r 0 k ho).trans (shapeCast_1ab_ab_apply v8 h1 r k))
  have e2 : broadcastTo S512x512 (extractStridedSlice S1x512 ![o, 0] (shapeCast S3x512 v10 g1) g2) g3 (ix2 r c)
      = v10 (ix3 0 k c) :=
    (broadcastTo_1b_ab_apply _ g3 r c).trans
      ((sliceRow_apply o _ g2 0 c k ho).trans (shapeCast_1ab_ab_apply v10 g1 k c))
  show _ - _ = _
  rw [e1, e2]
  rfl

theorem pay11_apply (v8 : Vec Ideal S1x512x3 .f32) (v10 : Vec Ideal S1x3x512 .f32) (r c : Fin 512) :
    k0_pay11 (F := Ideal) v8 v10 (ix2 r c) = disp (rowOf v8 r) (colOf v10 c) 0 := by
  unfold k0_pay11 k0_pay9 k0_pay10
  exact dispTile_apply 0 0 rfl v8 v10 _ _ _ _ _ _ r c

theorem pay12_apply (v8 : Vec Ideal S1x512x3 .f32) (v10 : Vec Ideal S1x3x512 .f32) (r c : Fin 512) :
    k0_pay12 (F := Ideal) v8 v10 (ix2 r c) = disp (rowOf v8 r) (colOf v10 c) 1 := by
  unfold k0_pay12 k0_pay9 k0_pay10
  exact dispTile_apply 1 1 rfl v8 v10 _ _ _ _ _ _ r c

theorem pay13_apply (v8 : Vec Ideal S1x512x3 .f32) (v10 : Vec Ideal S1x3x512 .f32) (r c : Fin 512) :
    k0_pay13 (F := Ideal) v8 v10 (ix2 r c) = disp (rowOf v8 r) (colOf v10 c) 2 := by
  unfold k0_pay13 k0_pay9 k0_pay10
  exact dispTile_apply 2 2 rfl v8 v10 _ _ _ _ _ _ r c

/-! ## The guarded reciprocal, its cube, and the coefficient -/

/-- The guarded reciprocal of the squared distance at `(r, c)`. -/
theorem pay14_apply (v8 : Vec Ideal S1x512x3 .f32) (v10 : Vec Ideal S1x3x512 .f32) (r c : Fin 512) :
    k0_pay14 (F := Ideal) v8 v10 (ix2 r c) = invSq (sqDist (rowOf v8 r) (colOf v10 c)) := by
  have e : k0_pay14 (F := Ideal) v8 v10 (ix2 r c)
      = invSq (sqLen (k0_pay11 (F := Ideal) v8 v10 (ix2 r c)) (k0_pay12 (F := Ideal) v8 v10 (ix2 r c))
          (k0_pay13 (F := Ideal) v8 v10 (ix2 r c))) := rfl
  rw [e, pay11_apply, pay12_apply, pay13_apply]
  rfl

/-- Its cube at `(r, c)`. -/
theorem pay15_apply (v8 : Vec Ideal S1x512x3 .f32) (v10 : Vec Ideal S1x3x512 .f32) (r c : Fin 512) :
    k0_pay15 (F := Ideal) v8 v10 (ix2 r c) = cube (invSq (sqDist (rowOf v8 r) (colOf v10 c))) := by
  have e : k0_pay15 (F := Ideal) v8 v10 (ix2 r c) = cube (k0_pay14 (F := Ideal) v8 v10 (ix2 r c)) := rfl
  rw [e, pay14_apply]

/-- `(24·w)·w³` at `(r, c)`. -/
theorem pay16_apply (v8 : Vec Ideal S1x512x3 .f32) (v10 : Vec Ideal S1x3x512 .f32) (r c : Fin 512) :
    k0_pay16 (F := Ideal) v8 v10 (ix2 r c)
      = FloatOps.mulf (FloatOps.mulf (FloatOps.ofBits (F := Ideal) .f32 0x41C00000#32)
          (invSq (sqDist (rowOf v8 r) (colOf v10 c)))) (cube (invSq (sqDist (rowOf v8 r) (colOf v10 c)))) := by
  have e : k0_pay16 (F := Ideal) v8 v10 (ix2 r c)
      = FloatOps.mulf (FloatOps.mulf (FloatOps.ofBits (F := Ideal) .f32 0x41C00000#32)
          (k0_pay14 (F := Ideal) v8 v10 (ix2 r c))) (k0_pay15 (F := Ideal) v8 v10 (ix2 r c)) := rfl
  rw [e, pay14_apply, pay15_apply]

/-- The force coefficient at `(r, c)`. -/
theorem pay1_apply (v8 : Vec Ideal S1x512x3 .f32) (v10 : Vec Ideal S1x3x512 .f32) (r c : Fin 512) :
    k0_pay1 (F := Ideal) (k0_pay15 v8 v10) (k0_pay16 v8 v10) (ix2 r c) = coef (sqDist (rowOf v8 r) (colOf v10 c)) := by
  have e : k0_pay1 (F := Ideal) (k0_pay15 v8 v10) (k0_pay16 v8 v10) (ix2 r c)
      = FloatOps.mulf (k0_pay16 (F := Ideal) v8 v10 (ix2 r c))
          (FloatOps.subf (FloatOps.mulf (FloatOps.ofBits (F := Ideal) .f32 0x40000000#32) (k0_pay15 (F := Ideal) v8 v10 (ix2 r c)))
            (FloatOps.ofBits (F := Ideal) .f32 0x3F800000#32)) := rfl
  rw [e, pay16_apply, pay15_apply]
  rfl

/-! ## The three force components of the tile -/

/-- the three force components of the 512×512 tile: coefficient × displacement -/
theorem pay2_apply (v8 : Vec Ideal S1x512x3 .f32) (v10 : Vec Ideal S1x3x512 .f32) (r c : Fin 512) :
    k0_pay2 (F := Ideal) (k0_pay11 v8 v10) (k0_pay15 v8 v10) (k0_pay16 v8 v10) (ix2 r c)
      = pair (rowOf v8 r) (colOf v10 c) 0 := by
  have e : k0_pay2 (F := Ideal) (k0_pay11 v8 v10) (k0_pay15 v8 v10) (k0_pay16 v8 v10) (ix2 r c)
      = FloatOps.mulf (k0_pay1 (F := Ideal) (k0_pay15 v8 v10) (k0_pay16 v8 v10) (ix2 r c))
          (k0_pay11 (F := Ideal) v8 v10 (ix2 r c)) := rfl
  rw [e, pay1_apply, pay11_apply]
  rfl

theorem pay3_apply (v8 : Vec Ideal S1x512x3 .f32) (v10 : Vec Ideal S1x3x512 .f32) (r c : Fin 512) :
    k0_pay3 (F := Ideal) (k0_pay12 v8 v10) (k0_pay15 v8 v10) (k0_pay16 v8 v10) (ix2 r c)
      = pair (rowOf v8 r) (colOf v10 c) 1 := by
  have e : k0_pay3 (F := Ideal) (k0_pay12 v8 v10) (k0_pay15 v8 v10) (k0_pay16 v8 v10) (ix2 r c)
      = FloatOps.mulf (k0_pay1 (F := Ideal) (k0_pay15 v8 v10) (k0_pay16 v8 v10) (ix2 r c))
          (k0_pay12 (F := Ideal) v8 v10 (ix2 r c)) := rfl
  rw [e, pay1_apply, pay12_apply]
  rfl

theorem pay4_apply (v8 : Vec Ideal S1x512x3 .f32) (v10 : Vec Ideal S1x3x512 .f32) (r c : Fin 512) :
    k0_pay4 (F := Ideal) (k0_pay13 v8 v10) (k0_pay15 v8 v10) (k0_pay16 v8 v10) (ix2 r c)
      = pair (rowOf v8 r) (colOf v10 c) 2 := by
  have e : k0_pay4 (F := Ideal) (k0_pay13 v8 v10) (k0_pay15 v8 v10) (k0_pay16 v8 v10) (ix2 r c)
      = FloatOps.mulf (k0_pay1 (F := Ideal) (k0_pay15 v8 v10) (k0_pay16 v8 v10) (ix2 r c))
          (k0_pay13 (F := Ideal) v8 v10 (ix2 r c)) := rfl
  rw [e, pay1_apply, pay13_apply]
  rfl

/-! ## The row update and the column update -/

/-- A matrix summed over its columns and cast to a column reads, at `(r, 0)`, the sum over `c` of the matrix at `(r, c)`. -/
theorem rowSumCol_apply (src : FVec Ideal S512x512 .f32) (h : S512x512.Reduces [1] S512) (hφ : FKind.Formats .f32)
    (hacc : (0x00000000#32 : BitVec 32) = FKind.add.neutral .f32 hφ) (g : S512.ShapeCasts S512x1) (r : Fin 512) (q : Fin 1) :
    shapeCast S512x1 (multiReduction (F := Ideal) .add [1] S512 src 0x00000000#32 h hφ hacc) g (ix2 r q)
      = ∑ c : Fin 512, src (ix2 r c) :=
  (castCol_apply _ g r q).trans (sumCols_apply src _ h hφ hacc r)

/-- Zero minus a matrix summed over its rows, as a one-row matrix transposed to a column, reads, at `(c, 0)`, zero minus
    the sum over `r` of the matrix at `(r, c)`. -/
theorem negColSumCol_apply (src : FVec Ideal S512x512 .f32) (h : S512x512.Reduces [0] S512) (hφ : FKind.Formats .f32)
    (hacc : (0x00000000#32 : BitVec 32) = FKind.add.neutral .f32 hφ) (g : S512.ShapeCasts S1x512)
    (t : S1x512.Transposes [1, 0] S512x1) (c : Fin 512) (q : Fin 1) :
    transpose S512x1 [1, 0]
        (subf (F := Ideal) (φ := .f32) (broadcast S1x512 (Scalar.ofBits (F := Ideal) .f32 0x00000000#32))
          (shapeCast S1x512 (multiReduction (F := Ideal) .add [0] S512 src 0x00000000#32 h hφ hacc) g)) t (ix2 c q)
      = (FloatOps.ofBits (F := Ideal) .f32 0x00000000#32 : Ideal .f32) - ∑ r : Fin 512, src (ix2 r c) := by
  refine (transpose_ix2_apply _ t c q).trans ?_
  show (FloatOps.ofBits (F := Ideal) .f32 0x00000000#32 : Ideal .f32) - _ = _ - _
  exact congrArg (fun s => (FloatOps.ofBits (F := Ideal) .f32 0x00000000#32 : Ideal .f32) - s)
    ((shapeCast_a_1a_apply _ g q c).trans (sumRows_apply src _ h hφ hacc c))

/-- the row update: the old accumulator rows plus, per row, the sum over the tile's 512 columns -/
theorem pay5_apply (v8 : Vec Ideal S1x512x3 .f32) (v10 : Vec Ideal S1x3x512 .f32) (v61 : Vec Ideal S512x3 .f32)
    (r : Fin 512) (k : Fin 3) :
    k0_pay5 (F := Ideal) (k0_pay11 v8 v10) (k0_pay12 v8 v10) (k0_pay13 v8 v10) (k0_pay15 v8 v10) (k0_pay16 v8 v10) v61
        (ix2 r k)
      = v61 (ix2 r k) + ∑ c : Fin 512, pair (rowOf v8 r) (colOf v10 c) k := by
  unfold k0_pay5
  refine (congrFun (shapeCast_self _ _) (ix2 r k)).trans ?_
  match k with
  | ⟨0, _⟩ =>
    exact congrArg (fun s => v61 (ix2 r (0 : Fin 3)) + s)
      ((concat3_apply0 _ _ _ _ r).trans ((rowSumCol_apply _ _ _ _ _ r 0).trans
        (Finset.sum_congr rfl fun c _ => pay2_apply v8 v10 r c)))
  | ⟨1, _⟩ =>
    exact congrArg (fun s => v61 (ix2 r (1 : Fin 3)) + s)
      ((concat3_apply1 _ _ _ _ r).trans ((rowSumCol_apply _ _ _ _ _ r 0).trans
        (Finset.sum_congr rfl fun c _ => pay3_apply v8 v10 r c)))
  | ⟨2, _⟩ =>
    exact congrArg (fun s => v61 (ix2 r (2 : Fin 3)) + s)
      ((concat3_apply2 _ _ _ _ r).trans ((rowSumCol_apply _ _ _ _ _ r 0).trans
        (Finset.sum_congr rfl fun c _ => pay4_apply v8 v10 r c)))

/-- the column update: the old accumulator rows plus, per column, zero minus the sum over the tile's 512 rows -/
theorem pay6_apply (v8 : Vec Ideal S1x512x3 .f32) (v10 : Vec Ideal S1x3x512 .f32) (v92 : Vec Ideal S512x3 .f32)
    (c : Fin 512) (k : Fin 3) :
    k0_pay6 (F := Ideal) (k0_pay11 v8 v10) (k0_pay12 v8 v10) (k0_pay13 v8 v10) (k0_pay15 v8 v10) (k0_pay16 v8 v10) v92
        (ix2 c k)
      = v92 (ix2 c k) + ((FloatOps.ofBits (F := Ideal) .f32 0x00000000#32 : Ideal .f32)
          - ∑ r : Fin 512, pair (rowOf v8 r) (colOf v10 c) k) := by
  unfold k0_pay6
  refine (congrFun (shapeCast_self _ _) (ix2 c k)).trans ?_
  match k with
  | ⟨0, _⟩ =>
    exact congrArg (fun s => v92 (ix2 c (0 : Fin 3)) + s)
      ((concat3_apply0 _ _ _ _ c).trans ((negColSumCol_apply _ _ _ _ _ _ c 0).trans
        (congrArg (fun s => (FloatOps.ofBits (F := Ideal) .f32 0x00000000#32 : Ideal .f32) - s)
          (Finset.sum_congr rfl fun r _ => pay2_apply v8 v10 r c))))
  | ⟨1, _⟩ =>
    exact congrArg (fun s => v92 (ix2 c (1 : Fin 3)) + s)
      ((concat3_apply1 _ _ _ _ c).trans ((negColSumCol_apply _ _ _ _ _ _ c 0).trans
        (congrArg (fun s => (FloatOps.ofBits (F := Ideal) .f32 0x00000000#32 : Ideal .f32) - s)
          (Finset.sum_congr rfl fun r _ => pay3_apply v8 v10 r c))))
  | ⟨2, _⟩ =>
    exact congrArg (fun s => v92 (ix2 c (2 : Fin 3)) + s)
      ((concat3_apply2 _ _ _ _ c).trans ((negColSumCol_apply _ _ _ _ _ _ c 0).trans
        (congrArg (fun s => (FloatOps.ofBits (F := Ideal) .f32 0x00000000#32 : Ideal .f32) - s)
          (Finset.sum_congr rfl fun r _ => pay4_apply v8 v10 r c))))

/-! ## The reset value and the copy-out -/

/-- the reset value is zero everywhere; the copy-out is the accumulator re-indexed -/
theorem pay8_apply (j : S4096x3.Idx) : k0_pay8 (F := Ideal) j = 0 := by
  unfold k0_pay8
  refine (congrFun (shapeCast_self _ _) j).trans ?_
  exact Ideal.ofBits_zero_f32

theorem pay7_apply (v73 : Vec Ideal S4096x3 .f32) (r : Fin 4096) (k : Fin 3) :
    k0_pay7 (F := Ideal) v73 (ix3 0 r k) = v73 (ix2 r k) :=
  shapeCast_ab_1ab_apply v73 _ 0 r k

end Cert.TileTerms

end
-- ==== Proof.RunReads.lean ====
/-
  What each symbolic run of the kernel body leaves in the accumulator, read at one element at the ideal instance, in
  the specification's words.

  A run stores one tile of 512 rows (a diagonal pair) or two (an off-diagonal pair) into the accumulator of 4096
  rows. A row r lies under the tile at row offset 512·J exactly when r / 512 = J, at position r % 512 of the stored
  payload; the payload is the old rows of that tile plus, per row, the sum over the column tile of the pair force
  (the action), or, for the column tile's rows, zero minus the sum over the row tile (the reaction). A row of
  another tile keeps what it held.
-/
import proofs.«138107_j13151189860959_2_alg».proof.Proof.RunA
import proofs.«138107_j13151189860959_2_alg».proof.Proof.RunB
import proofs.«138107_j13151189860959_2_alg».proof.Proof.RunC
import proofs.«138107_j13151189860959_2_alg».proof.Proof.RunD
import proofs.«138107_j13151189860959_2_alg».proof.Proof.AccumView
import proofs.«138107_j13151189860959_2_alg».proof.Proof.TileTerms
import proofs.«138107_j13151189860959_2_alg».proof.Proof.TableFacts

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.PairForce Cert.TileTerms

/-! ## A whole staging buffer loaded at its contents -/

theorem zero3 : (![0, 0, 0] : Fin 3 → ℕ) = fun _ => 0 := by
  funext a
  match a with
  | ⟨0, _⟩ => rfl
  | ⟨1, _⟩ => rfl
  | ⟨2, _⟩ => rfl

/-- The row tile's staging buffer, whole, loaded at contents `x0`, reads `x0`. -/
theorem load_rowTile (arg4 : Memref sig .tc .vmem S1x512x3 .f32) (harg4 : arg4.IsWhole) (x0 : Vec Ideal S1x512x3 .f32)
    (inb : ∀ a, (![0, 0, 0] : Fin 3 → ℕ) a + S1x512x3.size a ≤ S1x512x3.size a) :
    arg4.view.readAt (Elt Ideal) (Rect.unit (s := S1x512x3) ![0, 0, 0] S1x512x3.size inb).toLoadRect (harg4.unread x0) = x0 := by
  rw [View.readAt_eq_ld, harg4.read_unread, View.ld_unit_zero (S := S1x512x3) zero3]

/-- The column tile's staging buffer, whole, loaded at contents `x1`, reads `x1`. -/
theorem load_colTile (arg5 : Memref sig .tc .vmem S1x3x512 .f32) (harg5 : arg5.IsWhole) (x1 : Vec Ideal S1x3x512 .f32)
    (inb : ∀ a, (![0, 0, 0] : Fin 3 → ℕ) a + S1x3x512.size a ≤ S1x3x512.size a) :
    arg5.view.readAt (Elt Ideal) (Rect.unit (s := S1x3x512) ![0, 0, 0] S1x3x512.size inb).toLoadRect (harg5.unread x1) = x1 := by
  rw [View.readAt_eq_ld, harg5.read_unread, View.ld_unit_zero (S := S1x3x512) zero3]

/-! ## One tile's update read at a row of the accumulator -/

theorem mod512_lt (r : Fin 4096) : r.val % 512 < 512 := Nat.mod_lt _ (by decide)

/-- The row update stored last, at the tile at row offset `512·J`: a row of tile `J` reads the old tile's row plus the
    sum over the column tile of the pair force; a row of another tile reads what the earlier writes left. -/
theorem rowUpdate_read (off : Fin 2 → ℕ) (hin : ∀ a, off a + S512x3.size a ≤ S4096x3.size a) (J : ℕ)
    (h0 : off 0 = 512 * J) (h1 : off 1 = 0)
    (x0 : Vec Ideal S1x512x3 .f32) (x1 : Vec Ideal S1x3x512 .f32) (old : Vec Ideal S512x3 .f32)
    (L : List (View.Piece (Elt Ideal) S4096x3 .f32)) (f : scM.view.ty.Contents (Elt Ideal)) (r : Fin 4096) (k : Fin 3) :
    scM.view.read (Elt Ideal) (scM.view.writes (Elt Ideal) f
        (⟨Rect.unit (s := S4096x3) off S512x3.size hin,
          k0_pay5 (F := Ideal) (k0_pay11 x0 x1) (k0_pay12 x0 x1) (k0_pay13 x0 x1) (k0_pay15 x0 x1) (k0_pay16 x0 x1) old⟩ :: L))
        (ix2 r k)
      = if r.val / 512 = J then
          old (ix2 (⟨r.val % 512, mod512_lt r⟩ : Fin 512) k)
            + ∑ cc : Fin 512, pair (rowOf x0 ⟨r.val % 512, mod512_lt r⟩) (colOf x1 cc) k
        else scM.view.read (Elt Ideal) (scM.view.writes (Elt Ideal) f L) (ix2 r k) := by
  by_cases hit : r.val / 512 = J
  · rw [if_pos hit]
    refine (read_writes_tile_hit (F := Ideal) off hin J h0 h1 _ L f r k hit).trans ?_
    exact pay5_apply x0 x1 old ⟨r.val % 512, mod512_lt r⟩ k
  · rw [if_neg hit]
    exact read_writes_tile_miss (F := Ideal) off hin J h0 h1 _ L f r k hit

/-- The column update stored last, at the tile at row offset `512·J`: a row of tile `J` reads the old tile's row plus
    zero minus the sum over the row tile of the pair force; a row of another tile reads what the earlier writes left. -/
theorem colUpdate_read (off : Fin 2 → ℕ) (hin : ∀ a, off a + S512x3.size a ≤ S4096x3.size a) (J : ℕ)
    (h0 : off 0 = 512 * J) (h1 : off 1 = 0)
    (x0 : Vec Ideal S1x512x3 .f32) (x1 : Vec Ideal S1x3x512 .f32) (old : Vec Ideal S512x3 .f32)
    (L : List (View.Piece (Elt Ideal) S4096x3 .f32)) (f : scM.view.ty.Contents (Elt Ideal)) (r : Fin 4096) (k : Fin 3) :
    scM.view.read (Elt Ideal) (scM.view.writes (Elt Ideal) f
        (⟨Rect.unit (s := S4096x3) off S512x3.size hin,
          k0_pay6 (F := Ideal) (k0_pay11 x0 x1) (k0_pay12 x0 x1) (k0_pay13 x0 x1) (k0_pay15 x0 x1) (k0_pay16 x0 x1) old⟩ :: L))
        (ix2 r k)
      = if r.val / 512 = J then
          old (ix2 (⟨r.val % 512, mod512_lt r⟩ : Fin 512) k)
            + ((FloatOps.ofBits (F := Ideal) .f32 0x00000000#32 : Ideal .f32)
                - ∑ rr : Fin 512, pair (rowOf x0 rr) (colOf x1 ⟨r.val % 512, mod512_lt r⟩) k)
        else scM.view.read (Elt Ideal) (scM.view.writes (Elt Ideal) f L) (ix2 r k) := by
  by_cases hit : r.val / 512 = J
  · rw [if_pos hit]
    refine (read_writes_tile_hit (F := Ideal) off hin J h0 h1 _ L f r k hit).trans ?_
    exact pay6_apply x0 x1 old ⟨r.val % 512, mod512_lt r⟩ k
  · rw [if_neg hit]
    exact read_writes_tile_miss (F := Ideal) off hin J h0 h1 _ L f r k hit

/-- A tile loaded at row offset `512·J`, read at the position of a row `r` of that tile, is the buffer at `r`. -/
theorem oldTile_read (off : Fin 2 → ℕ) (hin : ∀ a, off a + S512x3.size a ≤ S4096x3.size a) (J : ℕ)
    (h0 : off 0 = 512 * J) (h1 : off 1 = 0) (g : scM.view.ty.Contents (Elt Ideal)) (r : Fin 4096) (k : Fin 3)
    (hit : r.val / 512 = J) :
    scM.view.readAt (Elt Ideal) (Rect.unit (s := S4096x3) off S512x3.size hin).toLoadRect g
        (ix2 (⟨r.val % 512, mod512_lt r⟩ : Fin 512) k)
      = scM.view.read (Elt Ideal) g (ix2 r k) := by
  have hr : 512 * J + (⟨r.val % 512, mod512_lt r⟩ : Fin 512).val < 4096 := by
    have := r.isLt; show 512 * J + r.val % 512 < 4096; omega
  refine (readAt_tile (F := Ideal) off hin J h0 h1 g ⟨r.val % 512, mod512_lt r⟩ k hr).trans ?_
  refine congrArg (scM.view.read (Elt Ideal) g) ?_
  funext a
  match a with
  | ⟨0, _⟩ => exact Fin.ext (by show 512 * J + r.val % 512 = r.val; omega)
  | ⟨1, _⟩ => rfl

/-! ## The pieces of a run read at a row of the accumulator -/

/-- One row update over contents `xs`, its old tile loaded from `xs`: a row of tile `J` gains the row sum. -/
theorem diagPieces_read (off : Fin 2 → ℕ) (hin : ∀ a, off a + S512x3.size a ≤ S4096x3.size a) (J : ℕ)
    (h0 : off 0 = 512 * J) (h1 : off 1 = 0)
    (x0 : Vec Ideal S1x512x3 .f32) (x1 : Vec Ideal S1x3x512 .f32) (xs : Vec Ideal S4096x3 .f32) (r : Fin 4096) (k : Fin 3) :
    scM.view.read (Elt Ideal) (scM.view.writes (Elt Ideal) (hscM.unread xs)
        [⟨Rect.unit (s := S4096x3) off S512x3.size hin,
          k0_pay5 (F := Ideal) (k0_pay11 x0 x1) (k0_pay12 x0 x1) (k0_pay13 x0 x1) (k0_pay15 x0 x1) (k0_pay16 x0 x1)
            (scM.view.readAt (Elt Ideal) (Rect.unit (s := S4096x3) off S512x3.size hin).toLoadRect (hscM.unread xs))⟩])
        (ix2 r k)
      = if r.val / 512 = J then
          xs (ix2 r k) + ∑ cc : Fin 512, pair (rowOf x0 ⟨r.val % 512, mod512_lt r⟩) (colOf x1 cc) k
        else xs (ix2 r k) := by
  refine (rowUpdate_read off hin J h0 h1 x0 x1 _ [] _ r k).trans ?_
  by_cases hit : r.val / 512 = J
  · rw [if_pos hit, if_pos hit]
    refine congrArg (fun s => s + ∑ cc : Fin 512, pair (rowOf x0 ⟨r.val % 512, mod512_lt r⟩) (colOf x1 cc) k) ?_
    refine (oldTile_read off hin J h0 h1 _ r k hit).trans ?_
    rw [read_unread_sc]
  · rw [if_neg hit, if_neg hit, read_writes_nil, read_unread_sc]

/-- A row update at tile `J0` and then a column update at another tile `J1`, whose old tile is loaded after the first
    store: a row of tile `J1` gains zero minus the column sum, a row of tile `J0` the row sum. -/
theorem offDiagPieces_read (off2 : Fin 2 → ℕ) (hin2 : ∀ a, off2 a + S512x3.size a ≤ S4096x3.size a) (J0 : ℕ)
    (h20 : off2 0 = 512 * J0) (h21 : off2 1 = 0)
    (off3 : Fin 2 → ℕ) (hin3 : ∀ a, off3 a + S512x3.size a ≤ S4096x3.size a) (J1 : ℕ)
    (h30 : off3 0 = 512 * J1) (h31 : off3 1 = 0) (hne : J0 ≠ J1)
    (x0 : Vec Ideal S1x512x3 .f32) (x1 : Vec Ideal S1x3x512 .f32) (xs : Vec Ideal S4096x3 .f32) (r : Fin 4096) (k : Fin 3) :
    scM.view.read (Elt Ideal) (scM.view.writes (Elt Ideal) (hscM.unread xs)
        [⟨Rect.unit (s := S4096x3) off3 S512x3.size hin3,
          k0_pay6 (F := Ideal) (k0_pay11 x0 x1) (k0_pay12 x0 x1) (k0_pay13 x0 x1) (k0_pay15 x0 x1) (k0_pay16 x0 x1)
            (scM.view.readAt (Elt Ideal) (Rect.unit (s := S4096x3) off3 S512x3.size hin3).toLoadRect
              (scM.view.writes (Elt Ideal) (hscM.unread xs)
                [⟨Rect.unit (s := S4096x3) off2 S512x3.size hin2,
                  k0_pay5 (F := Ideal) (k0_pay11 x0 x1) (k0_pay12 x0 x1) (k0_pay13 x0 x1) (k0_pay15 x0 x1) (k0_pay16 x0 x1)
                    (scM.view.readAt (Elt Ideal) (Rect.unit (s := S4096x3) off2 S512x3.size hin2).toLoadRect (hscM.unread xs))⟩]))⟩,
         ⟨Rect.unit (s := S4096x3) off2 S512x3.size hin2,
          k0_pay5 (F := Ideal) (k0_pay11 x0 x1) (k0_pay12 x0 x1) (k0_pay13 x0 x1) (k0_pay15 x0 x1) (k0_pay16 x0 x1)
            (scM.view.readAt (Elt Ideal) (Rect.unit (s := S4096x3) off2 S512x3.size hin2).toLoadRect (hscM.unread xs))⟩])
        (ix2 r k)
      = if r.val / 512 = J1 then
          xs (ix2 r k) + ((FloatOps.ofBits (F := Ideal) .f32 0x00000000#32 : Ideal .f32)
            - ∑ rr : Fin 512, pair (rowOf x0 rr) (colOf x1 ⟨r.val % 512, mod512_lt r⟩) k)
        else if r.val / 512 = J0 then
          xs (ix2 r k) + ∑ cc : Fin 512, pair (rowOf x0 ⟨r.val % 512, mod512_lt r⟩) (colOf x1 cc) k
        else xs (ix2 r k) := by
  refine (colUpdate_read off3 hin3 J1 h30 h31 x0 x1 _ _ _ r k).trans ?_
  by_cases hit1 : r.val / 512 = J1
  · rw [if_pos hit1, if_pos hit1]
    refine congrArg (fun s => s + ((FloatOps.ofBits (F := Ideal) .f32 0x00000000#32 : Ideal .f32)
      - ∑ rr : Fin 512, pair (rowOf x0 rr) (colOf x1 ⟨r.val % 512, mod512_lt r⟩) k)) ?_
    refine (oldTile_read off3 hin3 J1 h30 h31 _ r k hit1).trans ?_
    refine (diagPieces_read off2 hin2 J0 h20 h21 x0 x1 xs r k).trans ?_
    rw [if_neg (fun h => hne (h.symm.trans hit1))]
  · rw [if_neg hit1, if_neg hit1]
    exact diagPieces_read off2 hin2 J0 h20 h21 x0 x1 xs r k

/-- The reset of the whole accumulator and then a row update whose old tile is loaded after the reset, over any
    earlier contents: a row of tile `J` reads zero plus the row sum, every other row zero. -/
theorem firstPieces_read (off : Fin 2 → ℕ) (hin : ∀ a, off a + S512x3.size a ≤ S4096x3.size a) (J : ℕ)
    (h0 : off 0 = 512 * J) (h1 : off 1 = 0)
    (inb : ∀ a, (![0, 0] : Fin 2 → ℕ) a + S4096x3.size a ≤ S4096x3.size a)
    (x0 : Vec Ideal S1x512x3 .f32) (x1 : Vec Ideal S1x3x512 .f32) (f : scM.view.ty.Contents (Elt Ideal))
    (r : Fin 4096) (k : Fin 3) :
    scM.view.read (Elt Ideal) (scM.view.writes (Elt Ideal) f
        [⟨Rect.unit (s := S4096x3) off S512x3.size hin,
          k0_pay5 (F := Ideal) (k0_pay11 x0 x1) (k0_pay12 x0 x1) (k0_pay13 x0 x1) (k0_pay15 x0 x1) (k0_pay16 x0 x1)
            (scM.view.readAt (Elt Ideal) (Rect.unit (s := S4096x3) off S512x3.size hin).toLoadRect
              (scM.view.writes (Elt Ideal) f
                [⟨Rect.unit (s := S4096x3) ![0, 0] S4096x3.size inb, k0_pay8 (F := Ideal)⟩]))⟩,
         ⟨Rect.unit (s := S4096x3) ![0, 0] S4096x3.size inb, k0_pay8 (F := Ideal)⟩])
        (ix2 r k)
      = if r.val / 512 = J then
          (0 : Ideal .f32) + ∑ cc : Fin 512, pair (rowOf x0 ⟨r.val % 512, mod512_lt r⟩) (colOf x1 cc) k
        else 0 := by
  have hreset : scM.view.read (Elt Ideal) (scM.view.writes (Elt Ideal) f
      [⟨Rect.unit (s := S4096x3) ![0, 0] S4096x3.size inb, k0_pay8 (F := Ideal)⟩]) (ix2 r k) = 0 :=
    (read_writes_whole (F := Ideal) inb _ [] _ (ix2 r k)).trans (pay8_apply (ix2 r k))
  refine (rowUpdate_read off hin J h0 h1 x0 x1 _ _ _ r k).trans ?_
  by_cases hit : r.val / 512 = J
  · rw [if_pos hit, if_pos hit]
    refine congrArg (fun s => s + ∑ cc : Fin 512, pair (rowOf x0 ⟨r.val % 512, mod512_lt r⟩) (colOf x1 cc) k) ?_
    exact (oldTile_read off hin J h0 h1 _ r k hit).trans hreset
  · rw [if_neg hit, if_neg hit]
    exact hreset

/-! ## The runs -/

/-- The output window's first staging buffer, as the view the last pair of a batch copies the accumulator out through. -/
abbrev VO2 : View sig .tc .vmem S1x4096x3 .f32 := (Memref.whole cc0_stg2_0 : Memref sig .tc .vmem S1x4096x3 .f32).view

/-- A diagonal pair inside a batch: the rows of its tile gain the row sums; every other row keeps its value. -/
theorem runC_read (c : Dev nD) (i : grid0.Coords) (arg4 : Memref sig .tc .vmem S1x512x3 .f32) (harg4 : arg4.IsWhole) (arg5 : Memref sig .tc .vmem S1x3x512 .f32) (harg5 : arg5.IsWhole) (arg6 : Memref sig .tc .vmem S1x4096x3 .f32) (harg6 : arg6.IsWhole)
    (x0 : Vec Ideal S1x512x3 .f32) (x1 : Vec Ideal S1x3x512 .f32) (xs : Vec Ideal S4096x3 .f32) (xt0 : TbBuf (F := Ideal) c tbM0) (xt1 : TbBuf (F := Ideal) c tbM1)
    (hw1 : k0_chk1 (wd0 (F := Ideal) c i xt0)) (hw2 : k0_chk2 (wd0 (F := Ideal) c i xt0) (wd1 (F := Ideal) c i xt1))
    (hc1 : ¬cond1 i) (hc2 : ¬(k0_cond2 (wd0 (F := Ideal) c i xt0) (wd1 (F := Ideal) c i xt1) = 1#1)) (hc3 : ¬(k0_cond3 i = 1#1))
    (r : Fin 4096) (k : Fin 3) (J0 : ℕ) (hJ0 : (wd0 (F := Ideal) c i xt0).toNat = J0) (h0 : J0 < 8) :
    scM.view.read (Elt Ideal) (scM.view.writes (Elt Ideal) (hscM.unread xs)
        (runC (F := Ideal) c i arg4 harg4 arg5 harg5 arg6 harg6 x0 x1 xs xt0 xt1 hw1 hw2 hc1 hc2 hc3).1) (ix2 r k)
      = if r.val / 512 = J0 then
          xs (ix2 r k) + ∑ cc : Fin 512, pair (rowOf x0 ⟨r.val % 512, mod512_lt r⟩) (colOf x1 cc) k
        else xs (ix2 r k) := by
  have hoff : k0_off2 (wd0 (F := Ideal) c i xt0) = ![512 * J0, 0] := by rw [off2_word _ (by omega), hJ0]
  unfold runC
  dsimp only
  sl_unfold_words
  rw [load_rowTile arg4 harg4 x0, load_colTile arg5 harg5 x1]
  exact diagPieces_read _ _ J0 (congrFun hoff 0) (congrFun hoff 1) x0 x1 xs r k

/-- The last pair of a batch (a diagonal pair): the accumulator is updated as at any diagonal pair … -/
theorem runD_read (c : Dev nD) (i : grid0.Coords) (arg4 : Memref sig .tc .vmem S1x512x3 .f32) (harg4 : arg4.IsWhole) (arg5 : Memref sig .tc .vmem S1x3x512 .f32) (harg5 : arg5.IsWhole) (arg6 : Memref sig .tc .vmem S1x4096x3 .f32) (harg6 : arg6.IsWhole)
    (x0 : Vec Ideal S1x512x3 .f32) (x1 : Vec Ideal S1x3x512 .f32) (xs : Vec Ideal S4096x3 .f32) (xt0 : TbBuf (F := Ideal) c tbM0) (xt1 : TbBuf (F := Ideal) c tbM1)
    (hw1 : k0_chk1 (wd0 (F := Ideal) c i xt0)) (hw2 : k0_chk2 (wd0 (F := Ideal) c i xt0) (wd1 (F := Ideal) c i xt1))
    (hc1 : ¬cond1 i) (hc2 : ¬(k0_cond2 (wd0 (F := Ideal) c i xt0) (wd1 (F := Ideal) c i xt1) = 1#1)) (hc3 : k0_cond3 i = 1#1)
    (r : Fin 4096) (k : Fin 3) (J0 : ℕ) (hJ0 : (wd0 (F := Ideal) c i xt0).toNat = J0) (h0 : J0 < 8) :
    scM.view.read (Elt Ideal) (scM.view.writes (Elt Ideal) (hscM.unread xs)
        (runD (F := Ideal) c i arg4 harg4 arg5 harg5 arg6 harg6 x0 x1 xs xt0 xt1 hw1 hw2 hc1 hc2 hc3).2.1) (ix2 r k)
      = if r.val / 512 = J0 then
          xs (ix2 r k) + ∑ cc : Fin 512, pair (rowOf x0 ⟨r.val % 512, mod512_lt r⟩) (colOf x1 cc) k
        else xs (ix2 r k) := by
  have hoff : k0_off2 (wd0 (F := Ideal) c i xt0) = ![512 * J0, 0] := by rw [off2_word _ (by omega), hJ0]
  unfold runD
  dsimp only
  sl_unfold_words
  rw [load_rowTile arg4 harg4 x0, load_colTile arg5 harg5 x1]
  exact diagPieces_read _ _ J0 (congrFun hoff 0) (congrFun hoff 1) x0 x1 xs r k

/-- … and then copied whole into the output block, which so holds the updated accumulator re-indexed. -/
theorem runD_out (c : Dev nD) (i : grid0.Coords) (arg4 : Memref sig .tc .vmem S1x512x3 .f32) (harg4 : arg4.IsWhole) (arg5 : Memref sig .tc .vmem S1x3x512 .f32) (harg5 : arg5.IsWhole) (arg6 : Memref sig .tc .vmem S1x4096x3 .f32) (harg6 : arg6.IsWhole)
    (x0 : Vec Ideal S1x512x3 .f32) (x1 : Vec Ideal S1x3x512 .f32) (xs : Vec Ideal S4096x3 .f32) (xt0 : TbBuf (F := Ideal) c tbM0) (xt1 : TbBuf (F := Ideal) c tbM1)
    (hw1 : k0_chk1 (wd0 (F := Ideal) c i xt0)) (hw2 : k0_chk2 (wd0 (F := Ideal) c i xt0) (wd1 (F := Ideal) c i xt1))
    (hc1 : ¬cond1 i) (hc2 : ¬(k0_cond2 (wd0 (F := Ideal) c i xt0) (wd1 (F := Ideal) c i xt1) = 1#1)) (hc3 : k0_cond3 i = 1#1)
    (r : Fin 4096) (k : Fin 3) (J0 : ℕ) (hJ0 : (wd0 (F := Ideal) c i xt0).toNat = J0) (h0 : J0 < 8) :
    VO2.read (Elt Ideal) (VO2.writes (Elt Ideal) VO2.junk
        (runD (F := Ideal) c i arg4 harg4 arg5 harg5 arg6 harg6 x0 x1 xs xt0 xt1 hw1 hw2 hc1 hc2 hc3).1) (ix3 0 r k)
      = if r.val / 512 = J0 then
          xs (ix2 r k) + ∑ cc : Fin 512, pair (rowOf x0 ⟨r.val % 512, mod512_lt r⟩) (colOf x1 cc) k
        else xs (ix2 r k) := by
  have hoff : k0_off2 (wd0 (F := Ideal) c i xt0) = ![512 * J0, 0] := by rw [off2_word _ (by omega), hJ0]
  rw [View.read_writes_junk_apply_eq_canon]
  unfold runD
  dsimp only
  sl_unfold_words
  rw [load_rowTile arg4 harg4 x0, load_colTile arg5 harg5 x1]
  rw [View.canon_unit_zero (S := S1x4096x3) zero3, pay7_apply, readAt_whole]
  exact diagPieces_read _ _ J0 (congrFun hoff 0) (congrFun hoff 1) x0 x1 xs r k

/-- An off-diagonal pair: the rows of the row tile gain the row sums, the rows of the column tile zero minus the
    column sums; every other row keeps its value. -/
theorem runB_read (c : Dev nD) (i : grid0.Coords) (arg4 : Memref sig .tc .vmem S1x512x3 .f32) (harg4 : arg4.IsWhole) (arg5 : Memref sig .tc .vmem S1x3x512 .f32) (harg5 : arg5.IsWhole) (arg6 : Memref sig .tc .vmem S1x4096x3 .f32) (harg6 : arg6.IsWhole)
    (x0 : Vec Ideal S1x512x3 .f32) (x1 : Vec Ideal S1x3x512 .f32) (xs : Vec Ideal S4096x3 .f32) (xt0 : TbBuf (F := Ideal) c tbM0) (xt1 : TbBuf (F := Ideal) c tbM1)
    (hw1 : k0_chk1 (wd0 (F := Ideal) c i xt0)) (hw2 : k0_chk2 (wd0 (F := Ideal) c i xt0) (wd1 (F := Ideal) c i xt1))
    (hc1 : ¬cond1 i) (hc2 : k0_cond2 (wd0 (F := Ideal) c i xt0) (wd1 (F := Ideal) c i xt1) = 1#1) (hc3 : ¬(k0_cond3 i = 1#1))
    (r : Fin 4096) (k : Fin 3) (J0 : ℕ) (hJ0 : (wd0 (F := Ideal) c i xt0).toNat = J0) (h0 : J0 < 8) (J1 : ℕ) (hJ1 : (wd1 (F := Ideal) c i xt1).toNat = J1) (h1 : J1 < 8) (hne : J0 ≠ J1) :
    scM.view.read (Elt Ideal) (scM.view.writes (Elt Ideal) (hscM.unread xs)
        (runB (F := Ideal) c i arg4 harg4 arg5 harg5 arg6 harg6 x0 x1 xs xt0 xt1 hw1 hw2 hc1 hc2 hc3).1) (ix2 r k)
      = if r.val / 512 = J1 then
          xs (ix2 r k) + ((FloatOps.ofBits (F := Ideal) .f32 0x00000000#32 : Ideal .f32)
            - ∑ rr : Fin 512, pair (rowOf x0 rr) (colOf x1 ⟨r.val % 512, mod512_lt r⟩) k)
        else if r.val / 512 = J0 then
          xs (ix2 r k) + ∑ cc : Fin 512, pair (rowOf x0 ⟨r.val % 512, mod512_lt r⟩) (colOf x1 cc) k
        else xs (ix2 r k) := by
  have hoff2 : k0_off2 (wd0 (F := Ideal) c i xt0) = ![512 * J0, 0] := by rw [off2_word _ (by omega), hJ0]
  have hoff3 : k0_off3 (wd1 (F := Ideal) c i xt1) = ![512 * J1, 0] := by rw [off3_word _ (by omega), hJ1]
  unfold runB
  dsimp only
  sl_unfold_words
  rw [load_rowTile arg4 harg4 x0, load_colTile arg5 harg5 x1]
  exact offDiagPieces_read _ _ J0 (congrFun hoff2 0) (congrFun hoff2 1) _ _ J1 (congrFun hoff3 0) (congrFun hoff3 1) hne
    x0 x1 xs r k

/-- The first pair of a batch (a diagonal pair): the accumulator is reset to zero, then the rows of the pair's tile
    gain the row sums; what the accumulator held before does not matter. -/
theorem runA_read (c : Dev nD) (i : grid0.Coords) (arg4 : Memref sig .tc .vmem S1x512x3 .f32) (harg4 : arg4.IsWhole) (arg5 : Memref sig .tc .vmem S1x3x512 .f32) (harg5 : arg5.IsWhole) (arg6 : Memref sig .tc .vmem S1x4096x3 .f32) (harg6 : arg6.IsWhole)
    (x0 : Vec Ideal S1x512x3 .f32) (x1 : Vec Ideal S1x3x512 .f32) (xt0 : TbBuf (F := Ideal) c tbM0) (xt1 : TbBuf (F := Ideal) c tbM1)
    (hw1 : k0_chk1 (wd0 (F := Ideal) c i xt0)) (hw2 : k0_chk2 (wd0 (F := Ideal) c i xt0) (wd1 (F := Ideal) c i xt1))
    (hc1 : cond1 i) (hc2 : ¬(k0_cond2 (wd0 (F := Ideal) c i xt0) (wd1 (F := Ideal) c i xt1) = 1#1)) (hc3 : ¬(k0_cond3 i = 1#1))
    (r : Fin 4096) (k : Fin 3) (J0 : ℕ) (hJ0 : (wd0 (F := Ideal) c i xt0).toNat = J0) (h0 : J0 < 8) :
    scM.view.read (Elt Ideal) (scM.view.writes (Elt Ideal) scM.view.junk
        (runA (F := Ideal) c i arg4 harg4 arg5 harg5 arg6 harg6 x0 x1 xt0 xt1 hw1 hw2 hc1 hc2 hc3).1) (ix2 r k)
      = if r.val / 512 = J0 then
          (0 : Ideal .f32) + ∑ cc : Fin 512, pair (rowOf x0 ⟨r.val % 512, mod512_lt r⟩) (colOf x1 cc) k
        else 0 := by
  have hoff : k0_off2 (wd0 (F := Ideal) c i xt0) = ![512 * J0, 0] := by rw [off2_word _ (by omega), hJ0]
  unfold runA
  dsimp only
  sl_unfold_words
  rw [load_rowTile arg4 harg4 x0, load_colTile arg5 harg5 x1]
  exact firstPieces_read _ _ J0 (congrFun hoff 0) (congrFun hoff 1) _ x0 x1 _ r k

end Cert.KernelIdeal.Hand

end
-- ==== Proof.BlockReads.lean ====
/-
  What the two input windows' blocks hold at a grid point, element by element, in terms of the launched position
  array.

  Window 0 stages the positions (batch, particle, axis) in blocks of one batch, 512 particles and the 3 axes, at
  block index (β, i, 0), where i is the first table's entry at the point's pair coordinate; window 1 stages the
  transposed positions (batch, axis, particle) in blocks of one batch, the 3 axes and 512 particles, at block index
  (β, 0, j), where j is the second table's entry. An element of a block sits in its array, on each axis, at the block
  index times the block's size plus its own coordinate; so row r of the row tile is particle 512·i + r of batch β,
  and column cc of the column tile is particle 512·j + cc of batch β, read through the transpose.
-/
import proofs.«138107_j13151189860959_2_alg».proof.Proof.FrameCfg
import proofs.«138107_j13151189860959_2_alg».proof.Proof.HostReads
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ)

/-! ## The block indices at a grid point -/

/-- Window 0's block index at grid coordinates `i`: the batch, the first table's entry at the pair coordinate, 0. -/
theorem index0_eq (i : grid0.Coords) :
    cc0_transform_0 k0_off1_inb numel1_S1 (tbl (F := F)) i
      = ![(i 0).val, (lit0 ⟨(i 1).val, (i 1).isLt⟩).toNat, 0] := by
  have e : cc0_transform_0 k0_off1_inb numel1_S1 (tbl (F := F)) i
      = ![(BitVec.ofNat 32 (i 0).val).toNat, (word0 (F := F) i : BitVec 32).toNat, 0] := rfl
  have h2 : (i 0).val < 2 := (i 0).isLt
  rw [e, word0_at, BitVec.toNat_ofNat, Nat.mod_eq_of_lt (by omega)]

/-- Window 1's block index at grid coordinates `i`: the batch, 0, the second table's entry at the pair coordinate. -/
theorem index1_eq (i : grid0.Coords) :
    cc0_transform_1 k0_off1_inb numel1_S1 (tbl (F := F)) i
      = ![(i 0).val, 0, (lit1 ⟨(i 1).val, (i 1).isLt⟩).toNat] := by
  have e : cc0_transform_1 k0_off1_inb numel1_S1 (tbl (F := F)) i
      = ![(BitVec.ofNat 32 (i 0).val).toNat, 0, (word1 (F := F) i : BitVec 32).toNat] := rfl
  have h2 : (i 0).val < 2 := (i 0).isLt
  rw [e, word1_at, BitVec.toNat_ofNat, Nat.mod_eq_of_lt (by omega)]

/-! ## The blocks, element by element -/

/-- row r of the row tile at point t is particle 512·lit0[p] + r of batch β -/
theorem iblk0_apply (c : Dev nD) (t : Fin (cfgM (F := F)).N) (r : Fin 512) (k : Fin 3)
    (β : Fin 2) (hβ : β.val = (grid0.coords t 0).val) (J : ℕ) (hJ : J = (lit0 ⟨(grid0.coords t 1).val, (grid0.coords t 1).isLt⟩).toNat) (hr : 512 * J + r.val < 4096) :
    iblk m c 0 t (ix3 0 r k) = m ((c : Thread nD τ).loc main_arg0) (ix3 β (⟨512 * J + r.val, hr⟩ : Fin 4096) k) := by
  show V m c main_arg0 ((((cfgM (F := F)).win 0).blk t).view.emb (ix3 0 r k)) = _
  rw [V_arg0]
  refine congrArg _ (funext fun a => Fin.ext ?_)
  have hidx := index0_eq (F := F) (grid0.coords t)
  match a with
  | ⟨0, _⟩ =>
    show cc0_transform_0 k0_off1_inb numel1_S1 (tbl (F := F)) (grid0.coords t) (0 : Fin 3) * 1 + 1 * 0 = β.val
    rw [hidx]
    show (grid0.coords t 0).val * 1 + 1 * 0 = β.val
    omega
  | ⟨1, _⟩ =>
    show cc0_transform_0 k0_off1_inb numel1_S1 (tbl (F := F)) (grid0.coords t) (1 : Fin 3) * 512 + 1 * r.val = 512 * J + r.val
    rw [hidx]
    show (lit0 ⟨(grid0.coords t 1).val, (grid0.coords t 1).isLt⟩).toNat * 512 + 1 * r.val = 512 * J + r.val
    omega
  | ⟨2, _⟩ =>
    show cc0_transform_0 k0_off1_inb numel1_S1 (tbl (F := F)) (grid0.coords t) (2 : Fin 3) * 3 + 1 * k.val = k.val
    rw [hidx]
    show 0 * 3 + 1 * k.val = k.val
    omega

/-- column cc of the column tile at point t is particle 512·lit1[p] + cc of batch β, coordinates along the block's middle axis -/
theorem iblk1_apply (c : Dev nD) (t : Fin (cfgM (F := F)).N) (cc : Fin 512) (k : Fin 3)
    (β : Fin 2) (hβ : β.val = (grid0.coords t 0).val) (J : ℕ) (hJ : J = (lit1 ⟨(grid0.coords t 1).val, (grid0.coords t 1).isLt⟩).toNat) (hc : 512 * J + cc.val < 4096) :
    iblk m c 1 t (ix3 0 k cc) = m ((c : Thread nD τ).loc main_arg0) (ix3 β (⟨512 * J + cc.val, hc⟩ : Fin 4096) k) := by
  have e : iblk m c 1 t (ix3 0 k cc) = V m c main_v2 (ix3 β k (⟨512 * J + cc.val, hc⟩ : Fin 4096)) := by
    show V m c main_v2 ((((cfgM (F := F)).win 1).blk t).view.emb (ix3 0 k cc)) = _
    refine congrArg _ (funext fun a => Fin.ext ?_)
    have hidx := index1_eq (F := F) (grid0.coords t)
    match a with
    | ⟨0, _⟩ =>
      show cc0_transform_1 k0_off1_inb numel1_S1 (tbl (F := F)) (grid0.coords t) (0 : Fin 3) * 1 + 1 * 0 = β.val
      rw [hidx]
      show (grid0.coords t 0).val * 1 + 1 * 0 = β.val
      omega
    | ⟨1, _⟩ =>
      show cc0_transform_1 k0_off1_inb numel1_S1 (tbl (F := F)) (grid0.coords t) (1 : Fin 3) * 3 + 1 * k.val = k.val
      rw [hidx]
      show 0 * 3 + 1 * k.val = k.val
      omega
    | ⟨2, _⟩ =>
      show cc0_transform_1 k0_off1_inb numel1_S1 (tbl (F := F)) (grid0.coords t) (2 : Fin 3) * 512 + 1 * cc.val = 512 * J + cc.val
      rw [hidx]
      show (lit1 ⟨(grid0.coords t 1).val, (grid0.coords t 1).isLt⟩).toNat * 512 + 1 * cc.val = 512 * J + cc.val
      omega
  rw [e]
  exact V_v2_apply m c β k _

end Cert.KernelIdeal.Hand

end
-- ==== Proof.PairLaws.lean ====
/-
  Laws of the pairwise inverse-power force on the extended reals, and of the triangular enumeration of tile pairs.

  For finite positions the pair force is finite and obeys Newton's third law, `pair b a = - pair a b`: the
  displacement changes sign, the squared distance (a sum of squares) does not, so the scalar coefficient is the
  same and the product changes sign. Summed over a family of partners this reads "zero minus the column sum is the
  row sum". The 36 unordered pairs `I ≤ J` of 8 tiles, each adding tile `J`'s contribution to tile `I` and (off
  the diagonal) tile `I`'s to tile `J`, deliver to every tile exactly one contribution from every tile.
-/
import proofs.«138107_j13151189860959_2_alg».proof.Proof.PairForce
import proofs.«138107_j13151189860959_2_alg».proof.Proof.LibExtReal

noncomputable section

open scoped BigOperators

namespace Cert.PairForce

open Cert.LibExtReal Idealize.ShloMosaic

/-! ## Finite positions give finite values -/

/-- The word `0x40000000` denotes the real number two. -/
theorem ofBits_two : Ideal.ofBits .f32 0x40000000#32 = ((2 : ℝ) : EReal) := by
  simp [Ideal.ofBits, Ideal.ieee, -EReal.coe_mul]; norm_num

/-- The word `0x41C00000` denotes the real number twenty-four. -/
theorem ofBits_24 : Ideal.ofBits .f32 0x41C00000#32 = ((24 : ℝ) : EReal) := by
  simp [Ideal.ofBits, Ideal.ieee, -EReal.coe_mul]; norm_num

theorem disp_isReal (a b : Fin 3 → Ideal .f32) (ha : ∀ k, IsReal (a k)) (hb : ∀ k, IsReal (b k)) (k : Fin 3) :
    IsReal (disp a b k) := (ha k).sub (hb k)

theorem sqLen_isReal {d0 d1 d2 : Ideal .f32} (h0 : IsReal d0) (h1 : IsReal d1) (h2 : IsReal d2) :
    IsReal (sqLen d0 d1 d2) := ((h0.mul h0).add (h1.mul h1)).add (h2.mul h2)

theorem sqDist_isReal (a b : Fin 3 → Ideal .f32) (ha : ∀ k, IsReal (a k)) (hb : ∀ k, IsReal (b k)) :
    IsReal (sqDist a b) :=
  sqLen_isReal (disp_isReal a b ha hb 0) (disp_isReal a b ha hb 1) (disp_isReal a b ha hb 2)

/-- The guarded reciprocal of a finite value is finite: the reciprocal of a positive real, or zero. -/
theorem invSq_isReal {s : Ideal .f32} (hs : IsReal s) : IsReal (invSq s) := by
  unfold invSq
  rw [Ideal.cmpf_def, Ideal.ofBits_def, Ideal.ofBits_def, Ideal.divf_def, Ideal.ofBits_zero_f32, ofBits_one]
  by_cases h : (0 : EReal) < s
  · have hc : Ideal.cmp .ogt s 0 = 1#1 := by simp [Ideal.cmp, h]
    rw [hc, ValueIdx.select_one]
    exact IsReal.div isReal_one hs (ne_of_gt h)
  · have hc : Ideal.cmp .ogt s 0 = 0#1 := by simp [Ideal.cmp, h]
    rw [hc, ValueIdx.select_zero]
    exact isReal_zero

theorem cube_isReal {w : Ideal .f32} (hw : IsReal w) : IsReal (cube w) := (hw.mul hw).mul hw

theorem coef_isReal {s : Ideal .f32} (hs : IsReal s) : IsReal (coef s) := by
  have hw := invSq_isReal hs
  have h24 : IsReal (FloatOps.ofBits (F := Ideal) .f32 0x41C00000#32) := by
    rw [Ideal.ofBits_def, ofBits_24]; exact isReal_coe _
  have h2 : IsReal (FloatOps.ofBits (F := Ideal) .f32 0x40000000#32) := by
    rw [Ideal.ofBits_def, ofBits_two]; exact isReal_coe _
  have h1 : IsReal (FloatOps.ofBits (F := Ideal) .f32 0x3F800000#32) := by
    rw [Ideal.ofBits_def, ofBits_one]; exact isReal_one
  exact ((h24.mul hw).mul (cube_isReal hw)).mul ((h2.mul (cube_isReal hw)).sub h1)

/-- finite positions give a finite pair force -/
theorem pair_isReal (a b : Fin 3 → Ideal .f32) (ha : ∀ k, IsReal (a k)) (hb : ∀ k, IsReal (b k)) (k : Fin 3) :
    IsReal (pair a b k) :=
  (coef_isReal (sqDist_isReal a b ha hb)).mul (disp_isReal a b ha hb k)

/-! ## Newton's third law -/

/-- Exchanging the two particles negates every displacement component (finite positions). -/
theorem disp_swap (a b : Fin 3 → Ideal .f32) (ha : ∀ k, IsReal (a k)) (hb : ∀ k, IsReal (b k)) (k : Fin 3) :
    disp b a k = - disp a b k := by
  obtain ⟨α, hα⟩ := ha k
  obtain ⟨β, hβ⟩ := hb k
  unfold disp
  rw [Ideal.subf_def, Ideal.subf_def, hα, hβ, ← EReal.coe_sub, ← EReal.coe_sub, ← EReal.coe_neg, neg_sub]

/-- The squared length does not see the signs of the components. -/
theorem sqLen_neg (d0 d1 d2 : Ideal .f32) : sqLen (-d0) (-d1) (-d2) = sqLen d0 d1 d2 := by
  unfold sqLen
  simp only [Ideal.mulf_def, neg_mul_neg]

/-- The squared distance is symmetric in the two particles (finite positions). -/
theorem sqDist_swap (a b : Fin 3 → Ideal .f32) (ha : ∀ k, IsReal (a k)) (hb : ∀ k, IsReal (b k)) :
    sqDist b a = sqDist a b := by
  unfold sqDist
  rw [disp_swap a b ha hb 0, disp_swap a b ha hb 1, disp_swap a b ha hb 2, sqLen_neg]

/-- Newton's third law for finite positions -/
theorem pair_antisymm (a b : Fin 3 → Ideal .f32) (ha : ∀ k, IsReal (a k)) (hb : ∀ k, IsReal (b k)) (k : Fin 3) :
    pair b a k = - pair a b k := by
  unfold pair
  rw [sqDist_swap a b ha hb, disp_swap a b ha hb k, Ideal.mulf_def, Ideal.mulf_def, mul_neg]

/-- the same summed over a family of partners, in the form "zero minus the column sum" -/
theorem zero_sub_sum_pair {n : ℕ} (x : Fin n → Fin 3 → Ideal .f32) (y : Fin 3 → Ideal .f32)
    (hx : ∀ r k, IsReal (x r k)) (hy : ∀ k, IsReal (y k)) (k : Fin 3) :
    (FloatOps.ofBits (F := Ideal) .f32 0x00000000#32 : Ideal .f32) - ∑ r : Fin n, pair (x r) y k
      = ∑ r : Fin n, pair y (x r) k := by
  have hreal : ∀ r, IsReal (pair (x r) y k) := fun r => pair_isReal (x r) y (hx r) hy k
  choose f hf using hreal
  have hanti : ∀ r, pair y (x r) k = ((-(f r) : ℝ) : EReal) := fun r => by
    rw [pair_antisymm (x r) y (hx r) hy k, hf r, EReal.coe_neg]
  rw [Ideal.ofBits_def, Ideal.ofBits_zero_f32, zero_sub]
  simp only [hf, hanti]
  rw [← coe_sum, ← coe_sum, ← EReal.coe_neg, Finset.sum_neg_distrib]

/-! ## The triangular enumeration of tile pairs -/

/-- the triangular enumeration of the 36 unordered pairs (I ≤ J) of 8 tiles: first and second member of pair p -/
def itab : Fin 36 → Fin 8 := ![0, 0, 0, 0, 0, 0, 0, 0, 1, 1, 1, 1, 1, 1, 1, 2, 2, 2, 2, 2, 2, 3, 3, 3, 3, 3, 4, 4, 4, 4, 5, 5, 5, 6, 6, 7]
def jtab : Fin 36 → Fin 8 := ![0, 1, 2, 3, 4, 5, 6, 7, 1, 2, 3, 4, 5, 6, 7, 2, 3, 4, 5, 6, 7, 3, 4, 5, 6, 7, 4, 5, 6, 7, 5, 6, 7, 6, 7, 7]

/-- what pair p adds to (a row of) tile I when g J is tile J's contribution: g (jtab p) if I is its first member, g (itab p) if I is its second member and the pair is off-diagonal -/
def contrib {M : Type*} [AddCommMonoid M] (g : Fin 8 → M) (I : Fin 8) (p : Fin 36) : M :=
  (if itab p = I then g (jtab p) else 0) + (if jtab p = I ∧ itab p ≠ jtab p then g (itab p) else 0)

/-- every tile J contributes to tile I exactly once over the 36 pairs -/
theorem ledger {M : Type*} [AddCommMonoid M] (g : Fin 8 → M) (I : Fin 8) :
    ∑ p : Fin 36, contrib g I p = ∑ J : Fin 8, g J := by
  fin_cases I <;> simp [contrib, itab, jtab, Fin.sum_univ_succ]

/-- 4096 partners as 8 tiles of 512 -/
theorem sum_tiles_4096 {M : Type*} [AddCommMonoid M] (f : Fin 4096 → M) (idx : Fin 8 → Fin 512 → Fin 4096)
    (hidx : ∀ J c, (idx J c).val = 512 * J.val + c.val) :
    ∑ J : Fin 8, ∑ c : Fin 512, f (idx J c) = ∑ j : Fin 4096, f j :=
  sum_tiles_idx (a := 8) (b := 512) f idx hidx

end Cert.PairForce

end
-- ==== Proof.Accumulate.lean ====
/-
  The tile-pair accumulation ends at the total pairwise force.

  The 4096 particles of a batch are cut into 8 tiles of 512. The 36 unordered tile pairs `(I, J)`, `I ≤ J`, are
  visited in a fixed order. At the pair `(I, J)` every particle of tile `I` gains the force exerted on it by the
  512 particles of tile `J`; when the tiles differ, every particle of tile `J` gains the reaction: zero minus the
  sum over tile `I` of the force that it exerts on those particles, which for finite positions is the force that
  tile `I` exerts on it. So a particle `i` of tile `T` gains, at the pair `p`, exactly the ledger entry
  `contrib g T p` of `g J = ∑ c, pair (i, particle c of tile J)`; the entries of the 36 pairs add up to `∑ J, g J`,
  and the eight tile sums add up to the sum over all 4096 partners.
-/
import proofs.«138107_j13151189860959_2_alg».proof.Proof.PairForce
import proofs.«138107_j13151189860959_2_alg».proof.Proof.LibExtReal
import proofs.«138107_j13151189860959_2_alg».proof.Proof.PairLaws

noncomputable section

open scoped BigOperators

namespace Cert.PairForce

open Idealize.ShloMosaic Idealize.ShloMosaic.ValueIdx Cert.LibExtReal

/-- Particle `c` of tile `J`. -/
def particle (J : Fin 8) (c : Fin 512) : Fin 4096 := ⟨512 * J.val + c.val, by have := J.isLt; have := c.isLt; omega⟩

/-- The tile of a particle. -/
def tileOf (i : Fin 4096) : Fin 8 := ⟨i.val / 512, by have := i.isLt; omega⟩

/-- ONE grid step of batch `β` at tile pair `p` on the accumulator (particle × axis → extended real): at the first
    pair the accumulator is first reset to zero; every particle `i` of the pair's first tile gains the sum over the
    second tile's 512 particles of the pair force on `i`; and, when the two tiles differ, every particle `i` of the
    second tile gains zero minus the sum over the first tile's 512 particles `r` of the pair force of `i` on `r`. -/
def step (q : FVec Ideal Sq .f32) (β : Fin 2) (p : Fin 36) (acc : Fin 4096 → Fin 3 → Ideal .f32) :
    Fin 4096 → Fin 3 → Ideal .f32 := fun i k =>
  let a0 : Ideal .f32 := if p.val = 0 then 0 else acc i k
  let a1 : Ideal .f32 :=
    if tileOf i = itab p then a0 + ∑ c : Fin 512, pair (row q β i) (row q β (particle (jtab p) c)) k else a0
  if tileOf i = jtab p ∧ itab p ≠ jtab p then
    a1 + ((FloatOps.ofBits (F := Ideal) .f32 0x00000000#32 : Ideal .f32)
      - ∑ r : Fin 512, pair (row q β (particle (itab p) r)) (row q β i) k)
  else a1

/-- The accumulator after pairs `0..n` of batch `β`, from any start (the first step resets it). -/
def run (q : FVec Ideal Sq .f32) (β : Fin 2) (start : Fin 4096 → Fin 3 → Ideal .f32) :
    ℕ → Fin 4096 → Fin 3 → Ideal .f32
  | 0 => step q β 0 start
  | n + 1 => if h : n + 1 < 36 then step q β ⟨n + 1, h⟩ (run q β start n) else run q β start n

/-- The force on particle `i` along axis `k` from the 512 particles of tile `J`. -/
def tileSum (q : FVec Ideal Sq .f32) (β : Fin 2) (i : Fin 4096) (k : Fin 3) (J : Fin 8) : Ideal .f32 :=
  ∑ c : Fin 512, pair (row q β i) (row q β (particle J c)) k

/-- One step adds to the (possibly reset) accumulator at `(i, k)` exactly the ledger entry of the pair `p` for the
    tile of `i`. Finite positions are needed only for the reaction term: `0 - ∑ r, pair r i = ∑ r, pair i r`. -/
theorem step_eq (q : FVec Ideal Sq .f32) (hq : ∀ idx, IsReal (q idx)) (β : Fin 2) (p : Fin 36)
    (acc : Fin 4096 → Fin 3 → Ideal .f32) (i : Fin 4096) (k : Fin 3) :
    step q β p acc i k = (if p.val = 0 then 0 else acc i k) + contrib (tileSum q β i k) (tileOf i) p := by
  have hz : (FloatOps.ofBits (F := Ideal) .f32 0x00000000#32 : Ideal .f32)
      - ∑ r : Fin 512, pair (row q β (particle (itab p) r)) (row q β i) k = tileSum q β i k (itab p) :=
    zero_sub_sum_pair (fun r => row q β (particle (itab p) r)) (row q β i) (fun _ _ => hq _) (fun _ => hq _) k
  have hj : ∑ c : Fin 512, pair (row q β i) (row q β (particle (jtab p) c)) k = tileSum q β i k (jtab p) := rfl
  simp only [step, contrib]
  rw [hz, hj]
  generalize (if p.val = 0 then (0 : Ideal .f32) else acc i k) = a0
  by_cases h1 : tileOf i = itab p
  · have h2 : ¬ (tileOf i = jtab p ∧ itab p ≠ jtab p) := fun h => h.2 (h1.symm.trans h.1)
    have h3 : ¬ (jtab p = tileOf i ∧ itab p ≠ jtab p) := fun h => h.2 (h1.symm.trans h.1.symm)
    rw [if_pos h1, if_neg h2, if_pos h1.symm, if_neg h3, add_zero]
  · have h1' : ¬ itab p = tileOf i := fun h => h1 h.symm
    by_cases h2 : tileOf i = jtab p ∧ itab p ≠ jtab p
    · have h2' : jtab p = tileOf i ∧ itab p ≠ jtab p := ⟨h2.1.symm, h2.2⟩
      rw [if_neg h1, if_pos h2, if_neg h1', if_pos h2', zero_add]
    · have h2' : ¬ (jtab p = tileOf i ∧ itab p ≠ jtab p) := fun h => h2 ⟨h.1.symm, h.2⟩
      rw [if_neg h1, if_neg h2, if_neg h1', if_neg h2', add_zero, add_zero]

/-- After the pairs `0..n` the accumulator at `(i, k)` holds the ledger entries of those pairs. -/
theorem run_eq (q : FVec Ideal Sq .f32) (hq : ∀ idx, IsReal (q idx)) (β : Fin 2)
    (start : Fin 4096 → Fin 3 → Ideal .f32) (i : Fin 4096) (k : Fin 3) : ∀ n : ℕ, n < 36 →
    run q β start n i k
      = ∑ m ∈ Finset.range (n + 1), if h : m < 36 then contrib (tileSum q β i k) (tileOf i) ⟨m, h⟩ else 0 := by
  intro n
  induction n with
  | zero =>
    intro _
    rw [Finset.sum_range_one, dif_pos (by norm_num : (0 : ℕ) < 36)]
    have h0 : (0 : Fin 36).val = 0 := rfl
    show step q β 0 start i k = _
    rw [step_eq q hq, if_pos h0, zero_add]
    rfl
  | succ n ih =>
    intro h
    have hne : ¬ ((⟨n + 1, h⟩ : Fin 36).val = 0) := Nat.succ_ne_zero n
    rw [Finset.sum_range_succ, dif_pos h, ← ih (by omega)]
    show (if h' : n + 1 < 36 then step q β ⟨n + 1, h'⟩ (run q β start n) else run q β start n) i k = _
    rw [dif_pos h, step_eq q hq, if_neg hne]

/-- After all 36 pairs the accumulator holds the total force, for finite positions. -/
theorem run_final (q : FVec Ideal Sq .f32) (hq : ∀ idx, IsReal (q idx)) (β : Fin 2)
    (start : Fin 4096 → Fin 3 → Ideal .f32) (i : Fin 4096) (k : Fin 3) :
    run q β start 35 i k = force q (Idealize.ShloMosaic.ValueIdx.ix3 β i k) := by
  rw [run_eq q hq β start i k 35 (by norm_num), force_apply,
    ← sum_tiles_4096 (fun j => pair (row q β i) (row q β j) k) particle (fun _ _ => rfl)]
  show _ = ∑ J : Fin 8, tileSum q β i k J
  rw [← ledger (tileSum q β i k) (tileOf i),
    ← Fin.sum_univ_eq_sum_range
      (fun m => if h : m < 36 then contrib (tileSum q β i k) (tileOf i) ⟨m, h⟩ else 0) 36]
  exact Finset.sum_congr rfl fun p _ => by rw [dif_pos p.isLt]

end Cert.PairForce

end
-- ==== Proof.StepGlue.lean ====
/-
  One grid step of the kernel's accumulator, read at an element at the ideal instance, is the specification's step.

  Grid point t is batch β = t / 36 and tile pair p = t % 36; the two literal tables hold the pair's tiles (I, J).
  The body's run at t, in whichever of its four control cases t falls, leaves in the accumulator what the
  specification's step leaves: the reset at the first pair, the row sums on tile I, and zero minus the column sums
  on tile J when the tiles differ. The row tile's block holds the particles 512·I + r of batch β and the column
  tile's block the particles 512·J + c, so the tile terms of the run are the specification's pair forces between
  particles of the position array.
-/
import proofs.«138107_j13151189860959_2_alg».proof.Proof.FrameDat
import proofs.«138107_j13151189860959_2_alg».proof.Proof.RunReads
import proofs.«138107_j13151189860959_2_alg».proof.Proof.BlockReads
import proofs.«138107_j13151189860959_2_alg».proof.Proof.Accumulate
import proofs.«138107_j13151189860959_2_alg».proof.Proof.HostReads
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PairForce Cert.TileTerms Idealize.ShloMosaic.ValueIdx

variable (m : (ℓ : Loc nD τ sig) → Buf (Elt Ideal) ℓ)

/-! ## The tables, and the batch and pair of a grid point -/

/-- the literal tables are the specification's tile tables -/
theorem lit0_itab : ∀ p : Fin 36, (lit0 p).toNat = (itab p).val := by decide
theorem lit1_jtab : ∀ p : Fin 36, (lit1 p).toNat = (jtab p).val := by decide

/-- The first pair is diagonal. -/
theorem itab_first : ∀ p : Fin 36, p.val = 0 → itab p = jtab p := by decide

/-- batch and pair of a grid point -/
def batchOf (t : Fin (cfgM (F := Ideal)).N) : Fin 2 := ⟨t.val / 36, by have h72 : t.val < 72 := N_cfgM (F := Ideal) ▸ t.isLt; omega⟩
def pairOf (t : Fin (cfgM (F := Ideal)).N) : Fin 36 := ⟨t.val % 36, Nat.mod_lt _ (by decide)⟩

/-! ## The specification's step, by the pair's kind -/

section Spec
variable (q : FVec Ideal Sq .f32) (β : Fin 2) (p : Fin 36) (acc : Fin 4096 → Fin 3 → Ideal .f32) (i : Fin 4096) (k : Fin 3)
  (x0 : Vec Ideal S1x512x3 .f32) (x1 : Vec Ideal S1x3x512 .f32) (J0 J1 : ℕ)

theorem tileOf_eq_iff (T : Fin 8) (J : ℕ) (hJ : J = T.val) : tileOf i = T ↔ i.val / 512 = J := by
  rw [Fin.ext_iff, hJ]; exact Iff.rfl

/-- At a diagonal pair the step adds the row sums on the pair's tile to the (at the first pair, reset) accumulator. -/
theorem step_diag (hJ0 : J0 = (itab p).val) (hd : itab p = jtab p)
    (hrow : i.val / 512 = J0 → rowOf x0 ⟨i.val % 512, mod512_lt i⟩ = row q β i)
    (hcol : ∀ cc, colOf x1 cc = row q β (particle (jtab p) cc)) :
    step q β p acc i k
      = if i.val / 512 = J0 then
          (if p.val = 0 then 0 else acc i k)
            + ∑ cc : Fin 512, pair (rowOf x0 ⟨i.val % 512, mod512_lt i⟩) (colOf x1 cc) k
        else (if p.val = 0 then 0 else acc i k) := by
  unfold step
  dsimp only
  rw [if_neg (fun h => h.2 hd)]
  by_cases hit : i.val / 512 = J0
  · rw [if_pos hit, if_pos ((tileOf_eq_iff i _ J0 hJ0).2 hit), hrow hit]
    refine congrArg (fun s => (if p.val = 0 then (0 : Ideal .f32) else acc i k) + s) ?_
    exact Finset.sum_congr rfl fun cc _ => by rw [hcol cc]
  · rw [if_neg hit, if_neg (fun h => hit ((tileOf_eq_iff i _ J0 hJ0).1 h))]

/-- At an off-diagonal pair (never the first) the step adds the row sums on the first tile and zero minus the column
    sums on the second. -/
theorem step_offdiag (hJ0 : J0 = (itab p).val) (hJ1 : J1 = (jtab p).val) (hne : itab p ≠ jtab p)
    (hrow : i.val / 512 = J0 → rowOf x0 ⟨i.val % 512, mod512_lt i⟩ = row q β i)
    (hcol : ∀ cc, colOf x1 cc = row q β (particle (jtab p) cc))
    (hrow' : ∀ rr, rowOf x0 rr = row q β (particle (itab p) rr))
    (hcol' : i.val / 512 = J1 → colOf x1 ⟨i.val % 512, mod512_lt i⟩ = row q β i) :
    step q β p acc i k
      = if i.val / 512 = J1 then
          acc i k + ((FloatOps.ofBits (F := Ideal) .f32 0x00000000#32 : Ideal .f32)
            - ∑ rr : Fin 512, pair (rowOf x0 rr) (colOf x1 ⟨i.val % 512, mod512_lt i⟩) k)
        else if i.val / 512 = J0 then
          acc i k + ∑ cc : Fin 512, pair (rowOf x0 ⟨i.val % 512, mod512_lt i⟩) (colOf x1 cc) k
        else acc i k := by
  have hp : ¬p.val = 0 := fun h => hne (itab_first p h)
  have hJ : J0 ≠ J1 := fun h => hne (Fin.ext (by rw [← hJ0, ← hJ1, h]))
  unfold step
  dsimp only
  rw [if_neg hp]
  by_cases hit1 : i.val / 512 = J1
  · have hit0 : ¬i.val / 512 = J0 := fun h => hJ (h.symm.trans hit1)
    rw [if_pos hit1, if_neg (fun h => hit0 ((tileOf_eq_iff i _ J0 hJ0).1 h)),
      if_pos ⟨(tileOf_eq_iff i _ J1 hJ1).2 hit1, hne⟩, hcol' hit1]
    refine congrArg (fun s => acc i k + ((FloatOps.ofBits (F := Ideal) .f32 0x00000000#32 : Ideal .f32) - s)) ?_
    exact Finset.sum_congr rfl fun rr _ => by rw [hrow' rr]
  · rw [if_neg hit1, if_neg (fun h => hit1 ((tileOf_eq_iff i _ J1 hJ1).1 h.1))]
    by_cases hit0 : i.val / 512 = J0
    · rw [if_pos hit0, if_pos ((tileOf_eq_iff i _ J0 hJ0).2 hit0), hrow hit0]
      refine congrArg (fun s => acc i k + s) ?_
      exact Finset.sum_congr rfl fun cc _ => by rw [hcol cc]
    · rw [if_neg hit0, if_neg (fun h => hit0 ((tileOf_eq_iff i _ J0 hJ0).1 h))]

end Spec

/-! ## The blocks' particles -/

section Blocks
variable (c : Dev nD) (t : Fin (cfgM (F := Ideal)).N)

theorem pair_coord : (⟨(grid0.coords t 1).val, (grid0.coords t 1).isLt⟩ : Fin 36) = pairOf t := Fin.ext (coords1 t)

theorem particle_mod (T : Fin 8) (i : Fin 4096) (hit : i.val / 512 = T.val) :
    particle T ⟨i.val % 512, mod512_lt i⟩ = i :=
  Fin.ext (by show 512 * T.val + i.val % 512 = i.val; omega)

/-- Row `rr` of the row tile's block at point `t` is particle `rr` of the pair's first tile, in the point's batch. -/
theorem rowOf_iblk0 (rr : Fin 512) :
    rowOf (iblk m c 0 t) rr
      = row (m ((c : Thread nD τ).loc main_arg0)) (batchOf t) (particle (itab (pairOf t)) rr) := by
  funext k
  exact iblk0_apply m c t rr k (batchOf t) (coords0 t).symm (itab (pairOf t)).val
    (by rw [pair_coord t]; exact (lit0_itab _).symm) (particle (itab (pairOf t)) rr).isLt

/-- Column `cc` of the column tile's block at point `t` is particle `cc` of the pair's second tile. -/
theorem colOf_iblk1 (cc : Fin 512) :
    colOf (iblk m c 1 t) cc
      = row (m ((c : Thread nD τ).loc main_arg0)) (batchOf t) (particle (jtab (pairOf t)) cc) := by
  funext k
  exact iblk1_apply m c t cc k (batchOf t) (coords0 t).symm (jtab (pairOf t)).val
    (by rw [pair_coord t]; exact (lit1_jtab _).symm) (particle (jtab (pairOf t)) cc).isLt

/-- A particle `i` of the pair's first tile is row `i % 512` of the row tile's block. -/
theorem rowOf_iblk0_mod (i : Fin 4096) (hit : i.val / 512 = (itab (pairOf t)).val) :
    rowOf (iblk m c 0 t) ⟨i.val % 512, mod512_lt i⟩ = row (m ((c : Thread nD τ).loc main_arg0)) (batchOf t) i := by
  rw [rowOf_iblk0, particle_mod _ i hit]

/-- A particle `i` of the pair's second tile is column `i % 512` of the column tile's block. -/
theorem colOf_iblk1_mod (i : Fin 4096) (hit : i.val / 512 = (jtab (pairOf t)).val) :
    colOf (iblk m c 1 t) ⟨i.val % 512, mod512_lt i⟩ = row (m ((c : Thread nD τ).loc main_arg0)) (batchOf t) i := by
  rw [colOf_iblk1, particle_mod _ i hit]

/-- The words the body loads at point `t` are the pair's tiles. -/
theorem wd0_toNat : (wd0 (F := Ideal) c (grid0.coords t) (tbl (F := Ideal) 0)).toNat = (itab (pairOf t)).val := by
  show (word0 (F := Ideal) (grid0.coords t) : BitVec 32).toNat = _
  rw [word0_eq]; exact lit0_itab _

theorem wd1_toNat : (wd1 (F := Ideal) c (grid0.coords t) (tbl (F := Ideal) 1)).toNat = (jtab (pairOf t)).val := by
  show (word1 (F := Ideal) (grid0.coords t) : BitVec 32).toNat = _
  rw [word1_eq]; exact lit1_jtab _

/-- The off-diagonal branch is taken exactly when the pair's tiles differ. -/
theorem cond2_tiles :
    k0_cond2 (wd0 (F := Ideal) c (grid0.coords t) (tbl (F := Ideal) 0)) (wd1 (F := Ideal) c (grid0.coords t) (tbl (F := Ideal) 1)) = 1#1
      ↔ itab (pairOf t) ≠ jtab (pairOf t) := by
  rw [cond2_iff]
  constructor
  · intro h e
    refine h (BitVec.eq_of_toNat_eq ?_)
    rw [wd0_toNat, wd1_toNat, e]
  · intro h e
    refine h (Fin.ext ?_)
    rw [← wd0_toNat c t, ← wd1_toNat c t, e]

end Blocks

/-! ## One step -/

theorem nextAcc_apply (c : Dev nD) (t : Fin (cfgM (F := Ideal)).N) (xs : Vec Ideal S4096x3 .f32) (i : Fin 4096) (k : Fin 3) :
    nextAcc m c t xs (ix2 i k)
      = step (m ((c : Thread nD τ).loc main_arg0)) (batchOf t) (pairOf t) (fun i k => xs (ix2 i k)) i k := by
  have hJ0 := wd0_toNat c t
  have hJ1 := wd1_toNat c t
  have h0 : (itab (pairOf t)).val < 8 := (itab (pairOf t)).isLt
  have h1' : (jtab (pairOf t)).val < 8 := (jtab (pairOf t)).isLt
  have hp : cond1 (grid0.coords t) ↔ (pairOf t).val = 0 := cond1_iff t
  unfold nextAcc
  by_cases h1 : cond1 (grid0.coords t)
  · rw [dif_pos h1]
    have hd : itab (pairOf t) = jtab (pairOf t) := itab_first _ (hp.1 h1)
    refine (runA_read c (grid0.coords t) (ms0 t) (hs0 t) (ms1 t) (hs1 t) (ms2 t) (hs2 t) (iblk m c 0 t) (iblk m c 1 t)
      (tbl (F := Ideal) 0) (tbl (F := Ideal) 1) _ _ h1 _ _ i k _ hJ0 h0).trans ?_
    rw [step_diag (m ((c : Thread nD τ).loc main_arg0)) (batchOf t) (pairOf t) _ i k (iblk m c 0 t) (iblk m c 1 t) _ rfl hd
      (rowOf_iblk0_mod m c t i) (colOf_iblk1 m c t), if_pos (hp.1 h1)]
  · rw [dif_neg h1]
    have hp0 : ¬(pairOf t).val = 0 := fun h => h1 (hp.2 h)
    by_cases h2 : k0_cond2 (wd0 (F := Ideal) c (grid0.coords t) (tbl (F := Ideal) 0)) (wd1 (F := Ideal) c (grid0.coords t) (tbl (F := Ideal) 1)) = 1#1
    · rw [dif_pos h2]
      have hne : itab (pairOf t) ≠ jtab (pairOf t) := (cond2_tiles c t).1 h2
      refine (runB_read c (grid0.coords t) (ms0 t) (hs0 t) (ms1 t) (hs1 t) (ms2 t) (hs2 t) (iblk m c 0 t) (iblk m c 1 t) xs
        (tbl (F := Ideal) 0) (tbl (F := Ideal) 1) _ _ h1 h2 _ i k _ hJ0 h0 _ hJ1 h1' (fun e => hne (Fin.ext e))).trans ?_
      rw [step_offdiag (m ((c : Thread nD τ).loc main_arg0)) (batchOf t) (pairOf t) _ i k (iblk m c 0 t) (iblk m c 1 t) _ _ rfl rfl hne
        (rowOf_iblk0_mod m c t i) (colOf_iblk1 m c t) (rowOf_iblk0 m c t) (colOf_iblk1_mod m c t i)]
    · rw [dif_neg h2]
      have hd : itab (pairOf t) = jtab (pairOf t) := Classical.not_not.1 fun hne => h2 ((cond2_tiles c t).2 hne)
      by_cases h3 : k0_cond3 (grid0.coords t) = 1#1
      · rw [dif_pos h3]
        refine (runD_read c (grid0.coords t) (ms0 t) (hs0 t) (ms1 t) (hs1 t) (ms2 t) (hs2 t) (iblk m c 0 t) (iblk m c 1 t) xs
          (tbl (F := Ideal) 0) (tbl (F := Ideal) 1) _ _ h1 h2 h3 i k _ hJ0 h0).trans ?_
        rw [step_diag (m ((c : Thread nD τ).loc main_arg0)) (batchOf t) (pairOf t) _ i k (iblk m c 0 t) (iblk m c 1 t) _ rfl hd
          (rowOf_iblk0_mod m c t i) (colOf_iblk1 m c t), if_neg hp0]
      · rw [dif_neg h3]
        refine (runC_read c (grid0.coords t) (ms0 t) (hs0 t) (ms1 t) (hs1 t) (ms2 t) (hs2 t) (iblk m c 0 t) (iblk m c 1 t) xs
          (tbl (F := Ideal) 0) (tbl (F := Ideal) 1) _ _ h1 h2 h3 i k _ hJ0 h0).trans ?_
        rw [step_diag (m ((c : Thread nD τ).loc main_arg0)) (batchOf t) (pairOf t) _ i k (iblk m c 0 t) (iblk m c 1 t) _ rfl hd
          (rowOf_iblk0_mod m c t i) (colOf_iblk1 m c t), if_neg hp0]

theorem outAt_apply (c : Dev nD) (t : Fin (cfgM (F := Ideal)).N) (ht : t.val % 36 = 35) (xs : Vec Ideal S4096x3 .f32) (i : Fin 4096) (k : Fin 3) :
    outAt m c t xs (ix3 0 i k) = nextAcc m c t xs (ix2 i k) := by
  have hJ0 := wd0_toNat c t
  have h0 : (itab (pairOf t)).val < 8 := (itab (pairOf t)).isLt
  have h3 : k0_cond3 (grid0.coords t) = 1#1 := (cond3_iff t).2 ht
  have h1 : ¬cond1 (grid0.coords t) := fun h => by have := (cond1_iff t).1 h; omega
  have h2 : ¬(k0_cond2 (wd0 (F := Ideal) c (grid0.coords t) (tbl (F := Ideal) 0)) (wd1 (F := Ideal) c (grid0.coords t) (tbl (F := Ideal) 1)) = 1#1) :=
    fun h => offdiag_excl (F := Ideal) c t h h3
  unfold outAt nextAcc
  rw [dif_pos ⟨h1, h2, h3⟩, dif_neg h1, dif_neg h2, dif_pos h3]
  refine (runD_out c (grid0.coords t) (ms0 t) (hs0 t) (ms1 t) (hs1 t) (ms2 t) (hs2 t) (iblk m c 0 t) (iblk m c 1 t) xs
    (tbl (F := Ideal) 0) (tbl (F := Ideal) 1) _ _ h1 h2 h3 i k _ hJ0 h0).trans ?_
  exact (runD_read c (grid0.coords t) (ms0 t) (hs0 t) (ms1 t) (hs1 t) (ms2 t) (hs2 t) (iblk m c 0 t) (iblk m c 1 t) xs
    (tbl (F := Ideal) 0) (tbl (F := Ideal) 1) _ _ h1 h2 h3 i k _ hJ0 h0).symm

end Cert.KernelIdeal.Hand

end
-- ==== Proof.FinalArray.lean ====
/-
  From what the body leaves in the output window's staging buffer at the two write-back points to the whole output
  array after the run.

  The grid has 72 points `t`: batch `β = t / 36`, pair `p = t % 36`. The output window's block at point `t` is batch
  `β` of the array, whole, and it is written back exactly at the last pair `p = 35` of each batch. The two write-back
  points `35` and `71` therefore cover the array, one batch each: if at each of them the buffer holds batch `β` of `G`,
  the array ends holding `G`.
-/
import proofs.«138107_j13151189860959_2_alg».proof.Proof.CaseFacts
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- if at each write-back point (the last pair of batch β) the body leaves, at every (r, k) of the block, G's value at (β, r, k), then after the run the output array is G -/
theorem final_of_flush {c : Dev nD} (dat : Dat τ (Elt F) Unit ℕ (UR sig nD τ) ℕ (cfgM (F := F)) c)
    (G : Buf (Elt F) (((cfgM (F := F)).win 2).arr.view.loc (c : Thread nD τ)))
    (h : ∀ (t : Fin (cfgM (F := F)).N) (ht : t.val % 36 = 35) (r : Fin 4096) (k : Fin 3),
      dat.after 2 t (Idealize.ShloMosaic.ValueIdx.ix3 0 r k) = G (Idealize.ShloMosaic.ValueIdx.ix3 (⟨t.val / 36, by have h72 : t.val < 72 := N_cfgM (F := F) ▸ t.isLt; omega⟩ : Fin 2) r k)) :
    dat.arrAt 2 (cfgM (F := F)).N = G := by
  refine dat.arrAt_eq_of_cover 2 G ?hG ?hcover
  case hG =>
    intro t hf
    have ht : t.val % 36 = 35 := by
      rw [flush2] at hf; exact of_decide_eq_true hf
    have key : ∀ y : S1x4096x3.Idx,
        dat.after 2 t y = (((cfgM (F := F)).win 2).blk t).view.read (Elt F) G y := by
      intro y
      obtain ⟨a, r, k, rfl⟩ : ∃ (a : Fin 1) (r : Fin 4096) (k : Fin 3), y = Idealize.ShloMosaic.ValueIdx.ix3 a r k :=
        ⟨y 0, y 1, y 2, Idealize.ShloMosaic.ValueIdx.eq_ix3 (n0 := 1) (n1 := 4096) (n2 := 3) y⟩
      obtain rfl : a = 0 := Subsingleton.elim _ _
      rw [h t ht r k, blk2_read c t G r k]
    exact funext key
  case hcover =>
    intro (i : S2x4096x3.Idx)
    have hi : (i 0).val < 2 := (i 0).isLt
    refine ⟨⟨36 * (i 0).val + 35, by rw [N_cfgM]; omega⟩, ?_, ?_⟩
    · rw [flush2]
      exact decide_eq_true (by show (36 * (i 0).val + 35) % 36 = 35; omega)
    · refine (blk2_mem (F := F) _ i).mpr ?_
      show (i 0).val = (36 * (i 0).val + 35) / 36
      omega

end Cert.KernelIdeal.Hand

end
-- ==== Proof.FiniteInputs.lean ====
/-
  From the certificate's precondition — every float input is finite — to: every entry of the position
  array is a real number.

  The precondition is a printed function of the four argument arrays: for each argument, the absolute value
  compared `<` against `+∞`, reduced by `and` over all axes, and the four results conjoined; it is stated to be
  the all-ones `i1` tensor. A conjunction that is 1 has both conjuncts 1; a reduction by `and` over all axes
  that is 1 met a 1 at every index; and `max x (-x) < ⊤` on the extended reals says `x` is neither `⊤` nor `⊥`,
  that is, a real number.
-/
import proofs.«138107_j13151189860959_2_alg».proof.Defs
import proofs.«138107_j13151189860959_2_alg».proof.Proof.Gen.Pre_finite_inputs
import proofs.«138107_j13151189860959_2_alg».proof.Proof.LibExtReal
import Idealize.ShloMosaic.Lib.ReduceAll
import Idealize.ShloMosaic.Lib.ValueIdx

namespace Cert.FiniteInputs

open Idealize.ShloMosaic Idealize.SL.Sem Idealize.ShloMosaic.ValueIdx

/-- The rank-0 shape has exactly one index. -/
instance subsingleton_scalarIdx : Subsingleton Cert.Pre_finite_inputs.S_.Idx :=
  ⟨fun a b => funext fun d => d.elim0⟩

/-- On one value: `|x| < +∞` holding (the comparison word is 1) says `x` is a real number. -/
theorem isReal_of_abs_lt_inf (x : Ideal .f32)
    (h : FloatOps.cmpf .olt (FloatOps.hostAbsf x) (FloatOps.ofBits (F := Ideal) .f32 0x7F800000#32) = 1#1) :
    Cert.LibExtReal.IsReal x := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | coe r => exact Cert.LibExtReal.isReal_coe r
  | top => simp at h

theorem q_isReal (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m)
    (c : Dev Cert.KernelIdeal.nD) (i : Cert.KernelIdeal.S2x4096x3.Idx) :
    Cert.LibExtReal.IsReal (m ((c.tc : Thread Cert.KernelIdeal.nD Cert.KernelIdeal.τ).loc Cert.KernelIdeal.main_arg0) i) := by
  have e := congrFun (h c) ValueIdx.ix0
  dsimp only [Cert.Pre_finite_inputs.fn, Cert.Pre_finite_inputs.fn_part1] at e
  -- the four-fold conjunction: keep the first conjunct, the position array's
  have e1 := (IntOp.andi_eq_one.1 e).1
  have e2 := (IntOp.andi_eq_one.1 e1).1
  have e3 := (IntOp.andi_eq_one.1 e2).1
  -- the reduction by `and` over all axes that is 1 met a 1 at index `i`
  have e4 := Host.reduce_andi_all _ _ _ _ _ e3 i
  exact isReal_of_abs_lt_inf _ e4

end Cert.FiniteInputs
-- ==== Proof.TrajGlue.lean ====
/-
  The kernel's accumulator over the 72 grid points is the specification's run, and the output array after the run
  is the specification's total force.

  Grid point `t` is batch `t / 36`, tile pair `t % 36`. One grid point acts on the accumulator as one step of the
  specification at that batch and pair. So within batch `β`, after the pair `p` the accumulator is the specification's
  run of `p + 1` steps started from whatever the batch found (the first step resets it); after the last pair it is
  the total force on every particle of the batch, for finite positions; and since the body copies the accumulator
  to the output window exactly at the last pair of each batch, the output array ends holding the total force.
-/
import proofs.«138107_j13151189860959_2_alg».proof.Proof.StepGlue
import proofs.«138107_j13151189860959_2_alg».proof.Proof.FinalArray
import proofs.«138107_j13151189860959_2_alg».proof.Proof.FiniteInputs
import proofs.«138107_j13151189860959_2_alg».proof.Proof.Accumulate

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PairForce Cert.LibExtReal Idealize.ShloMosaic.ValueIdx

variable (m : (ℓ : Loc nD τ sig) → Buf (Elt Ideal) ℓ)

/-- The accumulator after pair `p` of batch `β` is the specification's run of `p + 1` steps, from whatever the batch
    started on. -/
theorem accAfter_run (c : Dev nD) (β : Fin 2) (p : ℕ) (hp : p < 36) (i : Fin 4096) (k : Fin 3) :
    accAfter m c (36 * β.val + p) (ix2 i k)
      = run (m ((c : Thread nD τ).loc main_arg0)) β (fun i k => accBefore m c ⟨36 * β.val, by have := β.isLt; rw [N_cfgM]; omega⟩ (ix2 i k)) p i k := by
  have hβ := β.isLt
  induction p generalizing i k with
  | zero =>
    have hN : 36 * β.val < (cfgM (F := Ideal)).N := by rw [N_cfgM]; omega
    have e1 : accAfter m c (36 * β.val + 0) = nextAcc m c ⟨36 * β.val, hN⟩ (accBefore m c ⟨36 * β.val, hN⟩) :=
      accAfter_eq m c ⟨36 * β.val, hN⟩
    have hb : batchOf ⟨36 * β.val, hN⟩ = β := Fin.ext (by show 36 * β.val / 36 = β.val; omega)
    have hp0 : pairOf ⟨36 * β.val, hN⟩ = (0 : Fin 36) := Fin.ext (by show 36 * β.val % 36 = 0; omega)
    rw [e1, nextAcc_apply, hb, hp0]
    rfl
  | succ p ih =>
    have hN : 36 * β.val + (p + 1) < (cfgM (F := Ideal)).N := by rw [N_cfgM]; omega
    have eb : accBefore m c ⟨36 * β.val + (p + 1), hN⟩ = accAfter m c (36 * β.val + p) := by
      unfold accBefore
      split
      · next h => exact absurd h (by show ¬ (36 * β.val + (p + 1) = 0); omega)
      · exact congrArg (accAfter m c) (by show 36 * β.val + (p + 1) - 1 = 36 * β.val + p; omega)
    have e1 : accAfter m c (36 * β.val + (p + 1))
        = nextAcc m c ⟨36 * β.val + (p + 1), hN⟩ (accAfter m c (36 * β.val + p)) := by
      have e := accAfter_eq m c ⟨36 * β.val + (p + 1), hN⟩
      rw [eb] at e
      exact e
    have hb : batchOf ⟨36 * β.val + (p + 1), hN⟩ = β :=
      Fin.ext (by show (36 * β.val + (p + 1)) / 36 = β.val; omega)
    have hpp : pairOf ⟨36 * β.val + (p + 1), hN⟩ = (⟨p + 1, hp⟩ : Fin 36) :=
      Fin.ext (by show (36 * β.val + (p + 1)) % 36 = p + 1; omega)
    have hih : (fun i k => accAfter m c (36 * β.val + p) (ix2 i k))
        = run (m ((c : Thread nD τ).loc main_arg0)) β (fun i k => accBefore m c ⟨36 * β.val, by rw [N_cfgM]; omega⟩ (ix2 i k)) p :=
      funext fun i => funext fun k => ih (by omega) i k
    rw [e1, nextAcc_apply, hb, hpp, hih]
    show _ = (if h : p + 1 < 36 then step _ β ⟨p + 1, h⟩ (run _ β _ p) else run _ β _ p) i k
    rw [dif_pos hp]

/-- For finite positions, after the last pair of batch `β` the accumulator holds the total force. -/
theorem accAfter_last (hq : ∀ (c : Dev nD) idx, IsReal (m ((c : Thread nD τ).loc main_arg0) idx)) (c : Dev nD) (β : Fin 2) (i : Fin 4096) (k : Fin 3) :
    accAfter m c (36 * β.val + 35) (ix2 i k) = force (m ((c : Thread nD τ).loc main_arg0)) (ix3 β i k) := by
  rw [accAfter_run m c β 35 (by norm_num) i k]
  exact run_final _ (hq c) β _ i k

/-- So the output array after the run is the specification's force. -/
theorem arrAt_force (hq : ∀ (c : Dev nD) idx, IsReal (m ((c : Thread nD τ).loc main_arg0) idx)) (c : Dev nD) :
    (dats m 0 c).arrAt 2 (cfgM (F := Ideal)).N = force (m ((c : Thread nD τ).loc main_arg0)) := by
  refine final_of_flush (dats m 0 c) (force (m ((c : Thread nD τ).loc main_arg0))) ?_
  intro t ht r k
  have h72 : t.val < 72 := N_cfgM (F := Ideal) ▸ t.isLt
  have e : t.val = 36 * (t.val / 36) + 35 := by omega
  have key : accAfter m c t.val = accAfter m c (36 * (t.val / 36) + 35) := congrArg (accAfter m c) e
  rw [after2, outAt_apply m c t ht, ← accAfter_eq, key]
  exact accAfter_last m hq c ⟨t.val / 36, by omega⟩ r k

end Cert.KernelIdeal.Hand

end
-- ==== Proof.RefForce.lean ====
/-
  The reference program's second result is the pairwise inverse-power force of the specification.

  The reference computes, for every batch `β` and every ordered pair of particles `(p, j)`, the displacement
  `d = q[β,p,:] - q[β,j,:]`, its squared length as a sum over the three axes started from zero, the mask
  `r² > 0`, the guarded squared length `where(mask, r², 1)`, the reciprocal `where(mask, 1 / guarded, 0)`, the factor
  `1 · reciprocal`, its cube, the coefficient `((24·w)·w³)·(2·w³ − 1)` and the force `coefficient · d`, and sums the
  force over the partner `j` starting from zero. The specification writes the squared length as `(d₀² + d₁²) + d₂²`,
  the reciprocal with one selection, and no factor `1`. Three small laws join the two spellings:
  a sum over three terms started from zero is the left-associated sum; a selection under the same mask inside the
  selected branch may be dropped; and the word of `1.0` is the multiplicative unit.
-/
import proofs.«138107_j13151189860959_2_alg».proof.Proof.Gen.ReferenceIdeal.Read
import proofs.«138107_j13151189860959_2_alg».proof.Proof.PairForce
import proofs.«138107_j13151189860959_2_alg».proof.Proof.LibExtReal
import Idealize.ShloMosaic.Lib.ValueIdx

noncomputable section

open scoped BigOperators

namespace Cert.RefForce

open Idealize.ShloMosaic Idealize.ShloMosaic.ValueIdx Cert.ReferenceIdeal Cert.ReferenceIdeal.Read Cert.PairForce

/-! ## The three laws -/

/-- A sum over three terms started from the zero word is the left-associated sum of the three. -/
theorem zero_add_sum_three (f : Fin 3 → EReal) :
    Ideal.ofBits .f32 0x00000000#32 + ∑ k : Fin 3, f k = (f 0 + f 1) + f 2 := by
  rw [Ideal.ofBits_zero_f32, zero_add, Fin.sum_univ_three]

/-- A selection under the mask `m` inside the branch that `m` selects may be dropped. -/
theorem select_select {α β : Type} (m : BitVec 1) (g : α → β) (s o : α) (z : β) :
    Scalar.select m (g (Scalar.select m s o)) z = Scalar.select m (g s) z := by
  by_cases h : m = 1#1
  · subst h; rw [select_one, select_one, select_one]
  · have h0 := eq_zero_of_ne_one h; subst h0; rw [select_zero, select_zero]

/-- The word of `1.0` is a left unit of the product. -/
theorem one_word_mul (x : EReal) : Ideal.ofBits .f32 0x3F800000#32 * x = x := by
  rw [Cert.LibExtReal.ofBits_one, one_mul]

/-! ## The composed index maps at coordinates -/

theorem idx_v2_v4 (β : Fin 2) (p j : Fin 4096) (k : Fin 3) :
    idx_main_v2 (idx_main_v4 (ix4 β p j k)) = ix3 β p k :=
  funext fun a => Fin.ext (by match a with | ⟨0, _⟩ => rfl | ⟨1, _⟩ => rfl | ⟨2, _⟩ => rfl)

theorem idx_v3_v5 (β : Fin 2) (p j : Fin 4096) (k : Fin 3) :
    idx_main_v3 (idx_main_v5 (ix4 β p j k)) = ix3 β j k :=
  funext fun a => Fin.ext (by match a with | ⟨0, _⟩ => rfl | ⟨1, _⟩ => rfl | ⟨2, _⟩ => rfl)

theorem idx_v8 (β : Fin 2) (p j : Fin 4096) (k : Fin 3) :
    idx_main_v8 (ix3 β p j) k = ix4 β p j k :=
  funext fun a => Fin.ext (by match a with | ⟨0, _⟩ => rfl | ⟨1, _⟩ => rfl | ⟨2, _⟩ => rfl | ⟨3, _⟩ => rfl)

theorem idx_v27_v28 (β : Fin 2) (p j : Fin 4096) (k : Fin 3) :
    idx_main_v27 (idx_main_v28 (ix4 β p j k)) = ix3 β p j :=
  funext fun a => Fin.ext (by match a with | ⟨0, _⟩ => rfl | ⟨1, _⟩ => rfl | ⟨2, _⟩ => rfl)

theorem idx_v30 (β : Fin 2) (p : Fin 4096) (k : Fin 3) (j : Fin 4096) :
    idx_main_v30 (ix3 β p k) j = ix4 β p j k :=
  funext fun a => Fin.ext (by match a with | ⟨0, _⟩ => rfl | ⟨1, _⟩ => rfl | ⟨2, _⟩ => rfl | ⟨3, _⟩ => rfl)

/-! ## The reference read stage by stage -/

section Stages

variable (x0 : (⟨Cert.ReferenceIdeal.S2x4096x3, .f32⟩ : BufTy).Contents (Elt Ideal))

/-- The displacement of the pair `(p, j)` along axis `k`. -/
theorem disp_read (β : Fin 2) (p j : Fin 4096) (k : Fin 3) :
    val_main_v6 (F := Ideal) x0 (ix4 β p j k) = disp (row x0 β p) (row x0 β j) k := by
  rw [val_main_v6_apply, val_main_v4_apply, val_main_v2_apply, val_main_v5_apply, val_main_v3_apply,
    idx_v2_v4, idx_v3_v5]
  rfl

/-- The squared distance of the pair `(p, j)`. -/
theorem sqDist_read (β : Fin 2) (p j : Fin 4096) :
    val_main_v8 (F := Ideal) x0 (ix3 β p j) = sqDist (row x0 β p) (row x0 β j) := by
  rw [val_main_v8_apply, val_main_cst_apply]
  simp only [val_main_v7_apply, idx_v8, disp_read]
  exact zero_add_sum_three _

/-- The guarded reciprocal of the squared distance of the pair `(p, j)`. -/
theorem invSq_read (β : Fin 2) (p j : Fin 4096) :
    val_main_v14 (F := Ideal) x0 (ix3 β p j) = invSq (sqDist (row x0 β p) (row x0 β j)) := by
  rw [val_main_v14_apply, val_main_v13_apply, val_main_v11_apply, val_main_v10_apply, val_main_v12_apply,
    val_main_v9_apply, val_main_call0_v1_apply, val_main_call1_v1_apply, val_main_call0_v0_apply,
    val_main_call1_v0_apply, val_main_cst_0_apply, val_main_cst_1_apply, val_main_cst_2_apply,
    val_main_cst_3_apply, sqDist_read]
  exact select_select _ (fun s => FloatOps.hostDivf (FloatOps.ofBits (F := Ideal) .f32 0x3F800000#32) s) _ _ _

/-- The coefficient of the pair `(p, j)`. -/
theorem coef_read (β : Fin 2) (p j : Fin 4096) :
    val_main_v26 (F := Ideal) x0 (ix3 β p j) = coef (sqDist (row x0 β p) (row x0 β j)) := by
  have h16 : val_main_v16 (F := Ideal) x0 (ix3 β p j) = invSq (sqDist (row x0 β p) (row x0 β j)) := by
    rw [val_main_v16_apply, val_main_v15_apply, val_main_cst_4_apply, invSq_read]
    exact one_word_mul _
  rw [val_main_v26_apply, val_main_v21_apply, val_main_v25_apply, val_main_v20_apply, val_main_v23_apply,
    val_main_v18_apply, val_main_v17_apply, h16, val_main_v19_apply, val_main_v22_apply, val_main_v24_apply,
    val_main_cst_5_apply, val_main_cst_6_apply, val_main_cst_7_apply, invSq_read]
  rfl

/-- The force of particle `j` on particle `p` along axis `k`. -/
theorem pair_read (β : Fin 2) (p j : Fin 4096) (k : Fin 3) :
    val_main_v29 (F := Ideal) x0 (ix4 β p j k) = pair (row x0 β p) (row x0 β j) k := by
  rw [val_main_v29_apply, val_main_v28_apply, val_main_v27_apply, idx_v27_v28, coef_read, disp_read]
  rfl

end Stages

/-- The reference's result is the specification's total force. -/
theorem ref_force (x0 : (⟨Cert.ReferenceIdeal.S2x4096x3, .f32⟩ : BufTy).Contents (Elt Ideal)) :
    Cert.ReferenceIdeal.Read.val_main_v30 (F := Ideal) x0 = Cert.PairForce.force x0 := by
  funext i
  obtain ⟨β, p, k, rfl⟩ : ∃ β p k, i = ix3 β p k := ⟨i 0, i 1, i 2, eq_ix3 i⟩
  rw [force_apply, val_main_v30_apply, val_main_cst_8_apply]
  show Ideal.ofBits .f32 0x00000000#32 + _ = _
  rw [Ideal.ofBits_zero_f32, zero_add]
  exact Finset.sum_congr rfl fun j _ => by rw [idx_v30, pair_read]

end Cert.RefForce

end
-- ==== Proof.lean ====
/-
  The all-pairs Lennard-Jones force: a tiled kernel against the plain all-pairs sum.

  The program returns two arrays. The first, momenta over masses, is one host division in both programs. The
  second is the force on every particle. The reference forms, for each batch, the 4096 × 4096 displacements
  d = q_i − q_j, the coefficient c(|d|²) = ((24·w)·w³)·(2·w³ − 1) with w = 1/|d|² where |d|² > 0 and 0 elsewhere,
  and sums c·d over the partner j. The kernel splits the 4096 particles into 8 tiles of 512 and walks the 36
  unordered tile pairs (I ≤ J) of each batch, keeping a [4096, 3] accumulator: at the first pair it is reset to
  zero; at every pair the rows of tile I gain, row by row, the sum over tile J's 512 particles of c·d; and at an
  off-diagonal pair the rows of tile J gain zero minus the column sums of the same 512 × 512 products — Newton's
  third law: the force of i on j is the negated force of j on i. At the last pair the accumulator is copied out.

  On the extended reals the two agree for finite positions: every product c·d is then a real number, the force
  is antisymmetric, so the negated column sums are the row sums of the mirrored tile pair; over the 36 pairs
  every tile J contributes to every tile I exactly once; and a sum over 4096 partners is the sum over 8 tiles of
  the sums over 512. Finiteness is used exactly there (negating a sum term by term needs finite terms). The
  squared distance is associated differently on the two sides and the reference guards its division by a second
  select and multiplies by a literal one; those differences vanish outright.

  The frames: the kernel's launch is followed point by point — the accumulator named after every grid point, the
  two tile tables (constants of the program) held read-only, the side conditions the body assumes of the tile
  indices it loads (512·index names 512 rows inside the 4096) proved of the literal tables — once for any float
  instance, and read at the word-level instance and at the ideal one.
-/
import proofs.«138107_j13151189860959_2_alg».proof.Defs
import proofs.«138107_j13151189860959_2_alg».proof.Proof.Gen.Kernel
import proofs.«138107_j13151189860959_2_alg».proof.Proof.Gen.KernelIdeal
import proofs.«138107_j13151189860959_2_alg».proof.Proof.Gen.ReferenceIdeal
import proofs.«138107_j13151189860959_2_alg».proof.Proof.Gen.ReferenceIdeal.Run
import proofs.«138107_j13151189860959_2_alg».proof.Proof.Gen.ReferenceIdeal.Read
import proofs.«138107_j13151189860959_2_alg».proof.Proof.Gen.Pre_finite_inputs
import proofs.«138107_j13151189860959_2_alg».proof.Proof.Bits.FrameThm
import proofs.«138107_j13151189860959_2_alg».proof.Proof.FrameThm
import proofs.«138107_j13151189860959_2_alg».proof.Proof.TrajGlue
import proofs.«138107_j13151189860959_2_alg».proof.Proof.RefForce
import proofs.«138107_j13151189860959_2_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel (hKernel := Cert.Kernel.Gen.facts) (hPre_finite_inputs := Cert.Pre_finite_inputs.Gen.facts) :=
  fun m ρ _ => Cert.Kernel.Hand.frame (F := Bits) m ρ

/-- The idealized kernel runs and leaves its arguments unchanged. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference runs and leaves its arguments unchanged: its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs end with momenta over masses and the total pair force of the finite positions. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  have hq : ∀ (c : Dev Cert.KernelIdeal.nD) idx, Cert.LibExtReal.IsReal (m ((c.tc : Thread Cert.KernelIdeal.nD Cert.KernelIdeal.τ).loc Cert.KernelIdeal.main_arg0) idx) :=
    fun c idx => Cert.FiniteInputs.q_isReal m hpre c idx
  refine ⟨_, _, (θ_run Cert.KernelIdeal.defs _ _).mono (fun r h c => ⟨(h c).1, (h c).2.1.trans (Cert.KernelIdeal.Hand.arrAt_force m hq c), (h c).2.2⟩)
      (Cert.KernelIdeal.Hand.run_value (F := Ideal) m ρ), ?_⟩
  refine (θ_run Cert.ReferenceIdeal.defs _ _).mono (fun _ h c => ⟨?_, ?_, (h c).2.2⟩)
    (Cert.ReferenceIdeal.Value.run (F := Ideal) m' ρ')
  · rw [(h c).1, (hagree c).2.1, (hagree c).2.2.1]
  · rw [(h c).2.1, Cert.ReferenceIdeal.Read.val_main_v30_eq, Cert.RefForce.ref_force, (hagree c).1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
